-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x256 : Shape := ⟨2, ![4096, 256]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel

variable [Facts]

def fn {F : FTy → Type} [FloatOps F] (main_arg0 : FVec F S4096x256 .f32) (main_arg1 : FVec F S4096x256 .f32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S4096x256 .f32 := Host.absf main_arg1
  let main_cst_0 : FVec F S_ .f32 := constant S_ .f32 0x7F800000#32
  let main_v5 : FVec F S4096x256 .f32 := broadcastInDim S4096x256 ![] bcast_S_S4096x256 main_cst_0
  let main_v6 : IVec S4096x256 1 := cmpf .olt main_v4 main_v5
  let main_c_1 : IVec S_ 1 := constantI S_ 1 1#1
  let main_v7 : IVec S_ 1 := (fun x v => Host.reduce IntOp.andi x v reducesTo_S4096x256_S_d0_1 h_S_) main_v6 main_c_1
  let main_v8 : IVec S_ 1 := andi main_v3 main_v7
  main_v8
-- ==== Kernel.lean ====
abbrev S4096x256 : Shape := ⟨2, ![4096, 256]⟩
abbrev S_ : Shape := ⟨0, ![]⟩
abbrev S4096 : Shape := ⟨1, ![4096]⟩
abbrev S4096x1 : Shape := ⟨2, ![4096, 1]⟩
abbrev S512x256 : Shape := ⟨2, ![512, 256]⟩
abbrev S512x1 : Shape := ⟨2, ![512, 1]⟩
abbrev S256x512 : Shape := ⟨2, ![256, 512]⟩
abbrev S512x512 : Shape := ⟨2, ![512, 512]⟩
abbrev S512 : Shape := ⟨1, ![512]⟩

abbrev nBuf : Space → Nat
  | .hbm => 32
  | .vmem => 12
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S4096x256, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S4096x256, .f32⟩
  | .hbm, ⟨11, _⟩ => ⟨S4096x256, .f32⟩
  | .hbm, ⟨12, _⟩ => ⟨S4096x256, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x256, .f32⟩
  | .hbm, ⟨21, _⟩ => ⟨S4096x256, .f32⟩
  | .hbm, ⟨22, _⟩ => ⟨S4096x1, .f32⟩
  | .hbm, ⟨23, _⟩ => ⟨S4096x1, .f32⟩
  | .hbm, ⟨24, _⟩ => ⟨S4096, .f32⟩
  | .hbm, ⟨25, _⟩ => ⟨S4096, .f32⟩
  | .hbm, ⟨26, _⟩ => ⟨S4096, .f32⟩
  | .hbm, ⟨27, _⟩ => ⟨S4096, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S512x1, .f32⟩
  | .local _ .vmem, ⟨7, _⟩ => ⟨S512x1, .f32⟩
  | .local _ .vmem, ⟨8, _⟩ => ⟨S512x1, .f32⟩
  | .local _ .vmem, ⟨9, _⟩ => ⟨S512x1, .f32⟩
  | .local _ .vmem, ⟨10, _⟩ => ⟨S512x1, .f32⟩
  | .local _ .vmem, ⟨11, _⟩ => ⟨S512x1, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16_0 : Ref sig .tc := ⟨.hbm, 22, rfl⟩
abbrev main_v16_1 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_3 : Ref sig .tc := ⟨.hbm, 28, rfl⟩
abbrev main_v21 : Ref sig .tc := ⟨.hbm, 29, rfl⟩
abbrev main_cst_4 : Ref sig .tc := ⟨.hbm, 30, rfl⟩
abbrev main_v22 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v51 : BitVec 1 := Scalar.cmpi .eq arg1 c7_i32
  let v52 : BitVec 32 := Scalar.extui v51
  let c0_i32_24 : BitVec 32 := 0#32
  let v53 : BitVec 1 := Scalar.cmpi .ne v52 c0_i32_24
  v53

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  reducesTo_S4096x256_S4096_d1 : S4096x256.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x256_0_1 : S4096x1.BroadcastsInDim S4096x256 (![0, 1] : Fin 2 → Fin S4096x256.rank)
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x256_S512x256_0_0 : ∀ a, (![0, 0] : Fin 2 → Nat) a + S512x256.size a ≤ S512x256.size a
  h_S512x256 : 0 < S512x256.numel
  shapeCasts_S512x256_S512x256 : S512x256.ShapeCasts S512x256
  transposes_S512x256_p1_0_S256x512 : S512x256.Transposes [1, 0] S256x512
  iota_S512x512_d0_w32 : S512x512.Iotas .tc 32 [0]
  iota_S512x512_d1_w32 : S512x512.Iotas .tc 32 [1]
  reduces_S512x512_S512 : S512x512.Reduces [1] S512
  shapeCasts_S512_S512x1 : S512.ShapeCasts S512x1
  shapeCasts_S4096x1_S4096 : S4096x1.ShapeCasts S4096
  reducesTo_S4096_S_d0 : S4096.ReducesTo [0] S_
  dot_S512x256_S256x512_S512x512_1_0_0_1_n_n_wf : DotDims.WF S512x256 S256x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x256.size a ≤ S4096x256.size a
  hwx0_0 : ∀ i : grid0.Coords, EltTy.bits .f32 = 32 ∨ (Rect.block (s := S4096x256) S512x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S4096x256.size a
  hwx0_1 : ∀ i : grid0.Coords, EltTy.bits .f32 = 32 ∨ (Rect.block (s := S4096x256) S512x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x256.size a ≤ S4096x256.size a
  hwx0_2 : ∀ i : grid0.Coords, EltTy.bits .f32 = 32 ∨ (Rect.block (s := S4096x256) S512x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1.size a ≤ S4096x1.size a
  hwx0_3 : ∀ i : grid0.Coords, EltTy.bits .f32 = 32 ∨ (Rect.block (s := S4096x1) S512x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1.size a ≤ S4096x1.size a
  hwx0_4 : ∀ i : grid0.Coords, EltTy.bits .f32 = 32 ∨ (Rect.block (s := S4096x1) S512x1.size (cc0_transform_4 i) (hinb0_4 i)).WholeWords (EltTy.packing .f32)

variable [Facts₀]

def dot_S512x256_S256x512_S512x512_1_0_0_1_n_n : DotDims S512x256 S256x512 S512x512 where
  lhsContracting := [1]
  rhsContracting := [0]
  lhsNonContracting := [0]
  rhsNonContracting := [1]
  lhsBatch := []
  rhsBatch := []
  wf := dot_S512x256_S256x512_S512x512_1_0_0_1_n_n_wf

abbrev win0_0 : Pipeline.Window sig grid0 :=
  Pipeline.Window.ofSpec (Memref.whole main_v7) S512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S512x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S512x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16_0) S512x1.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v16_1) S512x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun i => !(k0_cond2 i == 1#1) | 4 => fun i => !(k0_cond2 i == 1#1) | ⟨_ + 5, h⟩ => absurd h (Nat.not_lt.2 (Nat.le_add_left _ _))

class Facts : Prop extends Facts₀ where

variable [Facts]
-- ==== ReferenceIdeal.lean ====
abbrev S4096x256 : Shape := ⟨2, ![4096, 256]⟩
abbrev S8192x256 : Shape := ⟨2, ![8192, 256]⟩
abbrev S_ : Shape := ⟨0, ![]⟩
abbrev S8192 : Shape := ⟨1, ![8192]⟩
abbrev S8192x1 : Shape := ⟨2, ![8192, 1]⟩
abbrev S8192x8192 : Shape := ⟨2, ![8192, 8192]⟩
abbrev S1x8192 : Shape := ⟨2, ![1, 8192]⟩
abbrev S4096 : Shape := ⟨1, ![4096]⟩
abbrev S4096x1 : Shape := ⟨2, ![4096, 1]⟩
abbrev S4096x2 : Shape := ⟨2, ![4096, 2]⟩

abbrev nBuf : Space → Nat
  | .hbm => 103
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S8192x256, .f32⟩
  | .hbm, ⟨3, _⟩ => ⟨S8192x256, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S8192x256, .f32⟩
  | .hbm, ⟨12, _⟩ => ⟨S8192x256, .f32⟩
  | .hbm, ⟨13, _⟩ => ⟨S8192x8192, .f32⟩
  | .hbm, ⟨14, _⟩ => ⟨S_, .f32⟩
  | .hbm, ⟨15, _⟩ => ⟨S8192x8192, .f32⟩
  | .hbm, ⟨16, _⟩ => ⟨S8192x8192, .f32⟩
  | .hbm, ⟨17, _⟩ => ⟨S8192, .i32⟩
  | .hbm, ⟨18, _⟩ => ⟨S8192x1, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S_, .i1⟩
  | .hbm, ⟨23, _⟩ => ⟨S_, .i32⟩
  | .hbm, ⟨24, _⟩ => ⟨S_, .i32⟩
  | .hbm, ⟨25, _⟩ => ⟨S8192x1, .i32⟩
  | .hbm, ⟨26, _⟩ => ⟨S8192x1, .i32⟩
  | .hbm, ⟨27, _⟩ => ⟨S_, .i32⟩
  | .hbm, ⟨28, _⟩ => ⟨S8192x1, .i32⟩
  | .hbm, ⟨29, _⟩ => ⟨S8192x1, .i1⟩
  | .hbm, ⟨30, _⟩ => ⟨S_, .i32⟩
  | .hbm, ⟨31, _⟩ => ⟨S8192x1, .i32⟩
  | .hbm, ⟨32, _⟩ => ⟨S8192x1, .i1⟩
  | .hbm, ⟨33, _⟩ => ⟨S_, .i32⟩
  | .hbm, ⟨34, _⟩ => ⟨S_, .i1⟩
  | .hbm, ⟨35, _⟩ => ⟨S8192x1, .i1⟩
  | .hbm, ⟨36, _⟩ => ⟨S8192x1, .i1⟩
  | .hbm, ⟨37, _⟩ => ⟨S8192x1, .i1⟩
  | .hbm, ⟨38, _⟩ => ⟨S8192x1, .i32⟩
  | .hbm, ⟨39, _⟩ => ⟨S8192x1, .i32⟩
  | .hbm, ⟨40, _⟩ => ⟨S8192x1, .i32⟩
  | .hbm, ⟨41, _⟩ => ⟨S1x8192, .i32⟩
  | .hbm, ⟨42, _⟩ => ⟨S_, .i32⟩
  | .hbm, ⟨43, _⟩ => ⟨S_, .i32⟩
  | .hbm, ⟨44, _⟩ => ⟨S_, .i32⟩
  | .hbm, ⟨45, _⟩ => ⟨S_, .i1⟩
  | .hbm, ⟨46, _⟩ => ⟨S_, .i32⟩
  | .hbm, ⟨47, _⟩ => ⟨S_, .i32⟩
  | .hbm, ⟨48, _⟩ => ⟨S1x8192, .i32⟩
  | .hbm, ⟨49, _⟩ => ⟨S1x8192, .i32⟩
  | .hbm, ⟨50, _⟩ => ⟨S_, .i32⟩
  | .hbm, ⟨51, _⟩ => ⟨S1x8192, .i32⟩
  | .hbm, ⟨52, _⟩ => ⟨S1x8192, .i1⟩
  | .hbm, ⟨53, _⟩ => ⟨S_, .i32⟩
  | .hbm, ⟨54, _⟩ => ⟨S1x8192, .i32⟩
  | .hbm, ⟨55, _⟩ => ⟨S1x8192, .i1⟩
  | .hbm, ⟨56, _⟩ => ⟨S_, .i32⟩
  | .hbm, ⟨57, _⟩ => ⟨S_, .i1⟩
  | .hbm, ⟨58, _⟩ => ⟨S1x8192, .i1⟩
  | .hbm, ⟨59, _⟩ => ⟨S1x8192, .i1⟩
  | .hbm, ⟨60, _⟩ => ⟨S1x8192, .i1⟩
  | .hbm, ⟨61, _⟩ => ⟨S1x8192, .i32⟩
  | .hbm, ⟨62, _⟩ => ⟨S1x8192, .i32⟩
  | .hbm, ⟨63, _⟩ => ⟨S1x8192, .i32⟩
  | .hbm, ⟨64, _⟩ => ⟨S8192x8192, .i32⟩
  | .hbm, ⟨65, _⟩ => ⟨S8192x8192, .i32⟩
  | .hbm, ⟨66, _⟩ => ⟨S8192x8192, .i1⟩
  | .hbm, ⟨67, _⟩ => ⟨S8192x8192, .f32⟩
  | .hbm, ⟨68, _⟩ => ⟨S8192x8192, .f32⟩
  | .hbm, ⟨69, _⟩ => ⟨S8192x8192, .f32⟩
  | .hbm, ⟨70, _⟩ => ⟨S_, .f32⟩
  | .hbm, ⟨71, _⟩ => ⟨S8192, .f32⟩
  | .hbm, ⟨72, _⟩ => ⟨S4096, .i32⟩
  | .hbm, ⟨73, _⟩ => ⟨S_, .i32⟩
  | .hbm, ⟨74, _⟩ => ⟨S4096, .i32⟩
  | .hbm, ⟨75, _⟩ => ⟨S4096, .i32⟩
  | .hbm, ⟨76, _⟩ => ⟨S_, .i32⟩
  | .hbm, ⟨77, _⟩ => ⟨S4096, .i32⟩
  | .hbm, ⟨78, _⟩ => ⟨S4096, .i1⟩
  | .hbm, ⟨79, _⟩ => ⟨S_, .i32⟩
  | .hbm, ⟨80, _⟩ => ⟨S4096, .i32⟩
  | .hbm, ⟨81, _⟩ => ⟨S4096, .i32⟩
  | .hbm, ⟨82, _⟩ => ⟨S4096, .i32⟩
  | .hbm, ⟨83, _⟩ => ⟨S_, .i32⟩
  | .hbm, ⟨84, _⟩ => ⟨S4096, .i32⟩
  | .hbm, ⟨85, _⟩ => ⟨S4096, .i1⟩
  | .hbm, ⟨86, _⟩ => ⟨S_, .i32⟩
  | .hbm, ⟨87, _⟩ => ⟨S4096, .i32⟩
  | .hbm, ⟨88, _⟩ => ⟨S4096, .i32⟩
  | .hbm, ⟨89, _⟩ => ⟨S4096, .i32⟩
  | .hbm, ⟨90, _⟩ => ⟨S4096x1, .i32⟩
  | .hbm, ⟨91, _⟩ => ⟨S4096x1, .i32⟩
  | .hbm, ⟨92, _⟩ => ⟨S4096x2, .i32⟩
  | .hbm, ⟨93, _⟩ => ⟨S4096, .f32⟩
  | .hbm, ⟨94, _⟩ => ⟨S4096, .f32⟩
  | .hbm, ⟨95, _⟩ => ⟨S4096, .f32⟩
  | .hbm, ⟨96, _⟩ => ⟨S4096, .f32⟩
  | .hbm, ⟨97, _⟩ => ⟨S4096, .f32⟩
  | .hbm, ⟨98, _⟩ => ⟨S_, .f32⟩
  | .hbm, ⟨99, _⟩ => ⟨S_, .f32⟩
  | .hbm, ⟨100, _⟩ => ⟨S_, .f32⟩
  | .hbm, ⟨101, _⟩ => ⟨S_, .f32⟩
  | .hbm, ⟨102, _⟩ => ⟨S_, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_c : Ref sig .tc := ⟨.hbm, 19, rfl⟩
abbrev main_call0_v0 : Ref sig .tc := ⟨.hbm, 20, rfl⟩
abbrev main_call0_c : Ref sig .tc := ⟨.hbm, 21, rfl⟩
abbrev main_call0_v1 : Ref sig .tc := ⟨.hbm, 22, rfl⟩
abbrev main_call0_c_0 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_c_1 : Ref sig .tc := ⟨.hbm, 27, rfl⟩
abbrev main_call0_v5 : Ref sig .tc := ⟨.hbm, 28, rfl⟩
abbrev main_call0_v6 : Ref sig .tc := ⟨.hbm, 29, rfl⟩
abbrev main_call0_c_2 : Ref sig .tc := ⟨.hbm, 30, rfl⟩
abbrev main_call0_v7 : Ref sig .tc := ⟨.hbm, 31, rfl⟩
abbrev main_call0_v8 : Ref sig .tc := ⟨.hbm, 32, rfl⟩
abbrev main_call0_c_3 : Ref sig .tc := ⟨.hbm, 33, rfl⟩
abbrev main_call0_v9 : Ref sig .tc := ⟨.hbm, 34, rfl⟩
abbrev main_call0_v10 : Ref sig .tc := ⟨.hbm, 35, rfl⟩
abbrev main_call0_v11 : Ref sig .tc := ⟨.hbm, 36, rfl⟩
abbrev main_call0_v12 : Ref sig .tc := ⟨.hbm, 37, rfl⟩
abbrev main_call0_v13 : Ref sig .tc := ⟨.hbm, 38, rfl⟩
abbrev main_call0_v14 : Ref sig .tc := ⟨.hbm, 39, rfl⟩
abbrev main_v14 : Ref sig .tc := ⟨.hbm, 40, rfl⟩
abbrev main_v15 : Ref sig .tc := ⟨.hbm, 41, rfl⟩
abbrev main_c_2 : Ref sig .tc := ⟨.hbm, 42, rfl⟩
abbrev main_call1_v0 : Ref sig .tc := ⟨.hbm, 43, rfl⟩
abbrev main_call1_c : Ref sig .tc := ⟨.hbm, 44, rfl⟩
abbrev main_call1_v1 : Ref sig .tc := ⟨.hbm, 45, rfl⟩
abbrev main_call1_c_0 : Ref sig .tc := ⟨.hbm, 46, rfl⟩
abbrev main_call1_v2 : Ref sig .tc := ⟨.hbm, 47, rfl⟩
abbrev main_call1_v3 : Ref sig .tc := ⟨.hbm, 48, rfl⟩
abbrev main_call1_v4 : Ref sig .tc := ⟨.hbm, 49, rfl⟩
abbrev main_call1_c_1 : Ref sig .tc := ⟨.hbm, 50, rfl⟩
abbrev main_call1_v5 : Ref sig .tc := ⟨.hbm, 51, rfl⟩
abbrev main_call1_v6 : Ref sig .tc := ⟨.hbm, 52, rfl⟩
abbrev main_call1_c_2 : Ref sig .tc := ⟨.hbm, 53, rfl⟩
abbrev main_call1_v7 : Ref sig .tc := ⟨.hbm, 54, rfl⟩
abbrev main_call1_v8 : Ref sig .tc := ⟨.hbm, 55, rfl⟩
abbrev main_call1_c_3 : Ref sig .tc := ⟨.hbm, 56, rfl⟩
abbrev main_call1_v9 : Ref sig .tc := ⟨.hbm, 57, rfl⟩
abbrev main_call1_v10 : Ref sig .tc := ⟨.hbm, 58, rfl⟩
abbrev main_call1_v11 : Ref sig .tc := ⟨.hbm, 59, rfl⟩
abbrev main_call1_v12 : Ref sig .tc := ⟨.hbm, 60, rfl⟩
abbrev main_call1_v13 : Ref sig .tc := ⟨.hbm, 61, rfl⟩
abbrev main_call1_v14 : Ref sig .tc := ⟨.hbm, 62, rfl⟩
abbrev main_v16 : Ref sig .tc := ⟨.hbm, 63, rfl⟩
abbrev main_v17 : Ref sig .tc := ⟨.hbm, 64, rfl⟩
abbrev main_v18 : Ref sig .tc := ⟨.hbm, 65, rfl⟩
abbrev main_v19 : Ref sig .tc := ⟨.hbm, 66, rfl⟩
abbrev main_v20 : Ref sig .tc := ⟨.hbm, 67, rfl⟩
abbrev main_v21 : Ref sig .tc := ⟨.hbm, 68, rfl⟩
abbrev main_v22 : Ref sig .tc := ⟨.hbm, 69, rfl⟩
abbrev main_cst_3 : Ref sig .tc := ⟨.hbm, 70, rfl⟩
abbrev main_v23 : Ref sig .tc := ⟨.hbm, 71, rfl⟩
abbrev main_v24 : Ref sig .tc := ⟨.hbm, 72, rfl⟩
abbrev main_c_4 : Ref sig .tc := ⟨.hbm, 73, rfl⟩
abbrev main_v25 : Ref sig .tc := ⟨.hbm, 74, rfl⟩
abbrev main_v26 : Ref sig .tc := ⟨.hbm, 75, rfl⟩
abbrev main_c_5 : Ref sig .tc := ⟨.hbm, 76, rfl⟩
abbrev main_v27 : Ref sig .tc := ⟨.hbm, 77, rfl⟩
abbrev main_v28 : Ref sig .tc := ⟨.hbm, 78, rfl⟩
abbrev main_c_6 : Ref sig .tc := ⟨.hbm, 79, rfl⟩
abbrev main_v29 : Ref sig .tc := ⟨.hbm, 80, rfl⟩
abbrev main_v30 : Ref sig .tc := ⟨.hbm, 81, rfl⟩
abbrev main_v31 : Ref sig .tc := ⟨.hbm, 82, rfl⟩
abbrev main_c_7 : Ref sig .tc := ⟨.hbm, 83, rfl⟩
abbrev main_v32 : Ref sig .tc := ⟨.hbm, 84, rfl⟩
abbrev main_v33 : Ref sig .tc := ⟨.hbm, 85, rfl⟩
abbrev main_c_8 : Ref sig .tc := ⟨.hbm, 86, rfl⟩
abbrev main_v34 : Ref sig .tc := ⟨.hbm, 87, rfl⟩
abbrev main_v35 : Ref sig .tc := ⟨.hbm, 88, rfl⟩
abbrev main_v36 : Ref sig .tc := ⟨.hbm, 89, rfl⟩
abbrev main_v37 : Ref sig .tc := ⟨.hbm, 90, rfl⟩
abbrev main_v38 : Ref sig .tc := ⟨.hbm, 91, rfl⟩
abbrev main_v39 : Ref sig .tc := ⟨.hbm, 92, rfl⟩
abbrev main_v40 : Ref sig .tc := ⟨.hbm, 93, rfl⟩
abbrev main_v41 : Ref sig .tc := ⟨.hbm, 94, rfl⟩
abbrev main_v42 : Ref sig .tc := ⟨.hbm, 95, rfl⟩
abbrev main_v43 : Ref sig .tc := ⟨.hbm, 96, rfl⟩
abbrev main_v44 : Ref sig .tc := ⟨.hbm, 97, rfl⟩
abbrev main_cst_9 : Ref sig .tc := ⟨.hbm, 98, rfl⟩
abbrev main_v45 : Ref sig .tc := ⟨.hbm, 99, rfl⟩
abbrev main_cst_10 : Ref sig .tc := ⟨.hbm, 100, rfl⟩
abbrev main_v46 : Ref sig .tc := ⟨.hbm, 101, rfl⟩
abbrev main_v47 : Ref sig .tc := ⟨.hbm, 102, rfl⟩

abbrev nD : Nat := 1
abbrev τ : Topo := Topo.v7x

variable {F : FTy → Type} [FloatOps F]

class Facts₀ : Prop where
  concatenates_S4096x256_S4096x256_S8192x256_d0 : Shape.Concatenates [S4096x256, S4096x256] S8192x256 0
  reducesTo_S8192x256_S8192_d1 : S8192x256.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x256_0_1 : S8192x1.BroadcastsInDim S8192x256 (![0, 1] : Fin 2 → Fin S8192x256.rank)
  bcast_S_S8192x8192 : S_.BroadcastsInDim S8192x8192 (![] : Fin 0 → Fin S8192x8192.rank)
  bcast_S8192_S1x8192_1 : S8192.BroadcastsInDim S1x8192 (![1] : Fin 1 → Fin S1x8192.rank)
  bcast_S_S1x8192 : S_.BroadcastsInDim S1x8192 (![] : Fin 0 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  reducesTo_S8192x8192_S8192_d1 : S8192x8192.ReducesTo [1] S8192
  bcast_S_S4096 : S_.BroadcastsInDim S4096 (![] : Fin 0 → Fin S4096.rank)
  bcast_S4096_S4096x1_0 : S4096.BroadcastsInDim S4096x1 (![0] : Fin 1 → Fin S4096x1.rank)
  concatenates_S4096x1_S4096x1_S4096x2_d1 : Shape.Concatenates [S4096x1, S4096x1] S4096x2 1
  slices_S8192_S4096_0 : S8192.Slices ![0] S4096
  reducesTo_S4096_S_d0 : S4096.ReducesTo [0] S_
  dot_S8192x256_S8192x256_S8192x8192_1_1_0_0_n_n_wf : DotDims.WF S8192x256 S8192x256 S8192x8192 [1] [1] [0] [0] [] []
  gather_S8192x8192_S4096x2_S4096_n_01_n_n_01_1_11_wf : GatherDims.WF S8192x8192 S4096x2 S4096 [] [0, 1] [] [0, 1] [] 1 ![1, 1]

variable [Facts₀]

def dot_S8192x256_S8192x256_S8192x8192_1_1_0_0_n_n : DotDims S8192x256 S8192x256 S8192x8192 where
  lhsContracting := [1]
  rhsContracting := [1]
  lhsNonContracting := [0]
  rhsNonContracting := [0]
  lhsBatch := []
  rhsBatch := []
  wf := dot_S8192x256_S8192x256_S8192x8192_1_1_0_0_n_n_wf
def gather_S8192x8192_S4096x2_S4096_n_01_n_n_01_1_11 : GatherDims S8192x8192 S4096x2 S4096 where
  offsetDims := []
  collapsedSliceDims := [0, 1]
  operandBatchingDims := []
  startIndicesBatchingDims := []
  startIndexMap := [0, 1]
  indexVectorDim := 1
  sliceSizes := ![1, 1]
  wf := gather_S8192x8192_S4096x2_S4096_n_01_n_n_01_1_11_wf

class Facts : Prop extends Facts₀ where

variable [Facts]
-- ==== Proof.KRuns.lean ====
/-
  The setting of the kernel's grid region on one core. The contents the region finds on entry are those the
  operations before it leave. Each input window's staging buffer holds, at every grid point, that window's block
  of its array. The body's first conditional holds exactly at the points ≡ 0 (mod 8), the first column block of a
  row of blocks, and its second exactly at the points ≡ 7 (mod 8), the last; the two output windows are idle at
  every other point. The two scratch accumulators the body carries from point to point are whole buffers of the
  kernel's own, and the region's invariant owns them at some contents.
-/
import proofs.«171112_j24275155156992_1_alg».proof.Proof.Gen.KernelIdeal.Launch
import proofs.«171112_j24275155156992_1_alg».proof.Proof.Gen.KernelIdeal.Skeleton
import proofs.«171112_j24275155156992_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.KBody

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The region-entry contents -/

/-- Core `c`'s TensorCore buffer contents when the region is entered, as a valuation: after the host operations
    before the region. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for any proof
    data whose array is the region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not, for any proof
    data whose array is the region-entry contents and whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not, for any proof
    data whose array is the region-entry contents and whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The condition of the body's first conditional (the column-block coordinate is 0), from the grid coordinates. -/
abbrev cond0_0 (i : grid0.Coords) : Prop := (Scalar.cmpi .ne (Scalar.extui (Scalar.cmpi .eq (BitVec.ofNat 32 (i 1).val) 0#32)) 0#32) = 1#1
/-- It holds at the points ≡ 0 (mod 8). -/
theorem hcond0_0 : ∀ t : Fin cfg0.N, cond0_0 (grid0.coords t) ↔ t.val % 8 = 0 :=
  (by decide +kernel : ∀ t : Fin grid0.N, cond0_0 (grid0.coords t) ↔ t.val % 8 = 0)

/-- The condition of the body's second conditional (the column-block coordinate is 7), from the grid coordinates. -/
abbrev cond0_1 (i : grid0.Coords) : Prop := k0_cond2 i = 1#1
/-- It holds at the points ≡ 7 (mod 8). -/
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem idleAt0_3_A : ∀ t : Fin cfg0.N, cond0_0 (grid0.coords t) → ¬cond0_1 (grid0.coords t) → cfg0.idle 3 (grid0.coords t) = true := by decide +kernel
theorem noFlush0_3_A : ∀ t : Fin cfg0.N, cond0_0 (grid0.coords t) → ¬cond0_1 (grid0.coords t) → (cfg0.win 3).flush t = false := by decide +kernel
theorem idleAt0_4_A : ∀ t : Fin cfg0.N, cond0_0 (grid0.coords t) → ¬cond0_1 (grid0.coords t) → cfg0.idle 4 (grid0.coords t) = true := by decide +kernel
theorem noFlush0_4_A : ∀ t : Fin cfg0.N, cond0_0 (grid0.coords t) → ¬cond0_1 (grid0.coords t) → (cfg0.win 4).flush t = false := by decide +kernel
theorem idleAt0_3_B : ∀ t : Fin cfg0.N, ¬cond0_0 (grid0.coords t) → ¬cond0_1 (grid0.coords t) → cfg0.idle 3 (grid0.coords t) = true := by decide +kernel
theorem noFlush0_3_B : ∀ t : Fin cfg0.N, ¬cond0_0 (grid0.coords t) → ¬cond0_1 (grid0.coords t) → (cfg0.win 3).flush t = false := by decide +kernel
theorem idleAt0_4_B : ∀ t : Fin cfg0.N, ¬cond0_0 (grid0.coords t) → ¬cond0_1 (grid0.coords t) → cfg0.idle 4 (grid0.coords t) = true := by decide +kernel
theorem noFlush0_4_B : ∀ t : Fin cfg0.N, ¬cond0_0 (grid0.coords t) → ¬cond0_1 (grid0.coords t) → (cfg0.win 4).flush t = false := by decide +kernel
theorem liveAt0_3_C : ∀ t : Fin cfg0.N, ¬cond0_0 (grid0.coords t) → cond0_1 (grid0.coords t) → cfg0.idle 3 (grid0.coords t) = false := by decide +kernel
theorem liveAt0_4_C : ∀ t : Fin cfg0.N, ¬cond0_0 (grid0.coords t) → cond0_1 (grid0.coords t) → cfg0.idle 4 (grid0.coords t) = false := by decide +kernel

/-! ## The staging and scratch memrefs -/

/-- One staging buffer of each output window, through which its contents are stated. -/
abbrev VO0_3 : View sig .tc .vmem S512x1 .f32 := (Memref.whole cc0_stg3_0 : Memref sig .tc .vmem S512x1 .f32).view
abbrev VO0_4 : View sig .tc .vmem S512x1 .f32 := (Memref.whole cc0_stg4_0 : Memref sig .tc .vmem S512x1 .f32).view
/-- Each window's current staging memref at point `t`, and its wholeness. -/
abbrev ms0_0 (t : Fin cfg0.N) : Memref sig .tc .vmem S512x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x1 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x1 .f32 := win0_4.stage (cfg0.slots t 4)
abbrev hs0_4 (t : Fin cfg0.N) : (ms0_4 t).IsWhole := hstage0_4 ((cfg0.slots t 4).cast nbuf0_4)
/-- The scratch operands: whole scoped buffers of the kernel's own, passed beside the windows. -/
abbrev scM0_0 : Memref sig .tc .vmem S512x1 .f32 := Memref.whole cc0_scratch0
abbrev scM0_1 : Memref sig .tc .vmem S512x1 .f32 := Memref.whole cc0_scratch1
/-- The two scratch accumulators the kernel carries between points, as views. -/
abbrev VS0_0 : View sig .tc .vmem S512x1 .f32 := scM0_0.view
abbrev VS0_1 : View sig .tc .vmem S512x1 .f32 := scM0_1.view

/-- The region's invariant with the scratch operands as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelIdeal.KBody

end
-- ==== Proof.KRunA.lean ====
/-
  The body at a first column block (its first conditional taken, its second not). On whole memrefs — the inputs'
  at their contents, the idle outputs' at contents handed back untouched, the two scratch accumulators at anything —
  the body runs to its continuation with the inputs and the outputs as they were and each scratch accumulator
  holding the pieces the body's stores wrote, the last store first.
-/
import proofs.«171112_j24275155156992_1_alg».proof.Proof.KRuns

set_option maxRecDepth 16384

noncomputable section

namespace Cert.KernelIdeal.KBody

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 1000000 in
/-- What the body's stores leave in each output's staging memref and in the two scratch accumulators, as pieces
    (last first), in case A (first conditional taken, second not), with the proof that on whole memrefs — the inputs' at their contents,
    the outputs' (idle here) at contents handed back untouched, the scratch accumulators at anything — the body runs to the continuation holding
    the inputs' as they were, the outputs' as they were and each scratch accumulator with its pieces written. -/
noncomputable def kernelRun0_A (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x256 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : cond0_0 i) (hc1 : ¬cond0_1 i)
    (x0 : Vec F S512x256 .f32) (x1 : Vec F S512x256 .f32) (x2 : Vec F S512x256 .f32) :
    Σ' (L3 : List (View.Piece (Elt F) S512x1 .f32)) (L4 : List (View.Piece (Elt F) S512x1 .f32)) (LS0 : List (View.Piece (Elt F) S512x1 .f32)), { LS1 : List (View.Piece (Elt F) S512x1 .f32) //
      ∀ (xi3 : Vec F S512x1 .f32) (xi4 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__lambda_ i arg2 harg2 arg3 harg3 arg4 harg4 arg5 harg5 arg6 harg6 arg7 harg7 arg8 harg8) K } := by
  refine ⟨[], [], ?_, ?_, fun xi3 xi4 E K => ?run⟩
  case run =>
    simp only [cc0__lambda__eq_skeleton]; unfold cc0__lambda__skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    iexists _; iexact HS1

end Cert.KernelIdeal.KBody

end
-- ==== Proof.KRunB.lean ====
/-
  The body at a middle column block (neither conditional taken). On whole memrefs — the inputs' at their contents,
  the idle outputs' at contents handed back untouched, the two scratch accumulators at what the point before left —
  the body runs to its continuation with the inputs and the outputs as they were and each scratch accumulator
  holding the pieces the body's stores wrote, the last store first.
-/
import proofs.«171112_j24275155156992_1_alg».proof.Proof.KRunA

set_option maxRecDepth 16384

noncomputable section

namespace Cert.KernelIdeal.KBody

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 1000000 in
/-- What the body's stores leave in each output's staging memref and in the two scratch accumulators, as pieces
    (last first), in case B (neither conditional taken), with the proof that on whole memrefs — the inputs' at their contents,
    the outputs' (idle here) at contents handed back untouched, the scratch accumulators at what the point before left — the body runs to the continuation holding
    the inputs' as they were, the outputs' as they were and each scratch accumulator with its pieces written. -/
noncomputable def kernelRun0_B (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x256 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0_0 i) (hc1 : ¬cond0_1 i)
    (x0 : Vec F S512x256 .f32) (x1 : Vec F S512x256 .f32) (x2 : Vec F S512x256 .f32) (xs0 : Vec F S512x1 .f32) (xs1 : Vec F S512x1 .f32) :
    Σ' (L3 : List (View.Piece (Elt F) S512x1 .f32)) (L4 : List (View.Piece (Elt F) S512x1 .f32)) (LS0 : List (View.Piece (Elt F) S512x1 .f32)), { LS1 : List (View.Piece (Elt F) S512x1 .f32) //
      ∀ (xi3 : Vec F S512x1 .f32) (xi4 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ owns (c : Thread nD τ) arg7 fullShare xs0 ∗ owns (c : Thread nD τ) arg8 fullShare xs1
            ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__lambda_ i arg2 harg2 arg3 harg3 arg4 harg4 arg5 harg5 arg6 harg6 arg7 harg7 arg8 harg8) K } := by
  refine ⟨[], [], ?_, ?_, fun xi3 xi4 E K => ?run⟩
  case run =>
    simp only [cc0__lambda__eq_skeleton]; unfold cc0__lambda__skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0; obtain rfl := harg8.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    iexists _; iexact HS1

end Cert.KernelIdeal.KBody

end
-- ==== Proof.KRunC.lean ====
/-
  The body at a last column block (its first conditional not taken, its second taken). On whole memrefs — the
  inputs' at their contents, the outputs' at anything, the two scratch accumulators at what the point before left —
  the body runs to its continuation with the inputs as they were and each output's buffer and each scratch
  accumulator holding the pieces the body's stores wrote, the last store first.
-/
import proofs.«171112_j24275155156992_1_alg».proof.Proof.KRunB

set_option maxRecDepth 16384

noncomputable section

namespace Cert.KernelIdeal.KBody

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 1000000 in
/-- What the body's stores leave in each output's staging memref and in the two scratch accumulators, as pieces
    (last first), in case C (first conditional not taken, second taken), with the proof that on whole memrefs — the inputs' at their contents,
    the outputs' at anything, the scratch accumulators at what the point before left — the body runs to the continuation holding
    the inputs' as they were, each output's buffer with its pieces written and each scratch accumulator with its pieces written. -/
noncomputable def kernelRun0_C (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x256 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0_0 i) (hc1 : cond0_1 i)
    (x0 : Vec F S512x256 .f32) (x1 : Vec F S512x256 .f32) (x2 : Vec F S512x256 .f32) (xs0 : Vec F S512x1 .f32) (xs1 : Vec F S512x1 .f32) :
    Σ' (L3 : List (View.Piece (Elt F) S512x1 .f32)) (L4 : List (View.Piece (Elt F) S512x1 .f32)) (LS0 : List (View.Piece (Elt F) S512x1 .f32)), { LS1 : List (View.Piece (Elt F) S512x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ owns (c : Thread nD τ) arg7 fullShare xs0 ∗ owns (c : Thread nD τ) arg8 fullShare xs1
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__lambda_ i arg2 harg2 arg3 harg3 arg4 harg4 arg5 harg5 arg6 harg6 arg7 harg7 arg8 harg8) K } := by
  refine ⟨?_, ?_, ?_, ?_, fun E K => ?run⟩
  case run =>
    simp only [cc0__lambda__eq_skeleton]; unfold cc0__lambda__skel
    simp only [k0_part1_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg7.eq_unread hfs0; obtain rfl := harg8.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    isplitl [HS0]; · iexists _; iexact HS0
    iexists _; iexact HS1

end Cert.KernelIdeal.KBody

end
-- ==== Proof.KFrame.lean ====
/-
  The accumulation along the grid, and the region's proof data. For each of the body's three cases, what the case
  leaves in the two outputs' staging buffers and in the two scratch accumulators: its pieces read back, which tile
  the buffer where there are any. What the four hold after the body at position n is the contents of the case the
  point is in, run over what position n − 1 left in the accumulators; the region's invariant before position n owns
  the accumulators at exactly those contents. With the arrays as the region finds them and each input's buffer at
  its block, this is the pipeline's proof data, and the body meets its obligation at every grid point.
-/
import proofs.«171112_j24275155156992_1_alg».proof.Proof.KRunC

set_option maxRecDepth 16384

noncomputable section

namespace Cert.KernelIdeal.KBody

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- What case A leaves in output 3's staging buffer: its pieces read back over junk (no piece: the window is idle at the case's points; a placeholder nothing consults). -/
def out0_A_3 (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x256 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : cond0_0 i) (hc1 : ¬cond0_1 i)
    (x0 : Vec F S512x256 .f32) (x1 : Vec F S512x256 .f32) (x2 : Vec F S512x256 .f32) : Vec F S512x1 .f32 :=
  VO0_3.read (Elt F) (VO0_3.writes (Elt F) VO0_3.junk (kernelRun0_A c i arg2 harg2 arg3 harg3 arg4 harg4 arg5 harg5 arg6 harg6 arg7 harg7 arg8 harg8 hc0 hc1 x0 x1 x2).1)

/-- What case A leaves in output 4's staging buffer: its pieces read back over junk (no piece: the window is idle at the case's points; a placeholder nothing consults). -/
def out0_A_4 (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x256 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : cond0_0 i) (hc1 : ¬cond0_1 i)
    (x0 : Vec F S512x256 .f32) (x1 : Vec F S512x256 .f32) (x2 : Vec F S512x256 .f32) : Vec F S512x1 .f32 :=
  VO0_4.read (Elt F) (VO0_4.writes (Elt F) VO0_4.junk (kernelRun0_A c i arg2 harg2 arg3 harg3 arg4 harg4 arg5 harg5 arg6 harg6 arg7 harg7 arg8 harg8 hc0 hc1 x0 x1 x2).2.1)

/-- Case A's pieces for scratch accumulator 0 tile it, so they cover it. -/
theorem scover0_A_0 (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x256 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : cond0_0 i) (hc1 : ¬cond0_1 i)
    (x0 : Vec F S512x256 .f32) (x1 : Vec F S512x256 .f32) (x2 : Vec F S512x256 .f32) (y : S512x1.Idx) :
    ∃ pc ∈ (kernelRun0_A c i arg2 harg2 arg3 harg3 arg4 harg4 arg5 harg5 arg6 harg6 arg7 harg7 arg8 harg8 hc0 hc1 x0 x1 x2).2.2.1, y ∈ pc.1.set :=
  View.cover_of_tiledL (kernelRun0_A c i arg2 harg2 arg3 harg3 arg4 harg4 arg5 harg5 arg6 harg6 arg7 harg7 arg8 harg8 hc0 hc1 x0 x1 x2).2.2.1 S512x1.size (by sl_kernel_rfl) y

/-- Case A's pieces for scratch accumulator 1 tile it, so they cover it. -/
theorem scover0_A_1 (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x256 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : cond0_0 i) (hc1 : ¬cond0_1 i)
    (x0 : Vec F S512x256 .f32) (x1 : Vec F S512x256 .f32) (x2 : Vec F S512x256 .f32) (y : S512x1.Idx) :
    ∃ pc ∈ (kernelRun0_A c i arg2 harg2 arg3 harg3 arg4 harg4 arg5 harg5 arg6 harg6 arg7 harg7 arg8 harg8 hc0 hc1 x0 x1 x2).2.2.2.1, y ∈ pc.1.set :=
  View.cover_of_tiledL (kernelRun0_A c i arg2 harg2 arg3 harg3 arg4 harg4 arg5 harg5 arg6 harg6 arg7 harg7 arg8 harg8 hc0 hc1 x0 x1 x2).2.2.2.1 S512x1.size (by sl_kernel_rfl) y

/-- What case A leaves in scratch accumulator 0: its pieces read back over junk. -/
def sout0_A_0 (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x256 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : cond0_0 i) (hc1 : ¬cond0_1 i)
    (x0 : Vec F S512x256 .f32) (x1 : Vec F S512x256 .f32) (x2 : Vec F S512x256 .f32) : Vec F S512x1 .f32 :=
  VS0_0.read (Elt F) (VS0_0.writes (Elt F) VS0_0.junk (kernelRun0_A c i arg2 harg2 arg3 harg3 arg4 harg4 arg5 harg5 arg6 harg6 arg7 harg7 arg8 harg8 hc0 hc1 x0 x1 x2).2.2.1)

/-- What case A leaves in scratch accumulator 1: its pieces read back over junk. -/
def sout0_A_1 (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x256 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : cond0_0 i) (hc1 : ¬cond0_1 i)
    (x0 : Vec F S512x256 .f32) (x1 : Vec F S512x256 .f32) (x2 : Vec F S512x256 .f32) : Vec F S512x1 .f32 :=
  VS0_1.read (Elt F) (VS0_1.writes (Elt F) VS0_1.junk (kernelRun0_A c i arg2 harg2 arg3 harg3 arg4 harg4 arg5 harg5 arg6 harg6 arg7 harg7 arg8 harg8 hc0 hc1 x0 x1 x2).2.2.2.1)

/-- What case B leaves in output 3's staging buffer: its pieces read back over junk (no piece: the window is idle at the case's points; a placeholder nothing consults). -/
def out0_B_3 (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x256 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0_0 i) (hc1 : ¬cond0_1 i)
    (x0 : Vec F S512x256 .f32) (x1 : Vec F S512x256 .f32) (x2 : Vec F S512x256 .f32) (xs0 : Vec F S512x1 .f32) (xs1 : Vec F S512x1 .f32) : Vec F S512x1 .f32 :=
  VO0_3.read (Elt F) (VO0_3.writes (Elt F) VO0_3.junk (kernelRun0_B c i arg2 harg2 arg3 harg3 arg4 harg4 arg5 harg5 arg6 harg6 arg7 harg7 arg8 harg8 hc0 hc1 x0 x1 x2 xs0 xs1).1)

/-- What case B leaves in output 4's staging buffer: its pieces read back over junk (no piece: the window is idle at the case's points; a placeholder nothing consults). -/
def out0_B_4 (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x256 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0_0 i) (hc1 : ¬cond0_1 i)
    (x0 : Vec F S512x256 .f32) (x1 : Vec F S512x256 .f32) (x2 : Vec F S512x256 .f32) (xs0 : Vec F S512x1 .f32) (xs1 : Vec F S512x1 .f32) : Vec F S512x1 .f32 :=
  VO0_4.read (Elt F) (VO0_4.writes (Elt F) VO0_4.junk (kernelRun0_B c i arg2 harg2 arg3 harg3 arg4 harg4 arg5 harg5 arg6 harg6 arg7 harg7 arg8 harg8 hc0 hc1 x0 x1 x2 xs0 xs1).2.1)

/-- Case B's pieces for scratch accumulator 0 tile it, so they cover it. -/
theorem scover0_B_0 (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x256 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0_0 i) (hc1 : ¬cond0_1 i)
    (x0 : Vec F S512x256 .f32) (x1 : Vec F S512x256 .f32) (x2 : Vec F S512x256 .f32) (xs0 : Vec F S512x1 .f32) (xs1 : Vec F S512x1 .f32) (y : S512x1.Idx) :
    ∃ pc ∈ (kernelRun0_B c i arg2 harg2 arg3 harg3 arg4 harg4 arg5 harg5 arg6 harg6 arg7 harg7 arg8 harg8 hc0 hc1 x0 x1 x2 xs0 xs1).2.2.1, y ∈ pc.1.set :=
  View.cover_of_tiledL (kernelRun0_B c i arg2 harg2 arg3 harg3 arg4 harg4 arg5 harg5 arg6 harg6 arg7 harg7 arg8 harg8 hc0 hc1 x0 x1 x2 xs0 xs1).2.2.1 S512x1.size (by sl_kernel_rfl) y

/-- Case B's pieces for scratch accumulator 1 tile it, so they cover it. -/
theorem scover0_B_1 (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x256 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0_0 i) (hc1 : ¬cond0_1 i)
    (x0 : Vec F S512x256 .f32) (x1 : Vec F S512x256 .f32) (x2 : Vec F S512x256 .f32) (xs0 : Vec F S512x1 .f32) (xs1 : Vec F S512x1 .f32) (y : S512x1.Idx) :
    ∃ pc ∈ (kernelRun0_B c i arg2 harg2 arg3 harg3 arg4 harg4 arg5 harg5 arg6 harg6 arg7 harg7 arg8 harg8 hc0 hc1 x0 x1 x2 xs0 xs1).2.2.2.1, y ∈ pc.1.set :=
  View.cover_of_tiledL (kernelRun0_B c i arg2 harg2 arg3 harg3 arg4 harg4 arg5 harg5 arg6 harg6 arg7 harg7 arg8 harg8 hc0 hc1 x0 x1 x2 xs0 xs1).2.2.2.1 S512x1.size (by sl_kernel_rfl) y

/-- What case B leaves in scratch accumulator 0: its pieces read back over junk. -/
def sout0_B_0 (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x256 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0_0 i) (hc1 : ¬cond0_1 i)
    (x0 : Vec F S512x256 .f32) (x1 : Vec F S512x256 .f32) (x2 : Vec F S512x256 .f32) (xs0 : Vec F S512x1 .f32) (xs1 : Vec F S512x1 .f32) : Vec F S512x1 .f32 :=
  VS0_0.read (Elt F) (VS0_0.writes (Elt F) VS0_0.junk (kernelRun0_B c i arg2 harg2 arg3 harg3 arg4 harg4 arg5 harg5 arg6 harg6 arg7 harg7 arg8 harg8 hc0 hc1 x0 x1 x2 xs0 xs1).2.2.1)

/-- What case B leaves in scratch accumulator 1: its pieces read back over junk. -/
def sout0_B_1 (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x256 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0_0 i) (hc1 : ¬cond0_1 i)
    (x0 : Vec F S512x256 .f32) (x1 : Vec F S512x256 .f32) (x2 : Vec F S512x256 .f32) (xs0 : Vec F S512x1 .f32) (xs1 : Vec F S512x1 .f32) : Vec F S512x1 .f32 :=
  VS0_1.read (Elt F) (VS0_1.writes (Elt F) VS0_1.junk (kernelRun0_B c i arg2 harg2 arg3 harg3 arg4 harg4 arg5 harg5 arg6 harg6 arg7 harg7 arg8 harg8 hc0 hc1 x0 x1 x2 xs0 xs1).2.2.2.1)

/-- Case C's pieces for output 3 tile it, so they cover it. -/
theorem cover0_C_3 (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x256 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0_0 i) (hc1 : cond0_1 i)
    (x0 : Vec F S512x256 .f32) (x1 : Vec F S512x256 .f32) (x2 : Vec F S512x256 .f32) (xs0 : Vec F S512x1 .f32) (xs1 : Vec F S512x1 .f32) (y : S512x1.Idx) :
    ∃ pc ∈ (kernelRun0_C c i arg2 harg2 arg3 harg3 arg4 harg4 arg5 harg5 arg6 harg6 arg7 harg7 arg8 harg8 hc0 hc1 x0 x1 x2 xs0 xs1).1, y ∈ pc.1.set :=
  View.cover_of_tiledL (kernelRun0_C c i arg2 harg2 arg3 harg3 arg4 harg4 arg5 harg5 arg6 harg6 arg7 harg7 arg8 harg8 hc0 hc1 x0 x1 x2 xs0 xs1).1 S512x1.size (by sl_kernel_rfl) y

/-- Case C's pieces for output 4 tile it, so they cover it. -/
theorem cover0_C_4 (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x256 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0_0 i) (hc1 : cond0_1 i)
    (x0 : Vec F S512x256 .f32) (x1 : Vec F S512x256 .f32) (x2 : Vec F S512x256 .f32) (xs0 : Vec F S512x1 .f32) (xs1 : Vec F S512x1 .f32) (y : S512x1.Idx) :
    ∃ pc ∈ (kernelRun0_C c i arg2 harg2 arg3 harg3 arg4 harg4 arg5 harg5 arg6 harg6 arg7 harg7 arg8 harg8 hc0 hc1 x0 x1 x2 xs0 xs1).2.1, y ∈ pc.1.set :=
  View.cover_of_tiledL (kernelRun0_C c i arg2 harg2 arg3 harg3 arg4 harg4 arg5 harg5 arg6 harg6 arg7 harg7 arg8 harg8 hc0 hc1 x0 x1 x2 xs0 xs1).2.1 S512x1.size (by sl_kernel_rfl) y

/-- What case C leaves in output 3's staging buffer: its pieces read back over junk. -/
def out0_C_3 (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x256 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0_0 i) (hc1 : cond0_1 i)
    (x0 : Vec F S512x256 .f32) (x1 : Vec F S512x256 .f32) (x2 : Vec F S512x256 .f32) (xs0 : Vec F S512x1 .f32) (xs1 : Vec F S512x1 .f32) : Vec F S512x1 .f32 :=
  VO0_3.read (Elt F) (VO0_3.writes (Elt F) VO0_3.junk (kernelRun0_C c i arg2 harg2 arg3 harg3 arg4 harg4 arg5 harg5 arg6 harg6 arg7 harg7 arg8 harg8 hc0 hc1 x0 x1 x2 xs0 xs1).1)

/-- What case C leaves in output 4's staging buffer: its pieces read back over junk. -/
def out0_C_4 (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x256 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0_0 i) (hc1 : cond0_1 i)
    (x0 : Vec F S512x256 .f32) (x1 : Vec F S512x256 .f32) (x2 : Vec F S512x256 .f32) (xs0 : Vec F S512x1 .f32) (xs1 : Vec F S512x1 .f32) : Vec F S512x1 .f32 :=
  VO0_4.read (Elt F) (VO0_4.writes (Elt F) VO0_4.junk (kernelRun0_C c i arg2 harg2 arg3 harg3 arg4 harg4 arg5 harg5 arg6 harg6 arg7 harg7 arg8 harg8 hc0 hc1 x0 x1 x2 xs0 xs1).2.1)

/-- Case C's pieces for scratch accumulator 0 tile it, so they cover it. -/
theorem scover0_C_0 (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x256 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0_0 i) (hc1 : cond0_1 i)
    (x0 : Vec F S512x256 .f32) (x1 : Vec F S512x256 .f32) (x2 : Vec F S512x256 .f32) (xs0 : Vec F S512x1 .f32) (xs1 : Vec F S512x1 .f32) (y : S512x1.Idx) :
    ∃ pc ∈ (kernelRun0_C c i arg2 harg2 arg3 harg3 arg4 harg4 arg5 harg5 arg6 harg6 arg7 harg7 arg8 harg8 hc0 hc1 x0 x1 x2 xs0 xs1).2.2.1, y ∈ pc.1.set :=
  View.cover_of_tiledL (kernelRun0_C c i arg2 harg2 arg3 harg3 arg4 harg4 arg5 harg5 arg6 harg6 arg7 harg7 arg8 harg8 hc0 hc1 x0 x1 x2 xs0 xs1).2.2.1 S512x1.size (by sl_kernel_rfl) y

/-- Case C's pieces for scratch accumulator 1 tile it, so they cover it. -/
theorem scover0_C_1 (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x256 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0_0 i) (hc1 : cond0_1 i)
    (x0 : Vec F S512x256 .f32) (x1 : Vec F S512x256 .f32) (x2 : Vec F S512x256 .f32) (xs0 : Vec F S512x1 .f32) (xs1 : Vec F S512x1 .f32) (y : S512x1.Idx) :
    ∃ pc ∈ (kernelRun0_C c i arg2 harg2 arg3 harg3 arg4 harg4 arg5 harg5 arg6 harg6 arg7 harg7 arg8 harg8 hc0 hc1 x0 x1 x2 xs0 xs1).2.2.2.1, y ∈ pc.1.set :=
  View.cover_of_tiledL (kernelRun0_C c i arg2 harg2 arg3 harg3 arg4 harg4 arg5 harg5 arg6 harg6 arg7 harg7 arg8 harg8 hc0 hc1 x0 x1 x2 xs0 xs1).2.2.2.1 S512x1.size (by sl_kernel_rfl) y

/-- What case C leaves in scratch accumulator 0: its pieces read back over junk. -/
def sout0_C_0 (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x256 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0_0 i) (hc1 : cond0_1 i)
    (x0 : Vec F S512x256 .f32) (x1 : Vec F S512x256 .f32) (x2 : Vec F S512x256 .f32) (xs0 : Vec F S512x1 .f32) (xs1 : Vec F S512x1 .f32) : Vec F S512x1 .f32 :=
  VS0_0.read (Elt F) (VS0_0.writes (Elt F) VS0_0.junk (kernelRun0_C c i arg2 harg2 arg3 harg3 arg4 harg4 arg5 harg5 arg6 harg6 arg7 harg7 arg8 harg8 hc0 hc1 x0 x1 x2 xs0 xs1).2.2.1)

/-- What case C leaves in scratch accumulator 1: its pieces read back over junk. -/
def sout0_C_1 (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x256 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0_0 i) (hc1 : cond0_1 i)
    (x0 : Vec F S512x256 .f32) (x1 : Vec F S512x256 .f32) (x2 : Vec F S512x256 .f32) (xs0 : Vec F S512x1 .f32) (xs1 : Vec F S512x1 .f32) : Vec F S512x1 .f32 :=
  VS0_1.read (Elt F) (VS0_1.writes (Elt F) VS0_1.junk (kernelRun0_C c i arg2 harg2 arg3 harg3 arg4 harg4 arg5 harg5 arg6 harg6 arg7 harg7 arg8 harg8 hc0 hc1 x0 x1 x2 xs0 xs1).2.2.2.1)

/-! ## What the outputs and the scratch accumulators hold after each point -/

/-- THE ACCUMULATION. What the outputs' staging buffers and the two scratch accumulators hold after the body at position
    `n` (output 3's buffer, output 4's buffer, scratch accumulator 0, scratch accumulator 1): the case the closed forms
    select at `n`, run at the point's memrefs and input blocks, the scratch accumulators at what this leaves at `n - 1`
    where the case reads them before covering. -/
def outsAt0 (c : Dev nD) : (n : ℕ) → n < cfg0.N → Vec F S512x1 .f32 × Vec F S512x1 .f32 × Vec F S512x1 .f32 × Vec F S512x1 .f32
  | 0, hn => (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩), out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩))
  | n + 1, hn =>
    if h0 : (n + 1) % 8 = 0 then
      if h1 : (n + 1) % 8 = 7 then
        False.elim (by omega)
      else
        (out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩), out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩))
    else
      if h1 : (n + 1) % 8 = 7 then
        (out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (outsAt0 c n (Nat.lt_of_succ_lt hn)).2.2.1 (outsAt0 c n (Nat.lt_of_succ_lt hn)).2.2.2, out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (outsAt0 c n (Nat.lt_of_succ_lt hn)).2.2.1 (outsAt0 c n (Nat.lt_of_succ_lt hn)).2.2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (outsAt0 c n (Nat.lt_of_succ_lt hn)).2.2.1 (outsAt0 c n (Nat.lt_of_succ_lt hn)).2.2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (outsAt0 c n (Nat.lt_of_succ_lt hn)).2.2.1 (outsAt0 c n (Nat.lt_of_succ_lt hn)).2.2.2)
      else
        (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (outsAt0 c n (Nat.lt_of_succ_lt hn)).2.2.1 (outsAt0 c n (Nat.lt_of_succ_lt hn)).2.2.2, out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (outsAt0 c n (Nat.lt_of_succ_lt hn)).2.2.1 (outsAt0 c n (Nat.lt_of_succ_lt hn)).2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (outsAt0 c n (Nat.lt_of_succ_lt hn)).2.2.1 (outsAt0 c n (Nat.lt_of_succ_lt hn)).2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (outsAt0 c n (Nat.lt_of_succ_lt hn)).2.2.1 (outsAt0 c n (Nat.lt_of_succ_lt hn)).2.2.2)

/-- `outsAt0` at a point of case A: that case's contents. -/
theorem outsAt0_A (c : Dev nD) (t : Fin cfg0.N) (h0 : t.val % 8 = 0) (h1 : ¬t.val % 8 = 7) :
    outsAt0 m c t.val t.isLt = (out0_A_3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk m c 0 t) (iblk m c 1 t) (iblk m c 2 t), out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk m c 0 t) (iblk m c 1 t) (iblk m c 2 t), sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk m c 0 t) (iblk m c 1 t) (iblk m c 2 t), sout0_A_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk m c 0 t) (iblk m c 1 t) (iblk m c 2 t)) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 8 = 0) (h1 : ¬t.val % 8 = 7) :
    outsAt0 m c t.val t.isLt = (out0_B_3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2, out0_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2, sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2, sout0_B_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left. -/
theorem outsAt0_C (c : Dev nD) (t : Fin cfg0.N) (h0 : ¬t.val % 8 = 0) (h1 : t.val % 8 = 7) :
    outsAt0 m c t.val t.isLt = (out0_C_3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2, out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2, sout0_C_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2, sout0_C_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's (every scratch at anything);
    afterwards the two scratch accumulators at what the point before left in them, and the core's random-bit register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.1) ∗ owns (c : Thread nD τ) scM0_1 fullShare ((outsAt0 m c n hn).2.2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the scratch accumulators at that point's contents. -/
theorem PhiS_succ (c : Dev nD) (n : ℕ) (hn : n < cfg0.N) :
    PhiS m c (n + 1) hn = iprop(iprop(owns (c : Thread nD τ) scM0_0 fullShare ((outsAt0 m c n hn).2.2.1) ∗ owns (c : Thread nD τ) scM0_1 fullShare ((outsAt0 m c n hn).2.2.2)) ∗ (∃ r, prngReg c r)) := rfl

/-- Before a point that is not the first: the scratch accumulators at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.1) ∗ owns (c : Thread nD τ) scM0_1 fullShare ((outsAt0 m c (n - 1) (by omega)).2.2.2)) ∗ (∃ r, prngReg c r)) := by
  cases n with
  | zero => exact absurd rfl hz
  | succ n => rfl

/-! ## The pipeline's proof data -/

/-- The proof data of the one pipeline on core `c`: the arrays as the region finds them; after the body at point `t`
    each input's buffer at its block and the outputs' at `outsAt0`; the invariant `PhiS`; nothing owed; windows 0 and 1
    split the share of the one array they both read. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t.val t.isLt).1
    | ⟨4, _⟩ => (outsAt0 m c t.val t.isLt).2.1
  Φ t := PhiS m c t.val (Nat.le_of_lt_succ t.isLt)
  q w := match w with
    | ⟨0, _⟩ => fullShare.left
    | ⟨1, _⟩ => fullShare.right
    | _ => fullShare
  owed _ := 0

/-- The proof data's arrays are the region-entry contents. -/
theorem A_eq (c : Dev nD) (w : Fin cfg0.W) : (dats m 0 c).A w = V m c (Pipeline.arrRef spec0 w) := by
  dsimp only [dats]

/-- The invariant at a point's start, restated at `t.val`. -/
theorem PhiS_castSucc (c : Dev nD) (t : Fin cfg0.N) :
    (dats m 0 c).Φ t.castSucc = PhiS m c t.val (Nat.le_of_lt t.isLt) := by
  dsimp only [dats]; simp only [Fin.coe_castSucc]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t.val t.isLt).1 := by dsimp only [dats]
theorem after0_4 (c : Dev nD) (t : Fin cfg0.N) : (dats m 0 c).after 4 t = (outsAt0 m c t.val t.isLt).2.1 := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 4800000 in
/-- The body at any point: the inputs' memrefs hold their blocks; the closed forms say which case the point is in; the
    invariant hands the body the two scratch accumulators at what the point before left (at anything at the first
    point) and takes them back at this point's contents; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt (show cfg0.N = 64 from N_0)
  by_cases h0 : t.val % 8 = 0
  · by_cases h1 : t.val % 8 = 7
    · exfalso; omega
    · rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [Dat.leavesExact_idle (dats m 0 c) 3 t (idleAt0_3_A t ((hcond0_0 t).mpr h0) (fun h => h1 ((hcond0_1 t).mp h))) (noFlush0_3_A t ((hcond0_0 t).mpr h0) (fun h => h1 ((hcond0_1 t).mp h)))]
      rw [Dat.leavesExact_idle (dats m 0 c) 4 t (idleAt0_4_A t ((hcond0_0 t).mpr h0) (fun h => h1 ((hcond0_1 t).mp h))) (noFlush0_4_A t ((hcond0_0 t).mpr h0) (fun h => h1 ((hcond0_1 t).mp h)))]
      rw [outsAt0_A m c t h0 h1]
      unfold sout0_A_0 sout0_A_1; (try dsimp only)
      by_cases hz : t.val = 0
      · rw [PhiS_castSucc m c t, PhiS_zero m c _ _ hz, PhiA0_eq]
        iintro ⟨⟨⟨HS0, HS1⟩, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ _ _ ((hcond0_0 t).mpr h0) (fun h => h1 ((hcond0_1 t).mp h)) (iblk m c 0 t) (iblk m c 1 t) (iblk m c 2 t)).2.2.2.2 _ _ Set.univ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        iintro ⟨H0, H1, H2, H3, H4, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_A_0 c _ _ _ _ _ _ _ _ _ _ _ _ _ _ _ _ _ _ _ _)
            unfold owns; iexists _; isplitr
            swap; · iexact HS1
            ipureintro; exact View.read_writes_of_cover _ _ _ _ _ (scover0_A_1 c _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexists _; iexact H3
        iexists _; iexact H4
      · rw [PhiS_castSucc m c t, PhiS_pos m c _ _ hz]
        iintro ⟨⟨⟨HS0, HS1⟩, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ _ _ ((hcond0_0 t).mpr h0) (fun h => h1 ((hcond0_1 t).mp h)) (iblk m c 0 t) (iblk m c 1 t) (iblk m c 2 t)).2.2.2.2 _ _ Set.univ _)
        isplitl [H0]; · iexact H0
        isplitl [H1]; · iexact H1
        isplitl [H2]; · iexact H2
        isplitl [H3]; · iexact H3
        isplitl [H4]; · iexact H4
        isplitl [HS0]; · iexists _; iexact HS0
        isplitl [HS1]; · iexists _; iexact HS1
        iintro ⟨H0, H1, H2, H3, H4, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_A_0 c _ _ _ _ _ _ _ _ _ _ _ _ _ _ _ _ _ _ _ _)
            unfold owns; iexists _; isplitr
            swap; · iexact HS1
            ipureintro; exact View.read_writes_of_cover _ _ _ _ _ (scover0_A_1 c _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexists _; iexact H3
        iexists _; iexact H4
  · by_cases h1 : t.val % 8 = 7
    · rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3_C t (fun h => h0 ((hcond0_0 t).mp h)) ((hcond0_1 t).mpr h1)], after0_3]
      rw [show (dats m 0 c).leavesExact 4 t = owns (c : Thread nD τ) (ms0_4 t) fullShare ((dats m 0 c).after 4 t) from by
        unfold Dat.leavesExact; rw [liveAt0_4_C t (fun h => h0 ((hcond0_0 t).mp h)) ((hcond0_1 t).mpr h1)], after0_4]
      rw [outsAt0_C m c t h0 h1]
      unfold out0_C_3 out0_C_4 sout0_C_0 sout0_C_1; (try dsimp only)
      by_cases hz : t.val = 0
      · exfalso; omega
      · rw [PhiS_castSucc m c t, PhiS_pos m c _ _ hz]
        iintro ⟨⟨⟨HS0, HS1⟩, Hg⟩, Ho, ⟨%d0, H0⟩, ⟨%d1, H1⟩, ⟨%d2, H2⟩, ⟨%d3, H3⟩, ⟨%d4, H4⟩⟩
        iapply ((kernelRun0_C c (grid0.coords t) _ _ _ _ _ _ _ _ _ _ _ _ _ _ (fun h => h0 ((hcond0_0 t).mp h)) ((hcond0_1 t).mpr h1) (iblk m c 0 t) (iblk m c 1 t) (iblk m c 2 t) _ _).2.2.2.2 Set.univ _)
        isplitl [H0]; · iexact H0
        isplitl [H1]; · iexact H1
        isplitl [H2]; · iexact H2
        isplitl [H3]; · iexists _; iexact H3
        isplitl [H4]; · iexists _; iexact H4
        isplitl [HS0]; · iexact HS0
        isplitl [HS1]; · iexact HS1
        iintro ⟨H0, H1, H2, ⟨%e3, H3⟩, ⟨%e4, H4⟩, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _ _)
            unfold owns; iexists _; isplitr
            swap; · iexact HS1
            ipureintro; exact View.read_writes_of_cover _ _ _ _ _ (scover0_C_1 c _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]
        · unfold owns; iexists _; isplitr
          swap; · iexact H3
          ipureintro; exact View.read_writes_of_cover _ _ _ _ _ (cover0_C_3 c _ _ _ _ _ _ _ _ _ _ _ _ _ _ _ _ _ _ _ _ _ _)
        unfold owns; iexists _; isplitr
        swap; · iexact H4
        ipureintro; exact View.read_writes_of_cover _ _ _ _ _ (cover0_C_4 c _ _ _ _ _ _ _ _ _ _ _ _ _ _ _ _ _ _ _ _ _ _)
    · rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [Dat.leavesExact_idle (dats m 0 c) 3 t (idleAt0_3_B t (fun h => h0 ((hcond0_0 t).mp h)) (fun h => h1 ((hcond0_1 t).mp h))) (noFlush0_3_B t (fun h => h0 ((hcond0_0 t).mp h)) (fun h => h1 ((hcond0_1 t).mp h)))]
      rw [Dat.leavesExact_idle (dats m 0 c) 4 t (idleAt0_4_B t (fun h => h0 ((hcond0_0 t).mp h)) (fun h => h1 ((hcond0_1 t).mp h))) (noFlush0_4_B t (fun h => h0 ((hcond0_0 t).mp h)) (fun h => h1 ((hcond0_1 t).mp h)))]
      rw [outsAt0_B m c t h0 h1]
      unfold sout0_B_0 sout0_B_1; (try dsimp only)
      by_cases hz : t.val = 0
      · exfalso; omega
      · rw [PhiS_castSucc m c t, PhiS_pos m c _ _ hz]
        iintro ⟨⟨⟨HS0, HS1⟩, Hg⟩, Ho, ⟨%d0, H0⟩, ⟨%d1, H1⟩, ⟨%d2, H2⟩, ⟨%d3, H3⟩, ⟨%d4, H4⟩⟩
        iapply ((kernelRun0_B c (grid0.coords t) _ _ _ _ _ _ _ _ _ _ _ _ _ _ (fun h => h0 ((hcond0_0 t).mp h)) (fun h => h1 ((hcond0_1 t).mp h)) (iblk m c 0 t) (iblk m c 1 t) (iblk m c 2 t) _ _).2.2.2.2 _ _ Set.univ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        iintro ⟨H0, H1, H2, H3, H4, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _)
            unfold owns; iexists _; isplitr
            swap; · iexact HS1
            ipureintro; exact View.read_writes_of_cover _ _ _ _ _ (scover0_B_1 c _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexists _; iexact H3
        iexists _; iexact H4

/-- The body obligation, at every grid point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the class's back: the scratch accumulators' named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexists _; iexact HS1
  iexact Hg

/-- The same after the last point. -/
theorem hout (c : Dev nD) : (dats m 0 c).Φ (Fin.last cfg0.N) ⊢ Pipeline.ΦA spec0 c :=
  Phi_out m c _ (by rw [Fin.val_last]; have : cfg0.N = 64 := N_0; omega)

end Cert.KernelIdeal.KBody

end
-- ==== Proof.KLaunch.lean ====
/-
  The run of the whole program around its one grid region when two input windows of the region read the same
  array: the twenty array operations that normalize the rows, the region over its 8 × 8 grid, and the nine array
  operations that turn the two result columns into the loss.

  The array read through two windows is held, inside the region, as two half shares of one points-to, one per
  window (`arrays_iff`: the four distinct arrays at the full share are the five windows' arrays at their shares,
  both ways); the outputs' arrays are held whole. After the region the halves are joined again, the nine operations
  run on all unscoped buffers at once, and the final memory is read off: every array of the region at what the
  write-backs left, every other buffer at the fold of the operations over the entry contents with the two result
  columns put in place (`KPost`).
-/
import proofs.«171112_j24275155156992_1_alg».proof.Proof.Gen.KernelIdeal.Launch
import proofs.«171112_j24275155156992_1_alg».proof.Proof.Gen.KernelIdeal.Points
import Idealize.ShloMosaic.Lib.Pipeline.FrameBody
import Idealize.ShloMosaic.Lib.Pipeline.FrameSuffix

set_option maxRecDepth 16384

noncomputable section

namespace Cert.KernelIdeal.KLaunch

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev V0 (c : Dev nD) : Valuation τ sig (Elt F) := StableHlo.after (List.flatten [hostOps0]) (fun b => m (c, b))
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

theorem arrImage : (Finset.univ.image (Pipeline.arrRef spec0) : Finset (Ref sig .tc)) = ([main_v7, main_v15, main_v16_0, main_v16_1] : List (Ref sig .tc)).toFinset := by decide

theorem arrays_iff (c : Dev nD) (dat : Dat τ (Elt F) Unit ℕ (UR sig nD τ) ℕ cfg0 c)
    (hq0 : dat.q 0 = fullShare.left) (hq1 : dat.q 1 = fullShare.right) (hq2 : dat.q 2 = fullShare)
    (W : (b : Ref sig .tc) → Buf (Elt F) ((c.tc : Thread nD τ).loc b))
    (Fw : (w : Fin cfg0.W) → Buf (Elt F) ((cfg0.win w).arr.view.loc (c.tc : Thread nD τ)))
    (hF : ∀ w, Fw w = W (Pipeline.arrRef spec0 w)) :
    (Pipeline.arrBufs spec0 c W : sProp 𝕄) ⊣⊢ dat.arrays Fw := by
  unfold Pipeline.arrBufs Dat.arrays
  rw [bigSep_W0, bigSep_eq_bigSepL_of_eq _ arrImage (by decide)]
  simp only [bigSepL_cons_cons, bigSepL_singleton]
  have s0 : dat.share 0 = fullShare.left := (if_neg (by decide)).trans hq0
  have s1 : dat.share 1 = fullShare.right := (if_neg (by decide)).trans hq1
  have s2 : dat.share 2 = fullShare := (if_neg (by decide)).trans hq2
  have s3 : dat.share 3 = fullShare := if_pos (by decide)
  have s4 : dat.share 4 = fullShare := if_pos (by decide)
  rw [s0, s1, s2, s3, s4, hF 0, hF 1, hF 2, hF 3, hF 4]
  simp only [View.set_whole]
  show iprop((c.tc.loc main_v7 ↦{fullShare} W main_v7) ∗ (c.tc.loc main_v15 ↦{fullShare} W main_v15) ∗ (c.tc.loc main_v16_0 ↦{fullShare} W main_v16_0) ∗ (c.tc.loc main_v16_1 ↦{fullShare} W main_v16_1))
    ⊣⊢ iprop((c.tc.loc main_v7 ↦{fullShare.left} W main_v7) ∗ (c.tc.loc main_v7 ↦{fullShare.right} W main_v7) ∗ (c.tc.loc main_v15 ↦{fullShare} W main_v15) ∗ (c.tc.loc main_v16_0 ↦{fullShare} W main_v16_0) ∗ (c.tc.loc main_v16_1 ↦{fullShare} W main_v16_1))
  have hs := pointsTo_share (Ix := Unit) (Val := Elt F) (Name := ℕ) (U := UR sig nD τ) (Lvl := ℕ) (ℓ := c.tc.loc main_v7) (I := Finset.univ) (f := W main_v7) (PosShare.mem_left_op_right fullShare)
  refine ⟨?_, ?_⟩
  · iintro ⟨H7, H15, H0, H1⟩
    ihave H := (hs.1) $$ H7
    icases H with ⟨Ha, Hb⟩
    isplitl [Ha]; · iexact Ha
    isplitl [Hb]; · iexact Hb
    isplitl [H15]; · iexact H15
    isplitl [H0]; · iexact H0
    iexact H1
  · iintro ⟨Ha, Hb, H15, H0, H1⟩
    isplitl [Ha Hb]
    · iapply (hs.2); isplitl [Ha]; · iexact Ha
      iexact Hb
    isplitl [H15]; · iexact H15
    isplitl [H0]; · iexact H0
    iexact H1

/-- The two operations that put the region's results in place of the output arrays' entry contents. -/
abbrev outOps (A3 A4 : (⟨S4096x1, .f32⟩ : BufTy).Contents (Elt F)) : List (HloOp τ sig (Elt F)) :=
  [StableHlo.nullary main_v16_0 A3, StableHlo.nullary main_v16_1 A4]

variable (dats : (p : Fin 1) → (c : Dev nD) → Dat τ (Elt F) Unit ℕ (UR sig nD τ) ℕ (cfgs p) c)

/-- Core c's buffers when the region is left: the entry contents with the two output arrays at what the region wrote. -/
abbrev WX (c : Dev nD) : Valuation τ sig (Elt F) :=
  StableHlo.after (outOps ((dats 0 c).arrAt 3 cfg0.N) ((dats 0 c).arrAt 4 cfg0.N)) (V0 m c)
/-- And after the host lines that follow the region. -/
abbrev WF (c : Dev nD) : Valuation τ sig (Elt F) := StableHlo.after ([hostOps1] : List (List (HloOp τ sig (Elt F)))).flatten (WX m dats c)

/-- What the run ends with: every array of the pipeline at the contents the write-backs of the proof data leave in it,
    every other unscoped buffer at the fold of the host operations. -/
def KPost (r : PUnit × MemSt nD τ sig (Elt F)) : Prop :=
  ∀ c : Dev nD, (∀ w, r.2.mem ((spec0 w).arr.view.loc (c.tc : Thread nD τ)) = (dats 0 c).arrAt w cfg0.N)
    ∧ ∀ b ∈ Pipeline.restRefs sig spec0, r.2.mem ((c.tc : Thread nD τ).loc b) = WF m dats c (Proc.devRef .tc b)

theorem hostOps1_keeps7 : ∀ op ∈ (hostOps1 : List (HloOp τ sig (Elt F))), (Proc.devRef (τ := τ) .tc main_v7) ∉ op.writes := by
  intro op hop
  simp only [hostOps1, List.mem_cons, List.mem_nil_iff, or_false] at hop
  rcases hop with rfl | rfl | rfl | rfl | rfl | rfl | rfl | rfl | rfl
  all_goals simp only [StableHlo.nullary_writes, StableHlo.unary_writes, StableHlo.binary_writes, StableHlo.reshape_writes, Finset.mem_singleton]; exact StableHlo.devRef_ne_of_ne (by decide)
theorem hostOps1_keeps15 : ∀ op ∈ (hostOps1 : List (HloOp τ sig (Elt F))), (Proc.devRef (τ := τ) .tc main_v15) ∉ op.writes := by
  intro op hop
  simp only [hostOps1, List.mem_cons, List.mem_nil_iff, or_false] at hop
  rcases hop with rfl | rfl | rfl | rfl | rfl | rfl | rfl | rfl | rfl
  all_goals simp only [StableHlo.nullary_writes, StableHlo.unary_writes, StableHlo.binary_writes, StableHlo.reshape_writes, Finset.mem_singleton]; exact StableHlo.devRef_ne_of_ne (by decide)
theorem hostOps1_keeps160 : ∀ op ∈ (hostOps1 : List (HloOp τ sig (Elt F))), (Proc.devRef (τ := τ) .tc main_v16_0) ∉ op.writes := by
  intro op hop
  simp only [hostOps1, List.mem_cons, List.mem_nil_iff, or_false] at hop
  rcases hop with rfl | rfl | rfl | rfl | rfl | rfl | rfl | rfl | rfl
  all_goals simp only [StableHlo.nullary_writes, StableHlo.unary_writes, StableHlo.binary_writes, StableHlo.reshape_writes, Finset.mem_singleton]; exact StableHlo.devRef_ne_of_ne (by decide)
theorem hostOps1_keeps161 : ∀ op ∈ (hostOps1 : List (HloOp τ sig (Elt F))), (Proc.devRef (τ := τ) .tc main_v16_1) ∉ op.writes := by
  intro op hop
  simp only [hostOps1, List.mem_cons, List.mem_nil_iff, or_false] at hop
  rcases hop with rfl | rfl | rfl | rfl | rfl | rfl | rfl | rfl | rfl
  all_goals simp only [StableHlo.nullary_writes, StableHlo.unary_writes, StableHlo.binary_writes, StableHlo.reshape_writes, Finset.mem_singleton]; exact StableHlo.devRef_ne_of_ne (by decide)

/-- The buffers when the region is left: the output arrays at what the region wrote, every other reference as at entry. -/
theorem WX_v160 (c : Dev nD) : WX m dats c (Proc.devRef .tc main_v16_0) = (dats 0 c).arrAt 3 cfg0.N := by
  unfold WX outOps; after_results
theorem WX_v161 (c : Dev nD) : WX m dats c (Proc.devRef .tc main_v16_1) = (dats 0 c).arrAt 4 cfg0.N := by
  unfold WX outOps; after_results
theorem WX_other (c : Dev nD) (b : Ref sig .tc) (h0 : b ≠ main_v16_0) (h1 : b ≠ main_v16_1) :
    WX m dats c (Proc.devRef .tc b) = V m c b := by
  unfold WX outOps
  refine StableHlo.after_of_forall_not_mem _ _ fun op hop => ?_
  simp only [List.mem_cons, List.mem_nil_iff, or_false] at hop
  rcases hop with rfl | rfl
  · simp only [StableHlo.nullary_writes, Finset.mem_singleton]; exact StableHlo.devRef_ne_of_ne h0
  · simp only [StableHlo.nullary_writes, Finset.mem_singleton]; exact StableHlo.devRef_ne_of_ne h1

theorem hF_exit (hA : ∀ c w, (dats 0 c).A w = V m c (Pipeline.arrRef spec0 w)) (c : Dev nD) (w : Fin cfg0.W) :
    (dats 0 c).arrAt w cfg0.N = WX m dats c (Proc.devRef .tc (Pipeline.arrRef spec0 w)) := by
  match w with
  | ⟨0, _⟩ => exact ((dats 0 c).arrAt_in 0 rfl _).trans ((hA c 0).trans (WX_other m dats c main_v7 (by decide) (by decide)).symm)
  | ⟨1, _⟩ => exact ((dats 0 c).arrAt_in 1 rfl _).trans ((hA c 1).trans (WX_other m dats c main_v7 (by decide) (by decide)).symm)
  | ⟨2, _⟩ => exact ((dats 0 c).arrAt_in 2 rfl _).trans ((hA c 2).trans (WX_other m dats c main_v15 (by decide) (by decide)).symm)
  | ⟨3, _⟩ => exact (WX_v160 m dats c).symm
  | ⟨4, _⟩ => exact (WX_v161 m dats c).symm

theorem hF_final (hA : ∀ c w, (dats 0 c).A w = V m c (Pipeline.arrRef spec0 w)) (c : Dev nD) (w : Fin cfg0.W) :
    (dats 0 c).arrAt w cfg0.N = WF m dats c (Proc.devRef .tc (Pipeline.arrRef spec0 w)) := by
  unfold WF
  rw [show ([hostOps1] : List (List (HloOp τ sig (Elt F)))).flatten = hostOps1 from by simp only [List.flatten_cons, List.flatten_nil, List.append_nil]]
  match w with
  | ⟨0, _⟩ => exact (hF_exit m dats hA c 0).trans (StableHlo.after_of_forall_not_mem _ _ hostOps1_keeps7).symm
  | ⟨1, _⟩ => exact (hF_exit m dats hA c 1).trans (StableHlo.after_of_forall_not_mem _ _ hostOps1_keeps7).symm
  | ⟨2, _⟩ => exact (hF_exit m dats hA c 2).trans (StableHlo.after_of_forall_not_mem _ _ hostOps1_keeps15).symm
  | ⟨3, _⟩ => exact (hF_exit m dats hA c 3).trans (StableHlo.after_of_forall_not_mem _ _ hostOps1_keeps160).symm
  | ⟨4, _⟩ => exact (hF_exit m dats hA c 4).trans (StableHlo.after_of_forall_not_mem _ _ hostOps1_keeps161).symm

theorem arr_unscoped0 : ∀ w : Fin 5, (Pipeline.arrRef spec0 w).isScoped = false := by decide

/-- Off the pipeline's arrays the region changes nothing. -/
theorem rest_exit (c : Dev nD) :
    (Pipeline.unscopedRest spec0 c (V m c) : sProp 𝕄) = Pipeline.unscopedRest spec0 c (fun b => WX m dats c (Proc.devRef .tc b)) := by
  unfold Pipeline.unscopedRest
  refine bigSep_congr fun b hb => ?_
  have hb' : b ∉ Finset.univ.image (Pipeline.arrRef spec0) := (Finset.mem_sdiff.mp hb).2
  beta_reduce
  rw [WX_other m dats c b (fun e => hb' (e ▸ Finset.mem_image.mpr ⟨3, Finset.mem_univ _, rfl⟩))
    (fun e => hb' (e ▸ Finset.mem_image.mpr ⟨4, Finset.mem_univ _, rfl⟩))]

set_option backward.isDefEq.respectTransparency.types false in
/-- THE RUN of the kernel's @main for any proof data whose two input windows on the shared array hold its two half
    shares: host lines, the region, host lines. -/
theorem run_shared
    (hq0 : ∀ c, (dats 0 c).q 0 = fullShare.left) (hq1 : ∀ c, (dats 0 c).q 1 = fullShare.right) (hq2 : ∀ c, (dats 0 c).q 2 = fullShare)
    (hbody : ∀ c, Pipeline.BodyObligationLoose (dats 0 c) (defs₀ (F := F)) Variants.none () Set.univ)
    (howed : ∀ c t, (dats 0 c).owed t = 0)
    (hA : ∀ c w, (dats 0 c).A w = V m c (Pipeline.arrRef spec0 w))
    (hin : ∀ c, Pipeline.ΦA spec0 c ⊢ (dats 0 c).Φ 0) (hout : ∀ c, (dats 0 c).Φ (Fin.last cfg0.N) ⊢ Pipeline.ΦA spec0 c) :
    θ_run defs (onTc (τ := τ) (main (F := F))) (s₀ m ρ) (KPost m dats) := by
  classical
  exact Pipeline.θ_run_region_pf_tail (fun q => (cfgs q).toPCfg (Val := Elt F)) (fun q => (cfgs q).toPCfg_adm) dats () cellOf_inj 0
    winFacts₀0 (Pipeline.OwnSemFacts.none spec0) (Pipeline.PreFacts.none _) emb₁ defs₀ Variants.none m ρ main
    (fun _ => Pipeline.chain ([hostOps1].map StableHlo.seq)) hbody block_pos0 arr_whole0 stage_whole0 howed
    (G := fun _ => iprop(emp))
    (u₀ := initOf (Pipeline.cells (Pipeline.pin (fun q => (cfgs q).toPCfg (Val := Elt F)) (fun q => (cfgs q).toPCfg_adm)) cellOf_inj)
      (Pipeline.launchToks (Pipeline.pin (fun q => (cfgs q).toPCfg (Val := Elt F)) (fun q => (cfgs q).toPCfg_adm)) cellOf_inj))
    (hu₀ := by
      iintro Hu; imodintro
      isplitl [Hu]; · iapply (show (ownU _ : sProp 𝕄) ⊢ BI.own (emb₁ (initOf (Pipeline.cells (Pipeline.pin (fun q => (cfgs q).toPCfg (Val := Elt F)) (fun q => (cfgs q).toPCfg_adm)) cellOf_inj) (Pipeline.launchToks (Pipeline.pin (fun q => (cfgs q).toPCfg (Val := Elt F)) (fun q => (cfgs q).toPCfg_adm)) cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := fun c => (arrays_iff c (dats 0 c) (hq0 c) (hq1 c) (hq2 c) (V m c) _ (fun w => hA c w)).1)
    (hpf := fun _ k => k.elim0)
    (X := fun c => iprop(∃ r, prngReg c r)) (Y := fun c => iprop(∃ r, prngReg c r))
    (Z := fun c => Pipeline.unscopedRestP (Ix := Unit) (Name := ℕ) (U := UR sig nD τ) (Lvl := ℕ) Pipeline.Prefetch.none spec0 c (V m c))
    (Z' := fun c => Pipeline.unscopedRestP (Ix := Unit) (Name := ℕ) (U := UR sig nD τ) (Lvl := ℕ) Pipeline.Prefetch.none spec0 c (fun b => WF m dats c (Proc.devRef .tc b)))
    (hX := fun c => by
      iintro ⟨HU, -, -, -, Hp, -⟩; imodintro
      isplitl [Hp]; · iexists _; iexact Hp
      iexact HU)
    (hin := fun c => (show _ ⊢ Pipeline.ΦA spec0 c by
      unfold Pipeline.ΦA; iintro ⟨Hp, -, Hr⟩
      isplitl [Hr] <;> iassumption).trans (hin c))
    (hout := fun c => (hout c).trans (by
      rw [Pipeline.ownSems0_none]; unfold Pipeline.ΦA
      iintro ⟨Hr, Hp⟩
      isplitl [Hp]; · iexact Hp
      isplitr; · iempintro
      iexact Hr))
    (htail := fun c Q' => by
      have hsub : ∀ ops ∈ ([hostOps1] : List (List (HloOp τ sig (Elt F)))), ∀ op ∈ ops, op.bufs ⊆ Pipeline.ucRefs τ sig := by
        intro ops hops op hop
        simp only [List.mem_cons, List.mem_nil_iff, or_false] at hops
        subst hops
        exact Pipeline.sub_ucRefs op ((List.forall_iff_forall_mem.mp hostOps1_sub) op hop)
      have hfr : ∀ ops ∈ ([hostOps1] : List (List (HloOp τ sig (Elt F)))), ∀ op ∈ ops, op.fresh = ∅ := by
        intro ops hops op hop
        simp only [List.mem_cons, List.mem_nil_iff, or_false] at hops
        subst hops
        exact (List.forall_iff_forall_mem.mp hostOps1_fresh) op hop
      have hW : (StableHlo.held (c.tc : Thread nD τ) (Pipeline.ucRefs τ sig) (WX m dats c) : sProp 𝕄)
          = iprop(Pipeline.arrBufs spec0 c (fun b => WX m dats c (Proc.devRef .tc b)) ∗ Pipeline.unscopedRest spec0 c (fun b => WX m dats c (Proc.devRef .tc b))) := by
        rw [← Pipeline.unscopedBufs_held, Pipeline.unscopedBufs_split₀ cfgs 0 arr_unscoped0]
      have hW' : (StableHlo.held (c.tc : Thread nD τ) (Pipeline.ucRefs τ sig) (WF m dats c) : sProp 𝕄)
          = iprop(Pipeline.arrBufs spec0 c (fun b => WF m dats c (Proc.devRef .tc b)) ∗ Pipeline.unscopedRest spec0 c (fun b => WF m dats c (Proc.devRef .tc b))) := by
        rw [← Pipeline.unscopedBufs_held, Pipeline.unscopedBufs_split₀ cfgs 0 arr_unscoped0]
      rw [Pipeline.unscopedRestP_none, Pipeline.unscopedRestP_none, rest_exit m dats c, ← List.append_nil ([hostOps1].map StableHlo.seq)]
      iintro ⟨Hk, Hb, Harr, HZ⟩
      ihave Harr := (arrays_iff c (dats 0 c) (hq0 c) (hq1 c) (hq2 c) (fun b => WX m dats c (Proc.devRef .tc b)) _ (hF_exit m dats hA c)).2 $$ Harr
      iapply (Pipeline.wp_seqs_then (fun q => (cfgs q).toPCfg (Val := Elt F)) defs₀ Variants.none c (Pipeline.ucRefs τ sig) [] [hostOps1] hsub hfr (WX m dats c)) $$ [Hb Harr HZ]
      · isplitl [Hb]; · iexact Hb
        rw [hW]
        isplitl [Harr]; · iexact Harr
        iexact HZ
      iintro Hb
      rw [Pipeline.chain_nil, wp_pure, hW']
      imodintro
      iapply Hk
      icases Hb with ⟨-, Ha, Hr⟩
      isplitl [Ha]
      · iapply (arrays_iff c (dats 0 c) (hq0 c) (hq1 c) (hq2 c) (fun b => WF m dats c (Proc.devRef .tc b)) _ (hF_final m dats hA c)).1; iexact Ha
      iexact Hr)
    (QY := fun c s => ∀ b ∈ Pipeline.restRefsP sig Pipeline.Prefetch.none spec0, s.mem ((c.tc : Thread nD τ).loc b) = WF m dats c (Proc.devRef .tc b))
    (hY := fun c s' => by
      iintro ⟨-, HU, HSI⟩
      unfold Pipeline.unscopedRestP
      imodintro
      iapply (pointsTo_read_all (Pipeline.restRefsP sig Pipeline.Prefetch.none spec0) (fun b => (c.tc : Thread nD τ).loc b) (fun b => WF m dats c (Proc.devRef .tc b)) s')
      isplitl [HU] <;> iassumption)
    (hQ := fun s h c => ⟨(h c).1, Pipeline.rest_of_restP Pipeline.Prefetch.none spec0 (fun k => k.elim0) c (fun b => WF m dats c (Proc.devRef .tc b)) s (fun k => k.elim0) (h c).2.1 (h c).2.2⟩)

end Cert.KernelIdeal.KLaunch
end
-- ==== Proof.KTop.lean ====
/-
  The kernel program's run assembled: the region's body and proof data meet the launch for a shared input array,
  and the two argument arrays are read off the final memory — neither the normalization before the region, nor the
  region's two result columns, nor the nine operations after it write them.
-/
import proofs.«171112_j24275155156992_1_alg».proof.Proof.KFrame
import proofs.«171112_j24275155156992_1_alg».proof.Proof.KLaunch

set_option maxRecDepth 16384

noncomputable section

namespace Cert.KernelIdeal.KTop

open Cert.KernelIdeal Cert.KernelIdeal.Gen
open Idealize.ShloMosaic Idealize.ShloMosaic.TcCoe
open Idealize.SL Idealize.SL.Sem
open Idealize.ShloMosaic.Pipeline (Dat)

variable {F : FTy → Type} [FloatOps F]
variable (m : (ℓ : Loc nD τ sig) → Buf (Elt F) ℓ) (ρ : Dev nD → PrngReg)

/-- Every weakly fair execution of @main terminates, nothing faulting; the region's arrays end at what the
    write-backs left and every other unscoped buffer at the fold of the host operations. -/
theorem run_main : θ_run defs (onTc (τ := τ) (main (F := F))) (s₀ m ρ) (KLaunch.KPost m (KBody.dats m)) :=
  KLaunch.run_shared m ρ (KBody.dats m) (fun _ => rfl) (fun _ => rfl) (fun _ => rfl) (fun c => (KBody.body_obligation m c).loose)
    (fun _ _ => rfl) (KBody.A_eq m) (KBody.hin m) (KBody.hout m)

variable (dats : (p : Fin 1) → (c : Dev nD) → Dat τ (Elt F) Unit ℕ (UR sig nD τ) ℕ (cfgs p) c)

/-- No operation of @main writes the first argument array. -/
theorem WF_arg0 (c : Dev nD) : KLaunch.WF m dats c (Proc.devRef .tc main_arg0) = m ((c.tc : Thread nD τ).loc main_arg0) := by
  unfold KLaunch.WF KLaunch.WX KLaunch.V0 KLaunch.outOps
  simp only [hostOps0, hostOps1, List.flatten_cons, List.flatten_nil, List.append_nil]
  after_results

/-- Nor the second. -/
theorem WF_arg1 (c : Dev nD) : KLaunch.WF m dats c (Proc.devRef .tc main_arg1) = m ((c.tc : Thread nD τ).loc main_arg1) := by
  unfold KLaunch.WF KLaunch.WX KLaunch.V0 KLaunch.outOps
  simp only [hostOps0, hostOps1, List.flatten_cons, List.flatten_nil, List.append_nil]
  after_results

theorem arg0_rest : main_arg0 ∈ Pipeline.restRefs sig spec0 := by decide
theorem arg1_rest : main_arg1 ∈ Pipeline.restRefs sig spec0 := by decide
theorem v22_rest : main_v22 ∈ Pipeline.restRefs sig spec0 := by decide

/-- The frame: @main runs to the end and leaves both argument arrays as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).2 main_arg0 arg0_rest).trans (WF_arg0 m _ c), ((h c).2 main_arg1 arg1_rest).trans (WF_arg1 m _ c)⟩)
    (run_main m ρ)

end Cert.KernelIdeal.KTop

end
-- ==== Proof.KRunsW.lean ====
/-
  The setting of the kernel's grid region on one core. The contents the region finds on entry are those the
  operations before it leave. Each input window's staging buffer holds, at every grid point, that window's block
  of its array. The body's first conditional holds exactly at the points ≡ 0 (mod 8), the first column block of a
  row of blocks, and its second exactly at the points ≡ 7 (mod 8), the last; the two output windows are idle at
  every other point. The two scratch accumulators the body carries from point to point are whole buffers of the
  kernel's own, and the region's invariant owns them at some contents.
-/
import proofs.«171112_j24275155156992_1_alg».proof.Proof.Gen.Kernel.Launch
import proofs.«171112_j24275155156992_1_alg».proof.Proof.Gen.Kernel.Skeleton
import proofs.«171112_j24275155156992_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.KBody

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The region-entry contents -/

/-- Core `c`'s TensorCore buffer contents when the region is entered, as a valuation: after the host operations
    before the region. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for any proof
    data whose array is the region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not, for any proof
    data whose array is the region-entry contents and whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not, for any proof
    data whose array is the region-entry contents and whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The condition of the body's first conditional (the column-block coordinate is 0), from the grid coordinates. -/
abbrev cond0_0 (i : grid0.Coords) : Prop := (Scalar.cmpi .ne (Scalar.extui (Scalar.cmpi .eq (BitVec.ofNat 32 (i 1).val) 0#32)) 0#32) = 1#1
/-- It holds at the points ≡ 0 (mod 8). -/
theorem hcond0_0 : ∀ t : Fin cfg0.N, cond0_0 (grid0.coords t) ↔ t.val % 8 = 0 :=
  (by decide +kernel : ∀ t : Fin grid0.N, cond0_0 (grid0.coords t) ↔ t.val % 8 = 0)

/-- The condition of the body's second conditional (the column-block coordinate is 7), from the grid coordinates. -/
abbrev cond0_1 (i : grid0.Coords) : Prop := k0_cond2 i = 1#1
/-- It holds at the points ≡ 7 (mod 8). -/
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem idleAt0_3_A : ∀ t : Fin cfg0.N, cond0_0 (grid0.coords t) → ¬cond0_1 (grid0.coords t) → cfg0.idle 3 (grid0.coords t) = true := by decide +kernel
theorem noFlush0_3_A : ∀ t : Fin cfg0.N, cond0_0 (grid0.coords t) → ¬cond0_1 (grid0.coords t) → (cfg0.win 3).flush t = false := by decide +kernel
theorem idleAt0_4_A : ∀ t : Fin cfg0.N, cond0_0 (grid0.coords t) → ¬cond0_1 (grid0.coords t) → cfg0.idle 4 (grid0.coords t) = true := by decide +kernel
theorem noFlush0_4_A : ∀ t : Fin cfg0.N, cond0_0 (grid0.coords t) → ¬cond0_1 (grid0.coords t) → (cfg0.win 4).flush t = false := by decide +kernel
theorem idleAt0_3_B : ∀ t : Fin cfg0.N, ¬cond0_0 (grid0.coords t) → ¬cond0_1 (grid0.coords t) → cfg0.idle 3 (grid0.coords t) = true := by decide +kernel
theorem noFlush0_3_B : ∀ t : Fin cfg0.N, ¬cond0_0 (grid0.coords t) → ¬cond0_1 (grid0.coords t) → (cfg0.win 3).flush t = false := by decide +kernel
theorem idleAt0_4_B : ∀ t : Fin cfg0.N, ¬cond0_0 (grid0.coords t) → ¬cond0_1 (grid0.coords t) → cfg0.idle 4 (grid0.coords t) = true := by decide +kernel
theorem noFlush0_4_B : ∀ t : Fin cfg0.N, ¬cond0_0 (grid0.coords t) → ¬cond0_1 (grid0.coords t) → (cfg0.win 4).flush t = false := by decide +kernel
theorem liveAt0_3_C : ∀ t : Fin cfg0.N, ¬cond0_0 (grid0.coords t) → cond0_1 (grid0.coords t) → cfg0.idle 3 (grid0.coords t) = false := by decide +kernel
theorem liveAt0_4_C : ∀ t : Fin cfg0.N, ¬cond0_0 (grid0.coords t) → cond0_1 (grid0.coords t) → cfg0.idle 4 (grid0.coords t) = false := by decide +kernel

/-! ## The staging and scratch memrefs -/

/-- One staging buffer of each output window, through which its contents are stated. -/
abbrev VO0_3 : View sig .tc .vmem S512x1 .f32 := (Memref.whole cc0_stg3_0 : Memref sig .tc .vmem S512x1 .f32).view
abbrev VO0_4 : View sig .tc .vmem S512x1 .f32 := (Memref.whole cc0_stg4_0 : Memref sig .tc .vmem S512x1 .f32).view
/-- Each window's current staging memref at point `t`, and its wholeness. -/
abbrev ms0_0 (t : Fin cfg0.N) : Memref sig .tc .vmem S512x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x1 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x1 .f32 := win0_4.stage (cfg0.slots t 4)
abbrev hs0_4 (t : Fin cfg0.N) : (ms0_4 t).IsWhole := hstage0_4 ((cfg0.slots t 4).cast nbuf0_4)
/-- The scratch operands: whole scoped buffers of the kernel's own, passed beside the windows. -/
abbrev scM0_0 : Memref sig .tc .vmem S512x1 .f32 := Memref.whole cc0_scratch0
abbrev scM0_1 : Memref sig .tc .vmem S512x1 .f32 := Memref.whole cc0_scratch1
/-- The two scratch accumulators the kernel carries between points, as views. -/
abbrev VS0_0 : View sig .tc .vmem S512x1 .f32 := scM0_0.view
abbrev VS0_1 : View sig .tc .vmem S512x1 .f32 := scM0_1.view

/-- The region's invariant with the scratch operands as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Kernel.KBody

end
-- ==== Proof.KRunAW.lean ====
/-
  The body at a first column block (its first conditional taken, its second not). On whole memrefs — the inputs'
  at their contents, the idle outputs' at contents handed back untouched, the two scratch accumulators at anything —
  the body runs to its continuation with the inputs and the outputs as they were and each scratch accumulator
  holding the pieces the body's stores wrote, the last store first.
-/
import proofs.«171112_j24275155156992_1_alg».proof.Proof.KRunsW

set_option maxRecDepth 16384

noncomputable section

namespace Cert.Kernel.KBody

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 1000000 in
/-- What the body's stores leave in each output's staging memref and in the two scratch accumulators, as pieces
    (last first), in case A (first conditional taken, second not), with the proof that on whole memrefs — the inputs' at their contents,
    the outputs' (idle here) at contents handed back untouched, the scratch accumulators at anything — the body runs to the continuation holding
    the inputs' as they were, the outputs' as they were and each scratch accumulator with its pieces written. -/
noncomputable def kernelRun0_A (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x256 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : cond0_0 i) (hc1 : ¬cond0_1 i)
    (x0 : Vec F S512x256 .f32) (x1 : Vec F S512x256 .f32) (x2 : Vec F S512x256 .f32) :
    Σ' (L3 : List (View.Piece (Elt F) S512x1 .f32)) (L4 : List (View.Piece (Elt F) S512x1 .f32)) (LS0 : List (View.Piece (Elt F) S512x1 .f32)), { LS1 : List (View.Piece (Elt F) S512x1 .f32) //
      ∀ (xi3 : Vec F S512x1 .f32) (xi4 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__lambda_ i arg2 harg2 arg3 harg3 arg4 harg4 arg5 harg5 arg6 harg6 arg7 harg7 arg8 harg8) K } := by
  refine ⟨[], [], ?_, ?_, fun xi3 xi4 E K => ?run⟩
  case run =>
    simp only [cc0__lambda__eq_skeleton]; unfold cc0__lambda__skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    iexists _; iexact HS1

end Cert.Kernel.KBody

end
-- ==== Proof.KRunBW.lean ====
/-
  The body at a middle column block (neither conditional taken). On whole memrefs — the inputs' at their contents,
  the idle outputs' at contents handed back untouched, the two scratch accumulators at what the point before left —
  the body runs to its continuation with the inputs and the outputs as they were and each scratch accumulator
  holding the pieces the body's stores wrote, the last store first.
-/
import proofs.«171112_j24275155156992_1_alg».proof.Proof.KRunAW

set_option maxRecDepth 16384

noncomputable section

namespace Cert.Kernel.KBody

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 1000000 in
/-- What the body's stores leave in each output's staging memref and in the two scratch accumulators, as pieces
    (last first), in case B (neither conditional taken), with the proof that on whole memrefs — the inputs' at their contents,
    the outputs' (idle here) at contents handed back untouched, the scratch accumulators at what the point before left — the body runs to the continuation holding
    the inputs' as they were, the outputs' as they were and each scratch accumulator with its pieces written. -/
noncomputable def kernelRun0_B (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x256 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0_0 i) (hc1 : ¬cond0_1 i)
    (x0 : Vec F S512x256 .f32) (x1 : Vec F S512x256 .f32) (x2 : Vec F S512x256 .f32) (xs0 : Vec F S512x1 .f32) (xs1 : Vec F S512x1 .f32) :
    Σ' (L3 : List (View.Piece (Elt F) S512x1 .f32)) (L4 : List (View.Piece (Elt F) S512x1 .f32)) (LS0 : List (View.Piece (Elt F) S512x1 .f32)), { LS1 : List (View.Piece (Elt F) S512x1 .f32) //
      ∀ (xi3 : Vec F S512x1 .f32) (xi4 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ owns (c : Thread nD τ) arg7 fullShare xs0 ∗ owns (c : Thread nD τ) arg8 fullShare xs1
            ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__lambda_ i arg2 harg2 arg3 harg3 arg4 harg4 arg5 harg5 arg6 harg6 arg7 harg7 arg8 harg8) K } := by
  refine ⟨[], [], ?_, ?_, fun xi3 xi4 E K => ?run⟩
  case run =>
    simp only [cc0__lambda__eq_skeleton]; unfold cc0__lambda__skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0; obtain rfl := harg8.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    iexists _; iexact HS1

end Cert.Kernel.KBody

end
-- ==== Proof.KRunCW.lean ====
/-
  The body at a last column block (its first conditional not taken, its second taken). On whole memrefs — the
  inputs' at their contents, the outputs' at anything, the two scratch accumulators at what the point before left —
  the body runs to its continuation with the inputs as they were and each output's buffer and each scratch
  accumulator holding the pieces the body's stores wrote, the last store first.
-/
import proofs.«171112_j24275155156992_1_alg».proof.Proof.KRunBW

set_option maxRecDepth 16384

noncomputable section

namespace Cert.Kernel.KBody

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 1000000 in
/-- What the body's stores leave in each output's staging memref and in the two scratch accumulators, as pieces
    (last first), in case C (first conditional not taken, second taken), with the proof that on whole memrefs — the inputs' at their contents,
    the outputs' at anything, the scratch accumulators at what the point before left — the body runs to the continuation holding
    the inputs' as they were, each output's buffer with its pieces written and each scratch accumulator with its pieces written. -/
noncomputable def kernelRun0_C (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x256 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0_0 i) (hc1 : cond0_1 i)
    (x0 : Vec F S512x256 .f32) (x1 : Vec F S512x256 .f32) (x2 : Vec F S512x256 .f32) (xs0 : Vec F S512x1 .f32) (xs1 : Vec F S512x1 .f32) :
    Σ' (L3 : List (View.Piece (Elt F) S512x1 .f32)) (L4 : List (View.Piece (Elt F) S512x1 .f32)) (LS0 : List (View.Piece (Elt F) S512x1 .f32)), { LS1 : List (View.Piece (Elt F) S512x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ owns (c : Thread nD τ) arg7 fullShare xs0 ∗ owns (c : Thread nD τ) arg8 fullShare xs1
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__lambda_ i arg2 harg2 arg3 harg3 arg4 harg4 arg5 harg5 arg6 harg6 arg7 harg7 arg8 harg8) K } := by
  refine ⟨?_, ?_, ?_, ?_, fun E K => ?run⟩
  case run =>
    simp only [cc0__lambda__eq_skeleton]; unfold cc0__lambda__skel
    simp only [k0_part1_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg7.eq_unread hfs0; obtain rfl := harg8.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    isplitl [HS0]; · iexists _; iexact HS0
    iexists _; iexact HS1

end Cert.Kernel.KBody

end
-- ==== Proof.KFrameW.lean ====
/-
  The accumulation along the grid, and the region's proof data. For each of the body's three cases, what the case
  leaves in the two outputs' staging buffers and in the two scratch accumulators: its pieces read back, which tile
  the buffer where there are any. What the four hold after the body at position n is the contents of the case the
  point is in, run over what position n − 1 left in the accumulators; the region's invariant before position n owns
  the accumulators at exactly those contents. With the arrays as the region finds them and each input's buffer at
  its block, this is the pipeline's proof data, and the body meets its obligation at every grid point.
-/
import proofs.«171112_j24275155156992_1_alg».proof.Proof.KRunCW

set_option maxRecDepth 16384

noncomputable section

namespace Cert.Kernel.KBody

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- What case A leaves in output 3's staging buffer: its pieces read back over junk (no piece: the window is idle at the case's points; a placeholder nothing consults). -/
def out0_A_3 (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x256 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : cond0_0 i) (hc1 : ¬cond0_1 i)
    (x0 : Vec F S512x256 .f32) (x1 : Vec F S512x256 .f32) (x2 : Vec F S512x256 .f32) : Vec F S512x1 .f32 :=
  VO0_3.read (Elt F) (VO0_3.writes (Elt F) VO0_3.junk (kernelRun0_A c i arg2 harg2 arg3 harg3 arg4 harg4 arg5 harg5 arg6 harg6 arg7 harg7 arg8 harg8 hc0 hc1 x0 x1 x2).1)

/-- What case A leaves in output 4's staging buffer: its pieces read back over junk (no piece: the window is idle at the case's points; a placeholder nothing consults). -/
def out0_A_4 (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x256 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : cond0_0 i) (hc1 : ¬cond0_1 i)
    (x0 : Vec F S512x256 .f32) (x1 : Vec F S512x256 .f32) (x2 : Vec F S512x256 .f32) : Vec F S512x1 .f32 :=
  VO0_4.read (Elt F) (VO0_4.writes (Elt F) VO0_4.junk (kernelRun0_A c i arg2 harg2 arg3 harg3 arg4 harg4 arg5 harg5 arg6 harg6 arg7 harg7 arg8 harg8 hc0 hc1 x0 x1 x2).2.1)

/-- Case A's pieces for scratch accumulator 0 tile it, so they cover it. -/
theorem scover0_A_0 (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x256 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : cond0_0 i) (hc1 : ¬cond0_1 i)
    (x0 : Vec F S512x256 .f32) (x1 : Vec F S512x256 .f32) (x2 : Vec F S512x256 .f32) (y : S512x1.Idx) :
    ∃ pc ∈ (kernelRun0_A c i arg2 harg2 arg3 harg3 arg4 harg4 arg5 harg5 arg6 harg6 arg7 harg7 arg8 harg8 hc0 hc1 x0 x1 x2).2.2.1, y ∈ pc.1.set :=
  View.cover_of_tiledL (kernelRun0_A c i arg2 harg2 arg3 harg3 arg4 harg4 arg5 harg5 arg6 harg6 arg7 harg7 arg8 harg8 hc0 hc1 x0 x1 x2).2.2.1 S512x1.size (by sl_kernel_rfl) y

/-- Case A's pieces for scratch accumulator 1 tile it, so they cover it. -/
theorem scover0_A_1 (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x256 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : cond0_0 i) (hc1 : ¬cond0_1 i)
    (x0 : Vec F S512x256 .f32) (x1 : Vec F S512x256 .f32) (x2 : Vec F S512x256 .f32) (y : S512x1.Idx) :
    ∃ pc ∈ (kernelRun0_A c i arg2 harg2 arg3 harg3 arg4 harg4 arg5 harg5 arg6 harg6 arg7 harg7 arg8 harg8 hc0 hc1 x0 x1 x2).2.2.2.1, y ∈ pc.1.set :=
  View.cover_of_tiledL (kernelRun0_A c i arg2 harg2 arg3 harg3 arg4 harg4 arg5 harg5 arg6 harg6 arg7 harg7 arg8 harg8 hc0 hc1 x0 x1 x2).2.2.2.1 S512x1.size (by sl_kernel_rfl) y

/-- What case A leaves in scratch accumulator 0: its pieces read back over junk. -/
def sout0_A_0 (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x256 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : cond0_0 i) (hc1 : ¬cond0_1 i)
    (x0 : Vec F S512x256 .f32) (x1 : Vec F S512x256 .f32) (x2 : Vec F S512x256 .f32) : Vec F S512x1 .f32 :=
  VS0_0.read (Elt F) (VS0_0.writes (Elt F) VS0_0.junk (kernelRun0_A c i arg2 harg2 arg3 harg3 arg4 harg4 arg5 harg5 arg6 harg6 arg7 harg7 arg8 harg8 hc0 hc1 x0 x1 x2).2.2.1)

/-- What case A leaves in scratch accumulator 1: its pieces read back over junk. -/
def sout0_A_1 (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x256 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : cond0_0 i) (hc1 : ¬cond0_1 i)
    (x0 : Vec F S512x256 .f32) (x1 : Vec F S512x256 .f32) (x2 : Vec F S512x256 .f32) : Vec F S512x1 .f32 :=
  VS0_1.read (Elt F) (VS0_1.writes (Elt F) VS0_1.junk (kernelRun0_A c i arg2 harg2 arg3 harg3 arg4 harg4 arg5 harg5 arg6 harg6 arg7 harg7 arg8 harg8 hc0 hc1 x0 x1 x2).2.2.2.1)

/-- What case B leaves in output 3's staging buffer: its pieces read back over junk (no piece: the window is idle at the case's points; a placeholder nothing consults). -/
def out0_B_3 (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x256 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0_0 i) (hc1 : ¬cond0_1 i)
    (x0 : Vec F S512x256 .f32) (x1 : Vec F S512x256 .f32) (x2 : Vec F S512x256 .f32) (xs0 : Vec F S512x1 .f32) (xs1 : Vec F S512x1 .f32) : Vec F S512x1 .f32 :=
  VO0_3.read (Elt F) (VO0_3.writes (Elt F) VO0_3.junk (kernelRun0_B c i arg2 harg2 arg3 harg3 arg4 harg4 arg5 harg5 arg6 harg6 arg7 harg7 arg8 harg8 hc0 hc1 x0 x1 x2 xs0 xs1).1)

/-- What case B leaves in output 4's staging buffer: its pieces read back over junk (no piece: the window is idle at the case's points; a placeholder nothing consults). -/
def out0_B_4 (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x256 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0_0 i) (hc1 : ¬cond0_1 i)
    (x0 : Vec F S512x256 .f32) (x1 : Vec F S512x256 .f32) (x2 : Vec F S512x256 .f32) (xs0 : Vec F S512x1 .f32) (xs1 : Vec F S512x1 .f32) : Vec F S512x1 .f32 :=
  VO0_4.read (Elt F) (VO0_4.writes (Elt F) VO0_4.junk (kernelRun0_B c i arg2 harg2 arg3 harg3 arg4 harg4 arg5 harg5 arg6 harg6 arg7 harg7 arg8 harg8 hc0 hc1 x0 x1 x2 xs0 xs1).2.1)

/-- Case B's pieces for scratch accumulator 0 tile it, so they cover it. -/
theorem scover0_B_0 (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x256 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0_0 i) (hc1 : ¬cond0_1 i)
    (x0 : Vec F S512x256 .f32) (x1 : Vec F S512x256 .f32) (x2 : Vec F S512x256 .f32) (xs0 : Vec F S512x1 .f32) (xs1 : Vec F S512x1 .f32) (y : S512x1.Idx) :
    ∃ pc ∈ (kernelRun0_B c i arg2 harg2 arg3 harg3 arg4 harg4 arg5 harg5 arg6 harg6 arg7 harg7 arg8 harg8 hc0 hc1 x0 x1 x2 xs0 xs1).2.2.1, y ∈ pc.1.set :=
  View.cover_of_tiledL (kernelRun0_B c i arg2 harg2 arg3 harg3 arg4 harg4 arg5 harg5 arg6 harg6 arg7 harg7 arg8 harg8 hc0 hc1 x0 x1 x2 xs0 xs1).2.2.1 S512x1.size (by sl_kernel_rfl) y

/-- Case B's pieces for scratch accumulator 1 tile it, so they cover it. -/
theorem scover0_B_1 (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x256 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0_0 i) (hc1 : ¬cond0_1 i)
    (x0 : Vec F S512x256 .f32) (x1 : Vec F S512x256 .f32) (x2 : Vec F S512x256 .f32) (xs0 : Vec F S512x1 .f32) (xs1 : Vec F S512x1 .f32) (y : S512x1.Idx) :
    ∃ pc ∈ (kernelRun0_B c i arg2 harg2 arg3 harg3 arg4 harg4 arg5 harg5 arg6 harg6 arg7 harg7 arg8 harg8 hc0 hc1 x0 x1 x2 xs0 xs1).2.2.2.1, y ∈ pc.1.set :=
  View.cover_of_tiledL (kernelRun0_B c i arg2 harg2 arg3 harg3 arg4 harg4 arg5 harg5 arg6 harg6 arg7 harg7 arg8 harg8 hc0 hc1 x0 x1 x2 xs0 xs1).2.2.2.1 S512x1.size (by sl_kernel_rfl) y

/-- What case B leaves in scratch accumulator 0: its pieces read back over junk. -/
def sout0_B_0 (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x256 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0_0 i) (hc1 : ¬cond0_1 i)
    (x0 : Vec F S512x256 .f32) (x1 : Vec F S512x256 .f32) (x2 : Vec F S512x256 .f32) (xs0 : Vec F S512x1 .f32) (xs1 : Vec F S512x1 .f32) : Vec F S512x1 .f32 :=
  VS0_0.read (Elt F) (VS0_0.writes (Elt F) VS0_0.junk (kernelRun0_B c i arg2 harg2 arg3 harg3 arg4 harg4 arg5 harg5 arg6 harg6 arg7 harg7 arg8 harg8 hc0 hc1 x0 x1 x2 xs0 xs1).2.2.1)

/-- What case B leaves in scratch accumulator 1: its pieces read back over junk. -/
def sout0_B_1 (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x256 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0_0 i) (hc1 : ¬cond0_1 i)
    (x0 : Vec F S512x256 .f32) (x1 : Vec F S512x256 .f32) (x2 : Vec F S512x256 .f32) (xs0 : Vec F S512x1 .f32) (xs1 : Vec F S512x1 .f32) : Vec F S512x1 .f32 :=
  VS0_1.read (Elt F) (VS0_1.writes (Elt F) VS0_1.junk (kernelRun0_B c i arg2 harg2 arg3 harg3 arg4 harg4 arg5 harg5 arg6 harg6 arg7 harg7 arg8 harg8 hc0 hc1 x0 x1 x2 xs0 xs1).2.2.2.1)

/-- Case C's pieces for output 3 tile it, so they cover it. -/
theorem cover0_C_3 (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x256 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0_0 i) (hc1 : cond0_1 i)
    (x0 : Vec F S512x256 .f32) (x1 : Vec F S512x256 .f32) (x2 : Vec F S512x256 .f32) (xs0 : Vec F S512x1 .f32) (xs1 : Vec F S512x1 .f32) (y : S512x1.Idx) :
    ∃ pc ∈ (kernelRun0_C c i arg2 harg2 arg3 harg3 arg4 harg4 arg5 harg5 arg6 harg6 arg7 harg7 arg8 harg8 hc0 hc1 x0 x1 x2 xs0 xs1).1, y ∈ pc.1.set :=
  View.cover_of_tiledL (kernelRun0_C c i arg2 harg2 arg3 harg3 arg4 harg4 arg5 harg5 arg6 harg6 arg7 harg7 arg8 harg8 hc0 hc1 x0 x1 x2 xs0 xs1).1 S512x1.size (by sl_kernel_rfl) y

/-- Case C's pieces for output 4 tile it, so they cover it. -/
theorem cover0_C_4 (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x256 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0_0 i) (hc1 : cond0_1 i)
    (x0 : Vec F S512x256 .f32) (x1 : Vec F S512x256 .f32) (x2 : Vec F S512x256 .f32) (xs0 : Vec F S512x1 .f32) (xs1 : Vec F S512x1 .f32) (y : S512x1.Idx) :
    ∃ pc ∈ (kernelRun0_C c i arg2 harg2 arg3 harg3 arg4 harg4 arg5 harg5 arg6 harg6 arg7 harg7 arg8 harg8 hc0 hc1 x0 x1 x2 xs0 xs1).2.1, y ∈ pc.1.set :=
  View.cover_of_tiledL (kernelRun0_C c i arg2 harg2 arg3 harg3 arg4 harg4 arg5 harg5 arg6 harg6 arg7 harg7 arg8 harg8 hc0 hc1 x0 x1 x2 xs0 xs1).2.1 S512x1.size (by sl_kernel_rfl) y

/-- What case C leaves in output 3's staging buffer: its pieces read back over junk. -/
def out0_C_3 (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x256 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0_0 i) (hc1 : cond0_1 i)
    (x0 : Vec F S512x256 .f32) (x1 : Vec F S512x256 .f32) (x2 : Vec F S512x256 .f32) (xs0 : Vec F S512x1 .f32) (xs1 : Vec F S512x1 .f32) : Vec F S512x1 .f32 :=
  VO0_3.read (Elt F) (VO0_3.writes (Elt F) VO0_3.junk (kernelRun0_C c i arg2 harg2 arg3 harg3 arg4 harg4 arg5 harg5 arg6 harg6 arg7 harg7 arg8 harg8 hc0 hc1 x0 x1 x2 xs0 xs1).1)

/-- What case C leaves in output 4's staging buffer: its pieces read back over junk. -/
def out0_C_4 (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x256 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0_0 i) (hc1 : cond0_1 i)
    (x0 : Vec F S512x256 .f32) (x1 : Vec F S512x256 .f32) (x2 : Vec F S512x256 .f32) (xs0 : Vec F S512x1 .f32) (xs1 : Vec F S512x1 .f32) : Vec F S512x1 .f32 :=
  VO0_4.read (Elt F) (VO0_4.writes (Elt F) VO0_4.junk (kernelRun0_C c i arg2 harg2 arg3 harg3 arg4 harg4 arg5 harg5 arg6 harg6 arg7 harg7 arg8 harg8 hc0 hc1 x0 x1 x2 xs0 xs1).2.1)

/-- Case C's pieces for scratch accumulator 0 tile it, so they cover it. -/
theorem scover0_C_0 (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x256 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0_0 i) (hc1 : cond0_1 i)
    (x0 : Vec F S512x256 .f32) (x1 : Vec F S512x256 .f32) (x2 : Vec F S512x256 .f32) (xs0 : Vec F S512x1 .f32) (xs1 : Vec F S512x1 .f32) (y : S512x1.Idx) :
    ∃ pc ∈ (kernelRun0_C c i arg2 harg2 arg3 harg3 arg4 harg4 arg5 harg5 arg6 harg6 arg7 harg7 arg8 harg8 hc0 hc1 x0 x1 x2 xs0 xs1).2.2.1, y ∈ pc.1.set :=
  View.cover_of_tiledL (kernelRun0_C c i arg2 harg2 arg3 harg3 arg4 harg4 arg5 harg5 arg6 harg6 arg7 harg7 arg8 harg8 hc0 hc1 x0 x1 x2 xs0 xs1).2.2.1 S512x1.size (by sl_kernel_rfl) y

/-- Case C's pieces for scratch accumulator 1 tile it, so they cover it. -/
theorem scover0_C_1 (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x256 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0_0 i) (hc1 : cond0_1 i)
    (x0 : Vec F S512x256 .f32) (x1 : Vec F S512x256 .f32) (x2 : Vec F S512x256 .f32) (xs0 : Vec F S512x1 .f32) (xs1 : Vec F S512x1 .f32) (y : S512x1.Idx) :
    ∃ pc ∈ (kernelRun0_C c i arg2 harg2 arg3 harg3 arg4 harg4 arg5 harg5 arg6 harg6 arg7 harg7 arg8 harg8 hc0 hc1 x0 x1 x2 xs0 xs1).2.2.2.1, y ∈ pc.1.set :=
  View.cover_of_tiledL (kernelRun0_C c i arg2 harg2 arg3 harg3 arg4 harg4 arg5 harg5 arg6 harg6 arg7 harg7 arg8 harg8 hc0 hc1 x0 x1 x2 xs0 xs1).2.2.2.1 S512x1.size (by sl_kernel_rfl) y

/-- What case C leaves in scratch accumulator 0: its pieces read back over junk. -/
def sout0_C_0 (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x256 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0_0 i) (hc1 : cond0_1 i)
    (x0 : Vec F S512x256 .f32) (x1 : Vec F S512x256 .f32) (x2 : Vec F S512x256 .f32) (xs0 : Vec F S512x1 .f32) (xs1 : Vec F S512x1 .f32) : Vec F S512x1 .f32 :=
  VS0_0.read (Elt F) (VS0_0.writes (Elt F) VS0_0.junk (kernelRun0_C c i arg2 harg2 arg3 harg3 arg4 harg4 arg5 harg5 arg6 harg6 arg7 harg7 arg8 harg8 hc0 hc1 x0 x1 x2 xs0 xs1).2.2.1)

/-- What case C leaves in scratch accumulator 1: its pieces read back over junk. -/
def sout0_C_1 (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x256 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0_0 i) (hc1 : cond0_1 i)
    (x0 : Vec F S512x256 .f32) (x1 : Vec F S512x256 .f32) (x2 : Vec F S512x256 .f32) (xs0 : Vec F S512x1 .f32) (xs1 : Vec F S512x1 .f32) : Vec F S512x1 .f32 :=
  VS0_1.read (Elt F) (VS0_1.writes (Elt F) VS0_1.junk (kernelRun0_C c i arg2 harg2 arg3 harg3 arg4 harg4 arg5 harg5 arg6 harg6 arg7 harg7 arg8 harg8 hc0 hc1 x0 x1 x2 xs0 xs1).2.2.2.1)

/-! ## What the outputs and the scratch accumulators hold after each point -/

/-- THE ACCUMULATION. What the outputs' staging buffers and the two scratch accumulators hold after the body at position
    `n` (output 3's buffer, output 4's buffer, scratch accumulator 0, scratch accumulator 1): the case the closed forms
    select at `n`, run at the point's memrefs and input blocks, the scratch accumulators at what this leaves at `n - 1`
    where the case reads them before covering. -/
def outsAt0 (c : Dev nD) : (n : ℕ) → n < cfg0.N → Vec F S512x1 .f32 × Vec F S512x1 .f32 × Vec F S512x1 .f32 × Vec F S512x1 .f32
  | 0, hn => (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩), out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩))
  | n + 1, hn =>
    if h0 : (n + 1) % 8 = 0 then
      if h1 : (n + 1) % 8 = 7 then
        False.elim (by omega)
      else
        (out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩), out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩))
    else
      if h1 : (n + 1) % 8 = 7 then
        (out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (outsAt0 c n (Nat.lt_of_succ_lt hn)).2.2.1 (outsAt0 c n (Nat.lt_of_succ_lt hn)).2.2.2, out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (outsAt0 c n (Nat.lt_of_succ_lt hn)).2.2.1 (outsAt0 c n (Nat.lt_of_succ_lt hn)).2.2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (outsAt0 c n (Nat.lt_of_succ_lt hn)).2.2.1 (outsAt0 c n (Nat.lt_of_succ_lt hn)).2.2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (outsAt0 c n (Nat.lt_of_succ_lt hn)).2.2.1 (outsAt0 c n (Nat.lt_of_succ_lt hn)).2.2.2)
      else
        (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (outsAt0 c n (Nat.lt_of_succ_lt hn)).2.2.1 (outsAt0 c n (Nat.lt_of_succ_lt hn)).2.2.2, out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (outsAt0 c n (Nat.lt_of_succ_lt hn)).2.2.1 (outsAt0 c n (Nat.lt_of_succ_lt hn)).2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (outsAt0 c n (Nat.lt_of_succ_lt hn)).2.2.1 (outsAt0 c n (Nat.lt_of_succ_lt hn)).2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (outsAt0 c n (Nat.lt_of_succ_lt hn)).2.2.1 (outsAt0 c n (Nat.lt_of_succ_lt hn)).2.2.2)

/-- `outsAt0` at a point of case A: that case's contents. -/
theorem outsAt0_A (c : Dev nD) (t : Fin cfg0.N) (h0 : t.val % 8 = 0) (h1 : ¬t.val % 8 = 7) :
    outsAt0 m c t.val t.isLt = (out0_A_3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk m c 0 t) (iblk m c 1 t) (iblk m c 2 t), out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk m c 0 t) (iblk m c 1 t) (iblk m c 2 t), sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk m c 0 t) (iblk m c 1 t) (iblk m c 2 t), sout0_A_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk m c 0 t) (iblk m c 1 t) (iblk m c 2 t)) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 8 = 0) (h1 : ¬t.val % 8 = 7) :
    outsAt0 m c t.val t.isLt = (out0_B_3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2, out0_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2, sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2, sout0_B_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left. -/
theorem outsAt0_C (c : Dev nD) (t : Fin cfg0.N) (h0 : ¬t.val % 8 = 0) (h1 : t.val % 8 = 7) :
    outsAt0 m c t.val t.isLt = (out0_C_3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2, out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2, sout0_C_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2, sout0_C_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's (every scratch at anything);
    afterwards the two scratch accumulators at what the point before left in them, and the core's random-bit register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.1) ∗ owns (c : Thread nD τ) scM0_1 fullShare ((outsAt0 m c n hn).2.2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the scratch accumulators at that point's contents. -/
theorem PhiS_succ (c : Dev nD) (n : ℕ) (hn : n < cfg0.N) :
    PhiS m c (n + 1) hn = iprop(iprop(owns (c : Thread nD τ) scM0_0 fullShare ((outsAt0 m c n hn).2.2.1) ∗ owns (c : Thread nD τ) scM0_1 fullShare ((outsAt0 m c n hn).2.2.2)) ∗ (∃ r, prngReg c r)) := rfl

/-- Before a point that is not the first: the scratch accumulators at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.1) ∗ owns (c : Thread nD τ) scM0_1 fullShare ((outsAt0 m c (n - 1) (by omega)).2.2.2)) ∗ (∃ r, prngReg c r)) := by
  cases n with
  | zero => exact absurd rfl hz
  | succ n => rfl

/-! ## The pipeline's proof data -/

/-- The proof data of the one pipeline on core `c`: the arrays as the region finds them; after the body at point `t`
    each input's buffer at its block and the outputs' at `outsAt0`; the invariant `PhiS`; nothing owed; windows 0 and 1
    split the share of the one array they both read. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t.val t.isLt).1
    | ⟨4, _⟩ => (outsAt0 m c t.val t.isLt).2.1
  Φ t := PhiS m c t.val (Nat.le_of_lt_succ t.isLt)
  q w := match w with
    | ⟨0, _⟩ => fullShare.left
    | ⟨1, _⟩ => fullShare.right
    | _ => fullShare
  owed _ := 0

/-- The proof data's arrays are the region-entry contents. -/
theorem A_eq (c : Dev nD) (w : Fin cfg0.W) : (dats m 0 c).A w = V m c (Pipeline.arrRef spec0 w) := by
  dsimp only [dats]

/-- The invariant at a point's start, restated at `t.val`. -/
theorem PhiS_castSucc (c : Dev nD) (t : Fin cfg0.N) :
    (dats m 0 c).Φ t.castSucc = PhiS m c t.val (Nat.le_of_lt t.isLt) := by
  dsimp only [dats]; simp only [Fin.coe_castSucc]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t.val t.isLt).1 := by dsimp only [dats]
theorem after0_4 (c : Dev nD) (t : Fin cfg0.N) : (dats m 0 c).after 4 t = (outsAt0 m c t.val t.isLt).2.1 := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 4800000 in
/-- The body at any point: the inputs' memrefs hold their blocks; the closed forms say which case the point is in; the
    invariant hands the body the two scratch accumulators at what the point before left (at anything at the first
    point) and takes them back at this point's contents; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt (show cfg0.N = 64 from N_0)
  by_cases h0 : t.val % 8 = 0
  · by_cases h1 : t.val % 8 = 7
    · exfalso; omega
    · rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [Dat.leavesExact_idle (dats m 0 c) 3 t (idleAt0_3_A t ((hcond0_0 t).mpr h0) (fun h => h1 ((hcond0_1 t).mp h))) (noFlush0_3_A t ((hcond0_0 t).mpr h0) (fun h => h1 ((hcond0_1 t).mp h)))]
      rw [Dat.leavesExact_idle (dats m 0 c) 4 t (idleAt0_4_A t ((hcond0_0 t).mpr h0) (fun h => h1 ((hcond0_1 t).mp h))) (noFlush0_4_A t ((hcond0_0 t).mpr h0) (fun h => h1 ((hcond0_1 t).mp h)))]
      rw [outsAt0_A m c t h0 h1]
      unfold sout0_A_0 sout0_A_1; (try dsimp only)
      by_cases hz : t.val = 0
      · rw [PhiS_castSucc m c t, PhiS_zero m c _ _ hz, PhiA0_eq]
        iintro ⟨⟨⟨HS0, HS1⟩, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ _ _ ((hcond0_0 t).mpr h0) (fun h => h1 ((hcond0_1 t).mp h)) (iblk m c 0 t) (iblk m c 1 t) (iblk m c 2 t)).2.2.2.2 _ _ Set.univ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        iintro ⟨H0, H1, H2, H3, H4, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_A_0 c _ _ _ _ _ _ _ _ _ _ _ _ _ _ _ _ _ _ _ _)
            unfold owns; iexists _; isplitr
            swap; · iexact HS1
            ipureintro; exact View.read_writes_of_cover _ _ _ _ _ (scover0_A_1 c _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexists _; iexact H3
        iexists _; iexact H4
      · rw [PhiS_castSucc m c t, PhiS_pos m c _ _ hz]
        iintro ⟨⟨⟨HS0, HS1⟩, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ _ _ ((hcond0_0 t).mpr h0) (fun h => h1 ((hcond0_1 t).mp h)) (iblk m c 0 t) (iblk m c 1 t) (iblk m c 2 t)).2.2.2.2 _ _ Set.univ _)
        isplitl [H0]; · iexact H0
        isplitl [H1]; · iexact H1
        isplitl [H2]; · iexact H2
        isplitl [H3]; · iexact H3
        isplitl [H4]; · iexact H4
        isplitl [HS0]; · iexists _; iexact HS0
        isplitl [HS1]; · iexists _; iexact HS1
        iintro ⟨H0, H1, H2, H3, H4, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_A_0 c _ _ _ _ _ _ _ _ _ _ _ _ _ _ _ _ _ _ _ _)
            unfold owns; iexists _; isplitr
            swap; · iexact HS1
            ipureintro; exact View.read_writes_of_cover _ _ _ _ _ (scover0_A_1 c _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexists _; iexact H3
        iexists _; iexact H4
  · by_cases h1 : t.val % 8 = 7
    · rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3_C t (fun h => h0 ((hcond0_0 t).mp h)) ((hcond0_1 t).mpr h1)], after0_3]
      rw [show (dats m 0 c).leavesExact 4 t = owns (c : Thread nD τ) (ms0_4 t) fullShare ((dats m 0 c).after 4 t) from by
        unfold Dat.leavesExact; rw [liveAt0_4_C t (fun h => h0 ((hcond0_0 t).mp h)) ((hcond0_1 t).mpr h1)], after0_4]
      rw [outsAt0_C m c t h0 h1]
      unfold out0_C_3 out0_C_4 sout0_C_0 sout0_C_1; (try dsimp only)
      by_cases hz : t.val = 0
      · exfalso; omega
      · rw [PhiS_castSucc m c t, PhiS_pos m c _ _ hz]
        iintro ⟨⟨⟨HS0, HS1⟩, Hg⟩, Ho, ⟨%d0, H0⟩, ⟨%d1, H1⟩, ⟨%d2, H2⟩, ⟨%d3, H3⟩, ⟨%d4, H4⟩⟩
        iapply ((kernelRun0_C c (grid0.coords t) _ _ _ _ _ _ _ _ _ _ _ _ _ _ (fun h => h0 ((hcond0_0 t).mp h)) ((hcond0_1 t).mpr h1) (iblk m c 0 t) (iblk m c 1 t) (iblk m c 2 t) _ _).2.2.2.2 Set.univ _)
        isplitl [H0]; · iexact H0
        isplitl [H1]; · iexact H1
        isplitl [H2]; · iexact H2
        isplitl [H3]; · iexists _; iexact H3
        isplitl [H4]; · iexists _; iexact H4
        isplitl [HS0]; · iexact HS0
        isplitl [HS1]; · iexact HS1
        iintro ⟨H0, H1, H2, ⟨%e3, H3⟩, ⟨%e4, H4⟩, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _ _)
            unfold owns; iexists _; isplitr
            swap; · iexact HS1
            ipureintro; exact View.read_writes_of_cover _ _ _ _ _ (scover0_C_1 c _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]
        · unfold owns; iexists _; isplitr
          swap; · iexact H3
          ipureintro; exact View.read_writes_of_cover _ _ _ _ _ (cover0_C_3 c _ _ _ _ _ _ _ _ _ _ _ _ _ _ _ _ _ _ _ _ _ _)
        unfold owns; iexists _; isplitr
        swap; · iexact H4
        ipureintro; exact View.read_writes_of_cover _ _ _ _ _ (cover0_C_4 c _ _ _ _ _ _ _ _ _ _ _ _ _ _ _ _ _ _ _ _ _ _)
    · rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [Dat.leavesExact_idle (dats m 0 c) 3 t (idleAt0_3_B t (fun h => h0 ((hcond0_0 t).mp h)) (fun h => h1 ((hcond0_1 t).mp h))) (noFlush0_3_B t (fun h => h0 ((hcond0_0 t).mp h)) (fun h => h1 ((hcond0_1 t).mp h)))]
      rw [Dat.leavesExact_idle (dats m 0 c) 4 t (idleAt0_4_B t (fun h => h0 ((hcond0_0 t).mp h)) (fun h => h1 ((hcond0_1 t).mp h))) (noFlush0_4_B t (fun h => h0 ((hcond0_0 t).mp h)) (fun h => h1 ((hcond0_1 t).mp h)))]
      rw [outsAt0_B m c t h0 h1]
      unfold sout0_B_0 sout0_B_1; (try dsimp only)
      by_cases hz : t.val = 0
      · exfalso; omega
      · rw [PhiS_castSucc m c t, PhiS_pos m c _ _ hz]
        iintro ⟨⟨⟨HS0, HS1⟩, Hg⟩, Ho, ⟨%d0, H0⟩, ⟨%d1, H1⟩, ⟨%d2, H2⟩, ⟨%d3, H3⟩, ⟨%d4, H4⟩⟩
        iapply ((kernelRun0_B c (grid0.coords t) _ _ _ _ _ _ _ _ _ _ _ _ _ _ (fun h => h0 ((hcond0_0 t).mp h)) (fun h => h1 ((hcond0_1 t).mp h)) (iblk m c 0 t) (iblk m c 1 t) (iblk m c 2 t) _ _).2.2.2.2 _ _ Set.univ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        iintro ⟨H0, H1, H2, H3, H4, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _)
            unfold owns; iexists _; isplitr
            swap; · iexact HS1
            ipureintro; exact View.read_writes_of_cover _ _ _ _ _ (scover0_B_1 c _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexists _; iexact H3
        iexists _; iexact H4

/-- The body obligation, at every grid point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the class's back: the scratch accumulators' named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexists _; iexact HS1
  iexact Hg

/-- The same after the last point. -/
theorem hout (c : Dev nD) : (dats m 0 c).Φ (Fin.last cfg0.N) ⊢ Pipeline.ΦA spec0 c :=
  Phi_out m c _ (by rw [Fin.val_last]; have : cfg0.N = 64 := N_0; omega)

end Cert.Kernel.KBody

end
-- ==== Proof.KLaunchW.lean ====
/-
  The run of the whole program around its one grid region when two input windows of the region read the same
  array: the twenty array operations that normalize the rows, the region over its 8 × 8 grid, and the nine array
  operations that turn the two result columns into the loss.

  The array read through two windows is held, inside the region, as two half shares of one points-to, one per
  window (`arrays_iff`: the four distinct arrays at the full share are the five windows' arrays at their shares,
  both ways); the outputs' arrays are held whole. After the region the halves are joined again, the nine operations
  run on all unscoped buffers at once, and the final memory is read off: every array of the region at what the
  write-backs left, every other buffer at the fold of the operations over the entry contents with the two result
  columns put in place (`KPost`).
-/
import proofs.«171112_j24275155156992_1_alg».proof.Proof.Gen.Kernel.Launch
import proofs.«171112_j24275155156992_1_alg».proof.Proof.Gen.Kernel.Points
import Idealize.ShloMosaic.Lib.Pipeline.FrameBody
import Idealize.ShloMosaic.Lib.Pipeline.FrameSuffix

set_option maxRecDepth 16384

noncomputable section

namespace Cert.Kernel.KLaunch

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev V0 (c : Dev nD) : Valuation τ sig (Elt F) := StableHlo.after (List.flatten [hostOps0]) (fun b => m (c, b))
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

theorem arrImage : (Finset.univ.image (Pipeline.arrRef spec0) : Finset (Ref sig .tc)) = ([main_v7, main_v15, main_v16_0, main_v16_1] : List (Ref sig .tc)).toFinset := by decide

theorem arrays_iff (c : Dev nD) (dat : Dat τ (Elt F) Unit ℕ (UR sig nD τ) ℕ cfg0 c)
    (hq0 : dat.q 0 = fullShare.left) (hq1 : dat.q 1 = fullShare.right) (hq2 : dat.q 2 = fullShare)
    (W : (b : Ref sig .tc) → Buf (Elt F) ((c.tc : Thread nD τ).loc b))
    (Fw : (w : Fin cfg0.W) → Buf (Elt F) ((cfg0.win w).arr.view.loc (c.tc : Thread nD τ)))
    (hF : ∀ w, Fw w = W (Pipeline.arrRef spec0 w)) :
    (Pipeline.arrBufs spec0 c W : sProp 𝕄) ⊣⊢ dat.arrays Fw := by
  unfold Pipeline.arrBufs Dat.arrays
  rw [bigSep_W0, bigSep_eq_bigSepL_of_eq _ arrImage (by decide)]
  simp only [bigSepL_cons_cons, bigSepL_singleton]
  have s0 : dat.share 0 = fullShare.left := (if_neg (by decide)).trans hq0
  have s1 : dat.share 1 = fullShare.right := (if_neg (by decide)).trans hq1
  have s2 : dat.share 2 = fullShare := (if_neg (by decide)).trans hq2
  have s3 : dat.share 3 = fullShare := if_pos (by decide)
  have s4 : dat.share 4 = fullShare := if_pos (by decide)
  rw [s0, s1, s2, s3, s4, hF 0, hF 1, hF 2, hF 3, hF 4]
  simp only [View.set_whole]
  show iprop((c.tc.loc main_v7 ↦{fullShare} W main_v7) ∗ (c.tc.loc main_v15 ↦{fullShare} W main_v15) ∗ (c.tc.loc main_v16_0 ↦{fullShare} W main_v16_0) ∗ (c.tc.loc main_v16_1 ↦{fullShare} W main_v16_1))
    ⊣⊢ iprop((c.tc.loc main_v7 ↦{fullShare.left} W main_v7) ∗ (c.tc.loc main_v7 ↦{fullShare.right} W main_v7) ∗ (c.tc.loc main_v15 ↦{fullShare} W main_v15) ∗ (c.tc.loc main_v16_0 ↦{fullShare} W main_v16_0) ∗ (c.tc.loc main_v16_1 ↦{fullShare} W main_v16_1))
  have hs := pointsTo_share (Ix := Unit) (Val := Elt F) (Name := ℕ) (U := UR sig nD τ) (Lvl := ℕ) (ℓ := c.tc.loc main_v7) (I := Finset.univ) (f := W main_v7) (PosShare.mem_left_op_right fullShare)
  refine ⟨?_, ?_⟩
  · iintro ⟨H7, H15, H0, H1⟩
    ihave H := (hs.1) $$ H7
    icases H with ⟨Ha, Hb⟩
    isplitl [Ha]; · iexact Ha
    isplitl [Hb]; · iexact Hb
    isplitl [H15]; · iexact H15
    isplitl [H0]; · iexact H0
    iexact H1
  · iintro ⟨Ha, Hb, H15, H0, H1⟩
    isplitl [Ha Hb]
    · iapply (hs.2); isplitl [Ha]; · iexact Ha
      iexact Hb
    isplitl [H15]; · iexact H15
    isplitl [H0]; · iexact H0
    iexact H1

/-- The two operations that put the region's results in place of the output arrays' entry contents. -/
abbrev outOps (A3 A4 : (⟨S4096x1, .f32⟩ : BufTy).Contents (Elt F)) : List (HloOp τ sig (Elt F)) :=
  [StableHlo.nullary main_v16_0 A3, StableHlo.nullary main_v16_1 A4]

variable (dats : (p : Fin 1) → (c : Dev nD) → Dat τ (Elt F) Unit ℕ (UR sig nD τ) ℕ (cfgs p) c)

/-- Core c's buffers when the region is left: the entry contents with the two output arrays at what the region wrote. -/
abbrev WX (c : Dev nD) : Valuation τ sig (Elt F) :=
  StableHlo.after (outOps ((dats 0 c).arrAt 3 cfg0.N) ((dats 0 c).arrAt 4 cfg0.N)) (V0 m c)
/-- And after the host lines that follow the region. -/
abbrev WF (c : Dev nD) : Valuation τ sig (Elt F) := StableHlo.after ([hostOps1] : List (List (HloOp τ sig (Elt F)))).flatten (WX m dats c)

/-- What the run ends with: every array of the pipeline at the contents the write-backs of the proof data leave in it,
    every other unscoped buffer at the fold of the host operations. -/
def KPost (r : PUnit × MemSt nD τ sig (Elt F)) : Prop :=
  ∀ c : Dev nD, (∀ w, r.2.mem ((spec0 w).arr.view.loc (c.tc : Thread nD τ)) = (dats 0 c).arrAt w cfg0.N)
    ∧ ∀ b ∈ Pipeline.restRefs sig spec0, r.2.mem ((c.tc : Thread nD τ).loc b) = WF m dats c (Proc.devRef .tc b)

theorem hostOps1_keeps7 : ∀ op ∈ (hostOps1 : List (HloOp τ sig (Elt F))), (Proc.devRef (τ := τ) .tc main_v7) ∉ op.writes := by
  intro op hop
  simp only [hostOps1, List.mem_cons, List.mem_nil_iff, or_false] at hop
  rcases hop with rfl | rfl | rfl | rfl | rfl | rfl | rfl | rfl | rfl
  all_goals simp only [StableHlo.nullary_writes, StableHlo.unary_writes, StableHlo.binary_writes, StableHlo.reshape_writes, Finset.mem_singleton]; exact StableHlo.devRef_ne_of_ne (by decide)
theorem hostOps1_keeps15 : ∀ op ∈ (hostOps1 : List (HloOp τ sig (Elt F))), (Proc.devRef (τ := τ) .tc main_v15) ∉ op.writes := by
  intro op hop
  simp only [hostOps1, List.mem_cons, List.mem_nil_iff, or_false] at hop
  rcases hop with rfl | rfl | rfl | rfl | rfl | rfl | rfl | rfl | rfl
  all_goals simp only [StableHlo.nullary_writes, StableHlo.unary_writes, StableHlo.binary_writes, StableHlo.reshape_writes, Finset.mem_singleton]; exact StableHlo.devRef_ne_of_ne (by decide)
theorem hostOps1_keeps160 : ∀ op ∈ (hostOps1 : List (HloOp τ sig (Elt F))), (Proc.devRef (τ := τ) .tc main_v16_0) ∉ op.writes := by
  intro op hop
  simp only [hostOps1, List.mem_cons, List.mem_nil_iff, or_false] at hop
  rcases hop with rfl | rfl | rfl | rfl | rfl | rfl | rfl | rfl | rfl
  all_goals simp only [StableHlo.nullary_writes, StableHlo.unary_writes, StableHlo.binary_writes, StableHlo.reshape_writes, Finset.mem_singleton]; exact StableHlo.devRef_ne_of_ne (by decide)
theorem hostOps1_keeps161 : ∀ op ∈ (hostOps1 : List (HloOp τ sig (Elt F))), (Proc.devRef (τ := τ) .tc main_v16_1) ∉ op.writes := by
  intro op hop
  simp only [hostOps1, List.mem_cons, List.mem_nil_iff, or_false] at hop
  rcases hop with rfl | rfl | rfl | rfl | rfl | rfl | rfl | rfl | rfl
  all_goals simp only [StableHlo.nullary_writes, StableHlo.unary_writes, StableHlo.binary_writes, StableHlo.reshape_writes, Finset.mem_singleton]; exact StableHlo.devRef_ne_of_ne (by decide)

/-- The buffers when the region is left: the output arrays at what the region wrote, every other reference as at entry. -/
theorem WX_v160 (c : Dev nD) : WX m dats c (Proc.devRef .tc main_v16_0) = (dats 0 c).arrAt 3 cfg0.N := by
  unfold WX outOps; after_results
theorem WX_v161 (c : Dev nD) : WX m dats c (Proc.devRef .tc main_v16_1) = (dats 0 c).arrAt 4 cfg0.N := by
  unfold WX outOps; after_results
theorem WX_other (c : Dev nD) (b : Ref sig .tc) (h0 : b ≠ main_v16_0) (h1 : b ≠ main_v16_1) :
    WX m dats c (Proc.devRef .tc b) = V m c b := by
  unfold WX outOps
  refine StableHlo.after_of_forall_not_mem _ _ fun op hop => ?_
  simp only [List.mem_cons, List.mem_nil_iff, or_false] at hop
  rcases hop with rfl | rfl
  · simp only [StableHlo.nullary_writes, Finset.mem_singleton]; exact StableHlo.devRef_ne_of_ne h0
  · simp only [StableHlo.nullary_writes, Finset.mem_singleton]; exact StableHlo.devRef_ne_of_ne h1

theorem hF_exit (hA : ∀ c w, (dats 0 c).A w = V m c (Pipeline.arrRef spec0 w)) (c : Dev nD) (w : Fin cfg0.W) :
    (dats 0 c).arrAt w cfg0.N = WX m dats c (Proc.devRef .tc (Pipeline.arrRef spec0 w)) := by
  match w with
  | ⟨0, _⟩ => exact ((dats 0 c).arrAt_in 0 rfl _).trans ((hA c 0).trans (WX_other m dats c main_v7 (by decide) (by decide)).symm)
  | ⟨1, _⟩ => exact ((dats 0 c).arrAt_in 1 rfl _).trans ((hA c 1).trans (WX_other m dats c main_v7 (by decide) (by decide)).symm)
  | ⟨2, _⟩ => exact ((dats 0 c).arrAt_in 2 rfl _).trans ((hA c 2).trans (WX_other m dats c main_v15 (by decide) (by decide)).symm)
  | ⟨3, _⟩ => exact (WX_v160 m dats c).symm
  | ⟨4, _⟩ => exact (WX_v161 m dats c).symm

theorem hF_final (hA : ∀ c w, (dats 0 c).A w = V m c (Pipeline.arrRef spec0 w)) (c : Dev nD) (w : Fin cfg0.W) :
    (dats 0 c).arrAt w cfg0.N = WF m dats c (Proc.devRef .tc (Pipeline.arrRef spec0 w)) := by
  unfold WF
  rw [show ([hostOps1] : List (List (HloOp τ sig (Elt F)))).flatten = hostOps1 from by simp only [List.flatten_cons, List.flatten_nil, List.append_nil]]
  match w with
  | ⟨0, _⟩ => exact (hF_exit m dats hA c 0).trans (StableHlo.after_of_forall_not_mem _ _ hostOps1_keeps7).symm
  | ⟨1, _⟩ => exact (hF_exit m dats hA c 1).trans (StableHlo.after_of_forall_not_mem _ _ hostOps1_keeps7).symm
  | ⟨2, _⟩ => exact (hF_exit m dats hA c 2).trans (StableHlo.after_of_forall_not_mem _ _ hostOps1_keeps15).symm
  | ⟨3, _⟩ => exact (hF_exit m dats hA c 3).trans (StableHlo.after_of_forall_not_mem _ _ hostOps1_keeps160).symm
  | ⟨4, _⟩ => exact (hF_exit m dats hA c 4).trans (StableHlo.after_of_forall_not_mem _ _ hostOps1_keeps161).symm

theorem arr_unscoped0 : ∀ w : Fin 5, (Pipeline.arrRef spec0 w).isScoped = false := by decide

/-- Off the pipeline's arrays the region changes nothing. -/
theorem rest_exit (c : Dev nD) :
    (Pipeline.unscopedRest spec0 c (V m c) : sProp 𝕄) = Pipeline.unscopedRest spec0 c (fun b => WX m dats c (Proc.devRef .tc b)) := by
  unfold Pipeline.unscopedRest
  refine bigSep_congr fun b hb => ?_
  have hb' : b ∉ Finset.univ.image (Pipeline.arrRef spec0) := (Finset.mem_sdiff.mp hb).2
  beta_reduce
  rw [WX_other m dats c b (fun e => hb' (e ▸ Finset.mem_image.mpr ⟨3, Finset.mem_univ _, rfl⟩))
    (fun e => hb' (e ▸ Finset.mem_image.mpr ⟨4, Finset.mem_univ _, rfl⟩))]

set_option backward.isDefEq.respectTransparency.types false in
/-- THE RUN of the kernel's @main for any proof data whose two input windows on the shared array hold its two half
    shares: host lines, the region, host lines. -/
theorem run_shared
    (hq0 : ∀ c, (dats 0 c).q 0 = fullShare.left) (hq1 : ∀ c, (dats 0 c).q 1 = fullShare.right) (hq2 : ∀ c, (dats 0 c).q 2 = fullShare)
    (hbody : ∀ c, Pipeline.BodyObligationLoose (dats 0 c) (defs₀ (F := F)) Variants.none () Set.univ)
    (howed : ∀ c t, (dats 0 c).owed t = 0)
    (hA : ∀ c w, (dats 0 c).A w = V m c (Pipeline.arrRef spec0 w))
    (hin : ∀ c, Pipeline.ΦA spec0 c ⊢ (dats 0 c).Φ 0) (hout : ∀ c, (dats 0 c).Φ (Fin.last cfg0.N) ⊢ Pipeline.ΦA spec0 c) :
    θ_run defs (onTc (τ := τ) (main (F := F))) (s₀ m ρ) (KPost m dats) := by
  classical
  exact Pipeline.θ_run_region_pf_tail (fun q => (cfgs q).toPCfg (Val := Elt F)) (fun q => (cfgs q).toPCfg_adm) dats () cellOf_inj 0
    winFacts₀0 (Pipeline.OwnSemFacts.none spec0) (Pipeline.PreFacts.none _) emb₁ defs₀ Variants.none m ρ main
    (fun _ => Pipeline.chain ([hostOps1].map StableHlo.seq)) hbody block_pos0 arr_whole0 stage_whole0 howed
    (G := fun _ => iprop(emp))
    (u₀ := initOf (Pipeline.cells (Pipeline.pin (fun q => (cfgs q).toPCfg (Val := Elt F)) (fun q => (cfgs q).toPCfg_adm)) cellOf_inj)
      (Pipeline.launchToks (Pipeline.pin (fun q => (cfgs q).toPCfg (Val := Elt F)) (fun q => (cfgs q).toPCfg_adm)) cellOf_inj))
    (hu₀ := by
      iintro Hu; imodintro
      isplitl [Hu]; · iapply (show (ownU _ : sProp 𝕄) ⊢ BI.own (emb₁ (initOf (Pipeline.cells (Pipeline.pin (fun q => (cfgs q).toPCfg (Val := Elt F)) (fun q => (cfgs q).toPCfg_adm)) cellOf_inj) (Pipeline.launchToks (Pipeline.pin (fun q => (cfgs q).toPCfg (Val := Elt F)) (fun q => (cfgs q).toPCfg_adm)) cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := fun c => (arrays_iff c (dats 0 c) (hq0 c) (hq1 c) (hq2 c) (V m c) _ (fun w => hA c w)).1)
    (hpf := fun _ k => k.elim0)
    (X := fun c => iprop(∃ r, prngReg c r)) (Y := fun c => iprop(∃ r, prngReg c r))
    (Z := fun c => Pipeline.unscopedRestP (Ix := Unit) (Name := ℕ) (U := UR sig nD τ) (Lvl := ℕ) Pipeline.Prefetch.none spec0 c (V m c))
    (Z' := fun c => Pipeline.unscopedRestP (Ix := Unit) (Name := ℕ) (U := UR sig nD τ) (Lvl := ℕ) Pipeline.Prefetch.none spec0 c (fun b => WF m dats c (Proc.devRef .tc b)))
    (hX := fun c => by
      iintro ⟨HU, -, -, -, Hp, -⟩; imodintro
      isplitl [Hp]; · iexists _; iexact Hp
      iexact HU)
    (hin := fun c => (show _ ⊢ Pipeline.ΦA spec0 c by
      unfold Pipeline.ΦA; iintro ⟨Hp, -, Hr⟩
      isplitl [Hr] <;> iassumption).trans (hin c))
    (hout := fun c => (hout c).trans (by
      rw [Pipeline.ownSems0_none]; unfold Pipeline.ΦA
      iintro ⟨Hr, Hp⟩
      isplitl [Hp]; · iexact Hp
      isplitr; · iempintro
      iexact Hr))
    (htail := fun c Q' => by
      have hsub : ∀ ops ∈ ([hostOps1] : List (List (HloOp τ sig (Elt F)))), ∀ op ∈ ops, op.bufs ⊆ Pipeline.ucRefs τ sig := by
        intro ops hops op hop
        simp only [List.mem_cons, List.mem_nil_iff, or_false] at hops
        subst hops
        exact Pipeline.sub_ucRefs op ((List.forall_iff_forall_mem.mp hostOps1_sub) op hop)
      have hfr : ∀ ops ∈ ([hostOps1] : List (List (HloOp τ sig (Elt F)))), ∀ op ∈ ops, op.fresh = ∅ := by
        intro ops hops op hop
        simp only [List.mem_cons, List.mem_nil_iff, or_false] at hops
        subst hops
        exact (List.forall_iff_forall_mem.mp hostOps1_fresh) op hop
      have hW : (StableHlo.held (c.tc : Thread nD τ) (Pipeline.ucRefs τ sig) (WX m dats c) : sProp 𝕄)
          = iprop(Pipeline.arrBufs spec0 c (fun b => WX m dats c (Proc.devRef .tc b)) ∗ Pipeline.unscopedRest spec0 c (fun b => WX m dats c (Proc.devRef .tc b))) := by
        rw [← Pipeline.unscopedBufs_held, Pipeline.unscopedBufs_split₀ cfgs 0 arr_unscoped0]
      have hW' : (StableHlo.held (c.tc : Thread nD τ) (Pipeline.ucRefs τ sig) (WF m dats c) : sProp 𝕄)
          = iprop(Pipeline.arrBufs spec0 c (fun b => WF m dats c (Proc.devRef .tc b)) ∗ Pipeline.unscopedRest spec0 c (fun b => WF m dats c (Proc.devRef .tc b))) := by
        rw [← Pipeline.unscopedBufs_held, Pipeline.unscopedBufs_split₀ cfgs 0 arr_unscoped0]
      rw [Pipeline.unscopedRestP_none, Pipeline.unscopedRestP_none, rest_exit m dats c, ← List.append_nil ([hostOps1].map StableHlo.seq)]
      iintro ⟨Hk, Hb, Harr, HZ⟩
      ihave Harr := (arrays_iff c (dats 0 c) (hq0 c) (hq1 c) (hq2 c) (fun b => WX m dats c (Proc.devRef .tc b)) _ (hF_exit m dats hA c)).2 $$ Harr
      iapply (Pipeline.wp_seqs_then (fun q => (cfgs q).toPCfg (Val := Elt F)) defs₀ Variants.none c (Pipeline.ucRefs τ sig) [] [hostOps1] hsub hfr (WX m dats c)) $$ [Hb Harr HZ]
      · isplitl [Hb]; · iexact Hb
        rw [hW]
        isplitl [Harr]; · iexact Harr
        iexact HZ
      iintro Hb
      rw [Pipeline.chain_nil, wp_pure, hW']
      imodintro
      iapply Hk
      icases Hb with ⟨-, Ha, Hr⟩
      isplitl [Ha]
      · iapply (arrays_iff c (dats 0 c) (hq0 c) (hq1 c) (hq2 c) (fun b => WF m dats c (Proc.devRef .tc b)) _ (hF_final m dats hA c)).1; iexact Ha
      iexact Hr)
    (QY := fun c s => ∀ b ∈ Pipeline.restRefsP sig Pipeline.Prefetch.none spec0, s.mem ((c.tc : Thread nD τ).loc b) = WF m dats c (Proc.devRef .tc b))
    (hY := fun c s' => by
      iintro ⟨-, HU, HSI⟩
      unfold Pipeline.unscopedRestP
      imodintro
      iapply (pointsTo_read_all (Pipeline.restRefsP sig Pipeline.Prefetch.none spec0) (fun b => (c.tc : Thread nD τ).loc b) (fun b => WF m dats c (Proc.devRef .tc b)) s')
      isplitl [HU] <;> iassumption)
    (hQ := fun s h c => ⟨(h c).1, Pipeline.rest_of_restP Pipeline.Prefetch.none spec0 (fun k => k.elim0) c (fun b => WF m dats c (Proc.devRef .tc b)) s (fun k => k.elim0) (h c).2.1 (h c).2.2⟩)

end Cert.Kernel.KLaunch
end
-- ==== Proof.KTopW.lean ====
/-
  The kernel program's run assembled: the region's body and proof data meet the launch for a shared input array,
  and the two argument arrays are read off the final memory — neither the normalization before the region, nor the
  region's two result columns, nor the nine operations after it write them.
-/
import proofs.«171112_j24275155156992_1_alg».proof.Proof.KFrameW
import proofs.«171112_j24275155156992_1_alg».proof.Proof.KLaunchW

set_option maxRecDepth 16384

noncomputable section

namespace Cert.Kernel.KTop

open Cert.Kernel Cert.Kernel.Gen
open Idealize.ShloMosaic Idealize.ShloMosaic.TcCoe
open Idealize.SL Idealize.SL.Sem
open Idealize.ShloMosaic.Pipeline (Dat)

variable {F : FTy → Type} [FloatOps F]
variable (m : (ℓ : Loc nD τ sig) → Buf (Elt F) ℓ) (ρ : Dev nD → PrngReg)

/-- Every weakly fair execution of @main terminates, nothing faulting; the region's arrays end at what the
    write-backs left and every other unscoped buffer at the fold of the host operations. -/
theorem run_main : θ_run defs (onTc (τ := τ) (main (F := F))) (s₀ m ρ) (KLaunch.KPost m (KBody.dats m)) :=
  KLaunch.run_shared m ρ (KBody.dats m) (fun _ => rfl) (fun _ => rfl) (fun _ => rfl) (fun c => (KBody.body_obligation m c).loose)
    (fun _ _ => rfl) (KBody.A_eq m) (KBody.hin m) (KBody.hout m)

variable (dats : (p : Fin 1) → (c : Dev nD) → Dat τ (Elt F) Unit ℕ (UR sig nD τ) ℕ (cfgs p) c)

/-- No operation of @main writes the first argument array. -/
theorem WF_arg0 (c : Dev nD) : KLaunch.WF m dats c (Proc.devRef .tc main_arg0) = m ((c.tc : Thread nD τ).loc main_arg0) := by
  unfold KLaunch.WF KLaunch.WX KLaunch.V0 KLaunch.outOps
  simp only [hostOps0, hostOps1, List.flatten_cons, List.flatten_nil, List.append_nil]
  after_results

/-- Nor the second. -/
theorem WF_arg1 (c : Dev nD) : KLaunch.WF m dats c (Proc.devRef .tc main_arg1) = m ((c.tc : Thread nD τ).loc main_arg1) := by
  unfold KLaunch.WF KLaunch.WX KLaunch.V0 KLaunch.outOps
  simp only [hostOps0, hostOps1, List.flatten_cons, List.flatten_nil, List.append_nil]
  after_results

theorem arg0_rest : main_arg0 ∈ Pipeline.restRefs sig spec0 := by decide
theorem arg1_rest : main_arg1 ∈ Pipeline.restRefs sig spec0 := by decide
theorem v22_rest : main_v22 ∈ Pipeline.restRefs sig spec0 := by decide

/-- The frame: @main runs to the end and leaves both argument arrays as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).2 main_arg0 arg0_rest).trans (WF_arg0 m _ c), ((h c).2 main_arg1 arg1_rest).trans (WF_arg1 m _ c)⟩)
    (run_main m ρ)

end Cert.Kernel.KTop

end
-- ==== Proof.KHostTerm.lean ====
/-
  The kernel program's host operations before and after its region, as two compositions of whole-array functions.

  Before the region each of the two input matrices is divided, row by row, by the clamped Euclidean norm of the
  row: the squares, their sum over each row from zero, the sum as a column, its square root, the maximum with the
  clamp, the column spread along the rows, the quotient.  After the region the two output columns are read as
  vectors, the logarithm of the first less the second is summed from zero, and the sum is divided by the row count.
  The fold of each stretch of operations at its result buffer is that composition of the contents it started from,
  by unrolling the fold; and neither stretch writes the arrays the region works on, nor the arguments.
-/
import proofs.«171112_j24275155156992_1_alg».proof.Proof.Gen.KernelIdeal.Launch
import Idealize.ShloMosaic.Lib.StableHlo.Run
import Idealize.ShloMosaic.Lib.ValueIdx

noncomputable section

open scoped BigOperators

namespace Cert.KernelIdeal.KHost

open Cert.KernelIdeal Cert.KernelIdeal.Gen Idealize.ShloMosaic Idealize.ShloMosaic.TcCoe Idealize.ShloMosaic.StableHlo Idealize.ShloMosaic.ValueIdx

variable {F : FTy → Type} [FloatOps F]

/-- A matrix divided row by row by the clamped norm of the row, as the host operations compose it. -/
def nzTerm (X : FVec F S4096x256 .f32) : FVec F S4096x256 .f32 :=
  Host.divf X
    (broadcastInDim S4096x256 ![0, 1] bcast_S4096x1_S4096x256_0_1
      (maximumf
        (Host.sqrt (broadcastInDim S4096x1 ![0] bcast_S4096_S4096x1_0
          (Host.reduceAdd (mulf X X) (constant S_ .f32 0x00000000#32) reducesTo_S4096x256_S4096_d1 h_S_)))
        (broadcastInDim S4096x1 ![] bcast_S_S4096x1 (constant S_ .f32 0x322BCC77#32))))

/-- The mean over the rows of the logarithm of the first column less the second, as the host operations compose it. -/
def lossTerm (P Q : FVec F S4096x1 .f32) : FVec F S_ .f32 :=
  Host.divf
    (Host.reduceAdd
      (subf (Host.log (shapeCast S4096 P shapeCasts_S4096x1_S4096)) (shapeCast S4096 Q shapeCasts_S4096x1_S4096))
      (constant S_ .f32 0x00000000#32) reducesTo_S4096_S_d0 h_S_)
    (constant S_ .f32 0x45800000#32)

/-! ## The operations before the region -/

attribute [local irreducible] Host.reduceAdd Host.divf Host.log Host.sqrt broadcastInDim shapeCast mulf subf maximumf constant in
/-- After the operations before the region the first normalized matrix is `nzTerm` of the first argument. -/
theorem pre_v7_term (V : Valuation τ sig (Elt F)) :
    after (hostOps0 (F := F)) V (main_v7 : DevRef τ sig) = nzTerm (V (main_arg0 : DevRef τ sig)) := by
  simp only [after_cons, after_nil]
  rfl

attribute [local irreducible] Host.reduceAdd Host.divf Host.log Host.sqrt broadcastInDim shapeCast mulf subf maximumf constant in
/-- After the operations before the region the second normalized matrix is `nzTerm` of the second argument. -/
theorem pre_v15_term (V : Valuation τ sig (Elt F)) :
    after (hostOps0 (F := F)) V (main_v15 : DevRef τ sig) = nzTerm (V (main_arg1 : DevRef τ sig)) := by
  simp only [after_cons, after_nil]
  rfl

/-- The operations before the region do not write the first argument. -/
theorem pre_arg0 (V : Valuation τ sig (Elt F)) :
    after (hostOps0 (F := F)) V (main_arg0 : DevRef τ sig) = V (main_arg0 : DevRef τ sig) := by
  simp only [after_cons, after_nil]
  rfl

/-- The operations before the region do not write the second argument. -/
theorem pre_arg1 (V : Valuation τ sig (Elt F)) :
    after (hostOps0 (F := F)) V (main_arg1 : DevRef τ sig) = V (main_arg1 : DevRef τ sig) := by
  simp only [after_cons, after_nil]
  rfl

/-- The operations before the region do not write the region's first output column. -/
theorem pre_v16_0 (V : Valuation τ sig (Elt F)) :
    after (hostOps0 (F := F)) V (main_v16_0 : DevRef τ sig) = V (main_v16_0 : DevRef τ sig) := by
  simp only [after_cons, after_nil]
  rfl

/-- The operations before the region do not write the region's second output column. -/
theorem pre_v16_1 (V : Valuation τ sig (Elt F)) :
    after (hostOps0 (F := F)) V (main_v16_1 : DevRef τ sig) = V (main_v16_1 : DevRef τ sig) := by
  simp only [after_cons, after_nil]
  rfl

/-! ## The operations after the region -/

attribute [local irreducible] Host.reduceAdd Host.divf Host.log Host.sqrt broadcastInDim shapeCast mulf subf maximumf constant in
/-- After the operations after the region the result is `lossTerm` of the region's two output columns. -/
theorem post_v22_term (W : Valuation τ sig (Elt F)) :
    after (hostOps1 (F := F)) W (main_v22 : DevRef τ sig)
      = lossTerm (W (main_v16_0 : DevRef τ sig)) (W (main_v16_1 : DevRef τ sig)) := by
  simp only [after_cons, after_nil]
  rfl

/-- The operations after the region do not write the first argument. -/
theorem post_arg0 (V : Valuation τ sig (Elt F)) :
    after (hostOps1 (F := F)) V (main_arg0 : DevRef τ sig) = V (main_arg0 : DevRef τ sig) := by
  simp only [after_cons, after_nil]
  rfl

/-- The operations after the region do not write the second argument. -/
theorem post_arg1 (V : Valuation τ sig (Elt F)) :
    after (hostOps1 (F := F)) V (main_arg1 : DevRef τ sig) = V (main_arg1 : DevRef τ sig) := by
  simp only [after_cons, after_nil]
  rfl

/-- The operations after the region do not write the first normalized matrix. -/
theorem post_v7 (V : Valuation τ sig (Elt F)) :
    after (hostOps1 (F := F)) V (main_v7 : DevRef τ sig) = V (main_v7 : DevRef τ sig) := by
  simp only [after_cons, after_nil]
  rfl

/-- The operations after the region do not write the second normalized matrix. -/
theorem post_v15 (V : Valuation τ sig (Elt F)) :
    after (hostOps1 (F := F)) V (main_v15 : DevRef τ sig) = V (main_v15 : DevRef τ sig) := by
  simp only [after_cons, after_nil]
  rfl

/-- The operations after the region do not write the region's first output column. -/
theorem post_v16_0 (V : Valuation τ sig (Elt F)) :
    after (hostOps1 (F := F)) V (main_v16_0 : DevRef τ sig) = V (main_v16_0 : DevRef τ sig) := by
  simp only [after_cons, after_nil]
  rfl

/-- The operations after the region do not write the region's second output column. -/
theorem post_v16_1 (V : Valuation τ sig (Elt F)) :
    after (hostOps1 (F := F)) V (main_v16_1 : DevRef τ sig) = V (main_v16_1 : DevRef τ sig) := by
  simp only [after_cons, after_nil]
  rfl

end Cert.KernelIdeal.KHost

end
-- ==== Proof.Spec.lean ====
/-
  The contrastive loss both programs compute, as two closed formulas over the extended reals.

  `A` and `B` are the two 4096 × 256 input matrices. Every row is divided by `max (‖row‖, ε)`; the
  scaled similarity of two normalized rows is their inner product times two (the kernel) or divided
  by one half (the reference). For row `i` the denominator is the sum of `exp` of the similarities of
  `A i` to every row of `A` and of `B` except the ones with the same row number, the positive term is the
  similarity of `A i` to `B i`, and the loss is the mean over `i` of `log denominator − positive`.

  `kerOut` is the formula in the kernel's arrangement (columns in eight blocks of 512, the excluded
  entries replaced by zero, the positive term picked out of its row by a sum against the diagonal mask);
  `refOut` is the reference's (the two matrices stacked to 8192 rows, an 8192 × 8192 similarity matrix
  multiplied by a 0/1 mask, `−mean (log (exp positive / denominator))`).
-/
import Idealize.ShloMosaic.PureOps.Ideal

noncomputable section

namespace Cert.Spec

open Idealize.ShloMosaic

/-- The clamp of a row norm: the f32 nearest to 1e-8. -/
def eps : EReal := Ideal.ofBits .f32 0x322BCC77#32
/-- The kernel's factor 1/temperature = 2. -/
def two : EReal := Ideal.ofBits .f32 0x40000000#32
/-- The reference's temperature 1/2. -/
def half : EReal := Ideal.ofBits .f32 0x3F000000#32
/-- The number of rows, 4096, as the f32 the mean divides by. -/
def cnt : EReal := Ideal.ofBits .f32 0x45800000#32

/-- The clamped Euclidean norm of row `i` of an `n × 256` matrix. -/
def nrm {n : Nat} (X : Fin n → Fin 256 → EReal) (i : Fin n) : EReal :=
  max (Ideal.sqrt (∑ k : Fin 256, X i k * X i k)) eps

/-- The row-normalized matrix. -/
def nz {n : Nat} (X : Fin n → Fin 256 → EReal) (i : Fin n) (k : Fin 256) : EReal :=
  Ideal.div (X i k) (nrm X i)

/-- Column `j` of column block `c` (eight blocks of 512). -/
def col (c : Fin 8) (j : Fin 512) : Fin 4096 := ⟨c.val * 512 + j.val, by omega⟩

/-! ## The kernel's arrangement -/

/-- Scaled similarity of normalized row `i` of `X` and normalized row `j` of `Y`: inner product times two. -/
def simK (X Y : Fin 4096 → Fin 256 → EReal) (i j : Fin 4096) : EReal :=
  (∑ k : Fin 256, nz X i k * nz Y j k) * two

/-- `exp` of the similarity with the diagonal entry replaced by zero. -/
def expOff (X Y : Fin 4096 → Fin 256 → EReal) (i j : Fin 4096) : EReal :=
  if i = j then 0 else Ideal.exp (simK X Y i j)

/-- The denominator of row `i`: over the eight column blocks, the off-diagonal `exp` sums against `A` and against `B`. -/
def denK (A B : Fin 4096 → Fin 256 → EReal) (i : Fin 4096) : EReal :=
  ∑ c : Fin 8, ((∑ j : Fin 512, expOff A A i (col c j)) + (∑ j : Fin 512, expOff A B i (col c j)))

/-- The positive term of row `i`: the similarity to `B` summed against the diagonal mask. -/
def posK (A B : Fin 4096 → Fin 256 → EReal) (i : Fin 4096) : EReal :=
  ∑ c : Fin 8, ∑ j : Fin 512, (if i = col c j then simK A B i (col c j) else 0)

/-- The kernel's loss. -/
def kerOut (A B : Fin 4096 → Fin 256 → EReal) : EReal :=
  Ideal.div (∑ i : Fin 4096, (Ideal.log (denK A B i) - posK A B i)) cnt

/-! ## The reference's arrangement -/

/-- `A` stacked on `B`: 8192 rows. -/
def stack (A B : Fin 4096 → Fin 256 → EReal) (p : Fin 8192) (k : Fin 256) : EReal :=
  if h : p.val < 4096 then A ⟨p.val, h⟩ k else B ⟨p.val - 4096, by omega⟩ k

/-- Similarity of stacked rows `p`, `q`: inner product of the normalized rows divided by one half. -/
def simR (E : Fin 8192 → Fin 256 → EReal) (p q : Fin 8192) : EReal :=
  Ideal.div (∑ k : Fin 256, nz E p k * nz E q k) half

/-- The 0/1 mask: zero exactly where the two row numbers agree modulo 4096. -/
def maskR (p q : Fin 8192) : EReal := if p.val % 4096 = q.val % 4096 then 0 else 1

/-- The denominator of stacked row `p`. -/
def denR (E : Fin 8192 → Fin 256 → EReal) (p : Fin 8192) : EReal :=
  ∑ q : Fin 8192, Ideal.exp (simR E p q) * maskR p q

/-- The reference's loss. -/
def refOut (A B : Fin 4096 → Fin 256 → EReal) : EReal :=
  -(Ideal.div (∑ i : Fin 4096,
      Ideal.log (Ideal.div (Ideal.exp (simR (stack A B) ⟨i.val, by omega⟩ ⟨4096 + i.val, by omega⟩))
        (denR (stack A B) ⟨i.val, by omega⟩))) cnt)

end Cert.Spec

end
-- ==== Proof.LibHostIx.lean ====
/-
  Host operations on literal-shaped arrays read at one index, for any extents.

  Layout: two matrices stacked by rows; a scalar, a column, a row and a vector broadcast to a larger array;
  a unit-stride slice of a vector. Arithmetic at the ideal values: the sum over each row of a matrix and
  the sum of a vector, each from an initial value; the product of a matrix with the transpose of another
  (both contracted along their second axis) at an entry; and the element of a matrix picked by a pair of
  start indices, each read as a signed integer and clamped into its axis. Words: the 32-bit word of a natural
  below 8192 under the signed remainder by 4096, when two such words are equal or negative, and a bit read as
  an unsigned integer at the ideal values.
-/
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.RefValLib

open Idealize.ShloMosaic Idealize.ShloMosaic.ValueIdx

/-! ## Layout -/

section Layout
variable {α : Type}

/-- Stacked by rows, at a row below the first height: the first matrix at the same row and column. -/
theorem concatenate_rows_apply_left {A B T C : Nat}
    (x₁ : (⟨2, ![A, C]⟩ : Shape).Idx → α) (x₂ : (⟨2, ![B, C]⟩ : Shape).Idx → α)
    (h : Shape.Concatenates [⟨2, ![A, C]⟩, ⟨2, ![B, C]⟩] ⟨2, ![T, C]⟩ 0)
    (p : Fin T) (k : Fin C) (hp : p.val < A) :
    concatenate ⟨2, ![T, C]⟩ 0 [⟨⟨2, ![A, C]⟩, x₁⟩, ⟨⟨2, ![B, C]⟩, x₂⟩] h (ix2 p k)
      = x₁ (ix2 ⟨p.val, hp⟩ k) :=
  concatenate_pair_apply_left _ x₁ x₂ h (ix2 p k) rfl (ix2 ⟨p.val, hp⟩ k)
    (fun b => match b with | ⟨0, _⟩ => rfl | ⟨1, _⟩ => rfl)

/-- Stacked by rows, at row `A + p'`: the second matrix at row `p'` and the same column. -/
theorem concatenate_rows_apply_right {A B T C : Nat}
    (x₁ : (⟨2, ![A, C]⟩ : Shape).Idx → α) (x₂ : (⟨2, ![B, C]⟩ : Shape).Idx → α)
    (h : Shape.Concatenates [⟨2, ![A, C]⟩, ⟨2, ![B, C]⟩] ⟨2, ![T, C]⟩ 0)
    (p : Fin T) (k : Fin C) (p' : Fin B) (hp : p.val = A + p'.val) :
    concatenate ⟨2, ![T, C]⟩ 0 [⟨⟨2, ![A, C]⟩, x₁⟩, ⟨⟨2, ![B, C]⟩, x₂⟩] h (ix2 p k)
      = x₂ (ix2 p' k) :=
  concatenate_pair_apply_right _ x₁ x₂ h (ix2 p k) rfl rfl (ix2 p' k)
    (fun b hb => match b, hb with
      | ⟨0, _⟩, hb => (hb rfl).elim
      | ⟨1, _⟩, _ => rfl)
    (by show p'.val + A = p.val; omega)

/-- Two one-column matrices side by side, at column 0: the first. -/
theorem concatenate_cols2_apply_zero {R : Nat}
    (x₁ x₂ : (⟨2, ![R, 1]⟩ : Shape).Idx → α)
    (h : Shape.Concatenates [⟨2, ![R, 1]⟩, ⟨2, ![R, 1]⟩] ⟨2, ![R, 2]⟩ 1) (r : Fin R) :
    concatenate ⟨2, ![R, 2]⟩ 1 [⟨⟨2, ![R, 1]⟩, x₁⟩, ⟨⟨2, ![R, 1]⟩, x₂⟩] h (ix2 r (0 : Fin 2))
      = x₁ (ix2 r (0 : Fin 1)) :=
  concatenate_pair_apply_left _ x₁ x₂ h (ix2 r (0 : Fin 2)) rfl (ix2 r (0 : Fin 1))
    (fun b => match b with | ⟨0, _⟩ => rfl | ⟨1, _⟩ => rfl)

/-- Two one-column matrices side by side, at column 1: the second. -/
theorem concatenate_cols2_apply_one {R : Nat}
    (x₁ x₂ : (⟨2, ![R, 1]⟩ : Shape).Idx → α)
    (h : Shape.Concatenates [⟨2, ![R, 1]⟩, ⟨2, ![R, 1]⟩] ⟨2, ![R, 2]⟩ 1) (r : Fin R) :
    concatenate ⟨2, ![R, 2]⟩ 1 [⟨⟨2, ![R, 1]⟩, x₁⟩, ⟨⟨2, ![R, 1]⟩, x₂⟩] h (ix2 r (1 : Fin 2))
      = x₂ (ix2 r (0 : Fin 1)) :=
  concatenate_pair_apply_right _ x₁ x₂ h (ix2 r (1 : Fin 2)) rfl rfl (ix2 r (0 : Fin 1))
    (fun b hb => match b, hb with
      | ⟨0, _⟩, _ => rfl
      | ⟨1, _⟩, hb => (hb rfl).elim)
    rfl

/-- A scalar broadcast to any shape reads the scalar everywhere. -/
theorem broadcastInDim_scalar_apply {t : Shape} (dims : Fin 0 → Fin t.rank)
    (h : (⟨0, ![]⟩ : Shape).BroadcastsInDim t dims) (x : (⟨0, ![]⟩ : Shape).Idx → α) (j : t.Idx) :
    broadcastInDim t dims h x j = x ix0 :=
  broadcastInDim_apply dims h x j ix0 (fun a => a.elim0)

/-- A vector as a one-column matrix reads, at `(e, z)`, the vector at `e`. -/
theorem broadcastInDim_col_apply {R : Nat} (x : (⟨1, ![R]⟩ : Shape).Idx → α)
    (h : (⟨1, ![R]⟩ : Shape).BroadcastsInDim ⟨2, ![R, 1]⟩ ![0]) (e : Fin R) (z : Fin 1) :
    broadcastInDim ⟨2, ![R, 1]⟩ ![0] h x (ix2 e z) = x (ix1 e) :=
  broadcastInDim_apply _ h x (ix2 e z) (ix1 e) (fun a => match a with
    | ⟨0, _⟩ => by
      show e.val = if R = 1 then 0 else e.val
      have := e.isLt
      split <;> omega)

/-- A vector as a one-row matrix reads, at `(z, c)`, the vector at `c`. -/
theorem broadcastInDim_row_apply {n : Nat} (x : (⟨1, ![n]⟩ : Shape).Idx → α)
    (h : (⟨1, ![n]⟩ : Shape).BroadcastsInDim ⟨2, ![1, n]⟩ ![1]) (z : Fin 1) (c : Fin n) :
    broadcastInDim ⟨2, ![1, n]⟩ ![1] h x (ix2 z c) = x (ix1 c) :=
  broadcastInDim_apply _ h x (ix2 z c) (ix1 c) (fun a => match a with
    | ⟨0, _⟩ => by
      show c.val = if n = 1 then 0 else c.val
      have := c.isLt
      split <;> omega)

/-- A one-column matrix broadcast along its columns reads, at `(p, c)`, the column's entry of row `p`. -/
theorem broadcastInDim_colwide_apply {a b : Nat} (x : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h x (ix2 p c) = x (ix2 p (0 : Fin 1)) :=
  broadcastInDim_apply _ h x (ix2 p c) (ix2 p (0 : Fin 1)) (fun ax => match ax with
    | ⟨0, _⟩ => by
      show p.val = if a = 1 then 0 else p.val
      have := p.isLt
      split <;> omega
    | ⟨1, _⟩ => by
      show 0 = if 1 = 1 then 0 else c.val
      rfl)

/-- A one-row matrix broadcast along its rows reads, at `(p, c)`, the row's entry of column `c`. -/
theorem broadcastInDim_rowwide_apply {a b : Nat} (x : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h x (ix2 p c) = x (ix2 (0 : Fin 1) c) :=
  broadcastInDim_apply _ h x (ix2 p c) (ix2 (0 : Fin 1) c) (fun ax => match ax with
    | ⟨0, _⟩ => by
      show 0 = if 1 = 1 then 0 else p.val
      rfl
    | ⟨1, _⟩ => by
      show c.val = if b = 1 then 0 else c.val
      have := c.isLt
      split <;> omega)

/-- The slice's side condition bounds the positions read. -/
theorem slices1_lt {M R o : Nat}
    (h : (⟨1, ![M]⟩ : Shape).Slices ![o] ⟨1, ![R]⟩) (r : Fin R) : o + r.val < M := by
  have h0 : o + R ≤ M := h.2 0
  have := r.isLt
  omega

/-- A slice of a vector at `r`: the vector at `o + r`. -/
theorem slice1_apply {M R o : Nat} (x : (⟨1, ![M]⟩ : Shape).Idx → α)
    (h : (⟨1, ![M]⟩ : Shape).Slices ![o] ⟨1, ![R]⟩) (r : Fin R) :
    extractStridedSlice ⟨1, ![R]⟩ ![o] x h (ix1 r) = x (ix1 ⟨o + r.val, slices1_lt h r⟩) :=
  extractStridedSlice_apply _ x h (ix1 r) (ix1 ⟨o + r.val, slices1_lt h r⟩) (fun a => match a with
    | ⟨0, _⟩ => rfl)

end Layout

/-! ## Sums -/

section Sums
variable {φ : FTy}

/-- A rank-1 index set is its one coordinate's range. -/
def idxEquiv1 {n : Nat} : (⟨1, ![n]⟩ : Shape).Idx ≃ Fin n where
  toFun i := i 0
  invFun a := ix1 a
  left_inv i := (eq_ix1 i).symm
  right_inv _ := rfl

/-- A sum over a rank-1 index set is the sum over the coordinate. -/
theorem sum_idx1 {M : Type*} [AddCommMonoid M] {n : Nat} (f : (⟨1, ![n]⟩ : Shape).Idx → M) :
    ∑ i, f i = ∑ a : Fin n, f (ix1 a) :=
  Fintype.sum_equiv idxEquiv1 f (fun a => f (ix1 a)) (fun i => congrArg f (eq_ix1 i))

/-- The host's sum over each row of a matrix, from an initial scalar: at row `i` the initial value plus the sum of the row. -/
theorem hostReduceAdd_rows {a b : Nat} (x : FVec Ideal ⟨2, ![a, b]⟩ φ) (init : (⟨0, ![]⟩ : Shape).Idx → Ideal φ)
    (h : (⟨2, ![a, b]⟩ : Shape).ReducesTo [1] ⟨1, ![a]⟩) (hu : 0 < (⟨0, ![]⟩ : Shape).numel)
    (hr : (⟨2, ![a, b]⟩ : Shape).Reduces [1] ⟨1, ![a]⟩) (i : Fin a) :
    Host.reduceAdd (F := Ideal) x init h hu (ix1 i) = init ix0 + ∑ k : Fin b, x (ix2 i k) := by
  show Ideal.hostReduceAdd h x (init (Shape.Idx.first hu)) (ix1 i) = _
  rw [Ideal.hostReduceAdd_single h hr x _ (ix1 i), eq_ix0 (Shape.Idx.first hu)]
  exact congrArg (init ix0 + ·) (Finset.sum_congr rfl fun k _ => congrArg x (funext fun c => Fin.ext (by
    match c with
    | ⟨0, _⟩ => rfl
    | ⟨1, _⟩ => rfl)))

/-- The host's sum of a vector, from an initial scalar: the initial value plus the sum of the entries. -/
theorem hostReduceAdd_vec {n : Nat} (x : FVec Ideal ⟨1, ![n]⟩ φ) (init : (⟨0, ![]⟩ : Shape).Idx → Ideal φ)
    (h : (⟨1, ![n]⟩ : Shape).ReducesTo [0] ⟨0, ![]⟩) (hu : 0 < (⟨0, ![]⟩ : Shape).numel)
    (j : (⟨0, ![]⟩ : Shape).Idx) :
    Host.reduceAdd (F := Ideal) x init h hu j = init ix0 + ∑ i : Fin n, x (ix1 i) := by
  show Ideal.hostReduceAdd h x (init (Shape.Idx.first hu)) j = _
  rw [Ideal.hostReduceAdd_total h (fun b => b.elim0) x _ j, eq_ix0 (Shape.Idx.first hu), sum_idx1]

end Sums

/-! ## A product with a transposed matrix -/

section Dot

/-- The host's product of an `M × K` matrix with the transpose of an `N × K` matrix (both contracted along their
    second axis, no batch axis) at entry `(a, b)`: the sum over the contracted coordinate of the products of the
    entries `A (a, c)` and `B (b, c)`. -/
theorem dotGeneral_nt_apply {M N K : ℕ} {φ₁ φ₂ : FTy}
    (w : DotDims.WF ⟨2, ![M, K]⟩ ⟨2, ![N, K]⟩ ⟨2, ![M, N]⟩ [1] [1] [0] [0] [] [])
    (prec : Option ContractPrecision) (A : FVec Ideal ⟨2, ![M, K]⟩ φ₁) (B : FVec Ideal ⟨2, ![N, K]⟩ φ₂)
    (a : Fin M) (b : Fin N) :
    Host.dotGeneral (F := Ideal) (⟨[1], [1], [0], [0], [], [], w⟩ : DotDims _ _ _) prec A B (ix2 a b)
      = ∑ c : Fin K, A (ix2 a c) * B (ix2 b c) := by
  simp only [Host.dotGeneral]
  rw [Ideal.dotGeneral_apply,
    ← Equiv.sum_comp (contrEquiv1 (⟨[1], [1], [0], [0], [], [], w⟩ : DotDims _ _ _) K rfl rfl).symm]
  refine Finset.sum_congr rfl fun c _ => ?_
  have c2 := contrEquiv1_symm_val
    (⟨[1], [1], [0], [0], [], [], w⟩ : DotDims ⟨2, ![M, K]⟩ ⟨2, ![N, K]⟩ ⟨2, ![M, N]⟩) K rfl rfl c
  have l2 : (⟨[1], [1], [0], [0], [], [], w⟩ : DotDims ⟨2, ![M, K]⟩ ⟨2, ![N, K]⟩ ⟨2, ![M, N]⟩).lhsIdx (ix2 a b)
      ((contrEquiv1 _ K rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![M, K]⟩ ⟨2, ![N, K]⟩ ⟨2, ![M, N]⟩).rhsIdx (ix2 a b)
      ((contrEquiv1 _ K rfl rfl).symm c) = ix2 b c := by
    funext ax; apply Fin.ext
    match ax with
    | ⟨0, _⟩ => simp [DotDims.rhsIdx]; rfl
    | ⟨1, _⟩ => simp [DotDims.rhsIdx]; exact c2
  rw [l2, r2]

end Dot

/-! ## One element of a matrix picked by a pair of start indices -/

section Gather
variable {α : Type}

/-- The dimension numbers of a gather of single elements of a matrix: operand `[M, N]`, start indices `[R, 2]` (row, column), result `[R]`; both operand axes collapsed. -/
abbrev elemDims (M N R : Nat)
    (wf : GatherDims.WF ⟨2, ![M, N]⟩ ⟨2, ![R, 2]⟩ ⟨1, ![R]⟩ [] [0, 1] [] [0, 1] [] 1 ![1, 1]) :
    GatherDims ⟨2, ![M, N]⟩ ⟨2, ![R, 2]⟩ ⟨1, ![R]⟩ where
  offsetDims := []
  collapsedSliceDims := [0, 1]
  operandBatchingDims := []
  startIndicesBatchingDims := []
  startIndexMap := [0, 1]
  indexVectorDim := 1
  sliceSizes := ![1, 1]
  wf := wf

/-- The gather read at `i`: the matrix at the start index `(idx[i, 0], idx[i, 1])`, each component read signed and clamped into its axis. -/
theorem gather_elem_apply {M N R w : Nat} (hM : 0 < M) (hN : 0 < N)
    (wf : GatherDims.WF ⟨2, ![M, N]⟩ ⟨2, ![R, 2]⟩ ⟨1, ![R]⟩ [] [0, 1] [] [0, 1] [] 1 ![1, 1])
    (x : (⟨2, ![M, N]⟩ : Shape).Idx → α) (idx : IVec ⟨2, ![R, 2]⟩ w) (i : Fin R) :
    Host.gather (elemDims M N R wf) x idx (ix1 i)
      = x (ix2 ⟨min (idx (ix2 i (0 : Fin 2))).toInt.toNat (M - 1), by omega⟩
               ⟨min (idx (ix2 i (1 : Fin 2))).toInt.toNat (N - 1), by omega⟩) := by
  have key : ∀ a : Fin 2, (elemDims M N R wf).start (ix1 i) idx a + (elemDims M N R wf).batchCoord (ix1 i) a
      + (elemDims M N R wf).offCoord (ix1 i) a
      = ((ix2 (⟨min (idx (ix2 i (0 : Fin 2))).toInt.toNat (M - 1), by omega⟩ : Fin M)
               (⟨min (idx (ix2 i (1 : Fin 2))).toInt.toNat (N - 1), by omega⟩ : Fin N)) a).val := by
    refine Fin.forall_fin_two.2 ⟨?_, ?_⟩
    · rw [GatherDims.batchCoord_eq_zero _ _ _ List.not_mem_nil,
        GatherDims.offCoord_eq_zero _ _ _ (fun h => ((GatherDims.mem_sKept _ _).mp h).1 (by simp))]
      simp only [Nat.add_zero]
      unfold GatherDims.start
      rw [dif_pos (show (0 : Fin 2) ∈ (elemDims M N R wf).startIndexMap by simp)]
      have hsi : (elemDims M N R wf).siIdx (ix1 i) ⟨List.idxOf (0 : Fin 2) (elemDims M N R wf).startIndexMap,
          List.idxOf_lt_length_iff.2 (by simp)⟩ = ix2 i (0 : Fin 2) := by
        funext b; refine Fin.ext ?_
        match b with
        | ⟨0, _⟩ => rfl
        | ⟨1, _⟩ => rfl
      rw [hsi]
      rfl
    · rw [GatherDims.batchCoord_eq_zero _ _ _ List.not_mem_nil,
        GatherDims.offCoord_eq_zero _ _ _ (fun h => ((GatherDims.mem_sKept _ _).mp h).1 (by simp))]
      simp only [Nat.add_zero]
      unfold GatherDims.start
      rw [dif_pos (show (1 : Fin 2) ∈ (elemDims M N R wf).startIndexMap by simp)]
      have hsi : (elemDims M N R wf).siIdx (ix1 i) ⟨List.idxOf (1 : Fin 2) (elemDims M N R wf).startIndexMap,
          List.idxOf_lt_length_iff.2 (by simp)⟩ = ix2 i (1 : Fin 2) := by
        funext b; refine Fin.ext ?_
        match b with
        | ⟨0, _⟩ => rfl
        | ⟨1, _⟩ => rfl
      rw [hsi]
      rfl
  unfold Host.gather
  exact congrArg x (funext fun a => Fin.ext (key a))

end Gather

/-! ## Words: the 32-bit word of a small natural under the signed remainder and comparisons, and a bit as a float -/

section Words

/-- The word of a natural below `2 ^ 32` reads back as the natural. -/
theorem toNat_ofNat_lt (n : Nat) (hn : n < 2 ^ 32) : (BitVec.ofNat 32 n).toNat = n := by
  rw [BitVec.toNat_ofNat, Nat.mod_eq_of_lt hn]

/-- The word of a natural below `2 ^ 31` has its sign bit clear. -/
theorem msb_ofNat_small (n : Nat) (hn : n < 2 ^ 31) : (BitVec.ofNat 32 n).msb = false := by
  rw [BitVec.msb_eq_decide, toNat_ofNat_lt n (by omega)]
  exact decide_eq_false (by omega)

/-- The host's signed remainder of the word of `p < 8192` by 4096 is the word of `p % 4096`: no division corner, both sign bits clear. -/
theorem remsi_ofNat (p : Nat) (hp : p < 8192) : IntOp.remsi .host (BitVec.ofNat 32 p) 4096#32 = BitVec.ofNat 32 (p % 4096) := by
  have hc : ¬ IntOp.SDivCorner (BitVec.ofNat 32 p) 4096#32 := by
    rintro (h | ⟨_, h⟩)
    · exact absurd h (by decide)
    · exact absurd h (by decide)
  unfold IntOp.remsi
  rw [if_neg hc]
  apply BitVec.eq_of_toNat_eq
  rw [BitVec.srem_eq]
  have h1 : (BitVec.ofNat 32 p).msb = false := msb_ofNat_small p (by omega)
  have h2 : (4096#32 : BitVec 32).msb = false := by decide
  simp only [h1, h2]
  have h3 : (4096#32 : BitVec 32).toNat = 4096 := by decide
  rw [BitVec.toNat_umod, toNat_ofNat_lt p (by omega), h3, toNat_ofNat_lt _ (by omega)]

/-- The word of a natural below `2 ^ 31` is not negative. -/
theorem slt_zero_ofNat (n : Nat) (hn : n < 2 ^ 31) : IntOp.cmpi .slt (BitVec.ofNat 32 n) 0#32 = 0#1 := by
  show BitVec.ofBool ((BitVec.ofNat 32 n).slt 0#32) = 0#1
  have : (BitVec.ofNat 32 n).slt 0#32 = false := by
    rw [BitVec.slt_eq_decide, BitVec.toInt_eq_toNat_of_msb (msb_ofNat_small n hn)]
    exact decide_eq_false (by simp; omega)
  rw [this]; rfl

/-- The words of two naturals below `2 ^ 32` differ exactly when the naturals do. -/
theorem cmpi_ne_ofNat (m n : Nat) (hm : m < 2 ^ 32) (hn : n < 2 ^ 32) :
    IntOp.cmpi .ne (BitVec.ofNat 32 m) (BitVec.ofNat 32 n) = if m = n then 0#1 else 1#1 := by
  show BitVec.ofBool (BitVec.ofNat 32 m != BitVec.ofNat 32 n) = _
  by_cases e : m = n
  · subst e; simp
  · have : BitVec.ofNat 32 m ≠ BitVec.ofNat 32 n := fun h => e (by
      have := congrArg BitVec.toNat h
      rwa [toNat_ofNat_lt m hm, toNat_ofNat_lt n hn] at this)
    rw [if_neg e, (bne_iff_ne.2 this : (BitVec.ofNat 32 m != BitVec.ofNat 32 n) = true)]
    rfl

/-- A bit read as an unsigned integer at the ideal values is `1` or `0`. -/
theorem uitofp_bit (b : BitVec 1) : (FloatOps.uitofp (F := Ideal) .f32 b : EReal) = if b = 1#1 then 1 else 0 := by
  show (((b.toNat : ℝ)) : EReal) = _
  rcases BitVec.eq_zero_or_eq_one b with h | h
  · subst h; simp
  · subst h; simp

end Words

end Cert.RefValLib

end
-- ==== Proof.KHost.lean ====
/-
  The kernel program's host operations read at an index, over the extended reals.

  Before the region: each entry of a normalized matrix is the argument's entry divided by the clamped Euclidean norm
  of its row — the square root of the sum of the squares of the row (the sum starts from the word of zero, which is
  0, and 0 + x = x), or the clamp if that is larger.  After the region: the result is the sum over the rows of the
  logarithm of the first output column less the second, divided by the row count.  Each whole-array operation is
  read at one index: a quotient, a maximum, a square root, a logarithm, a product and a difference entry by entry;
  a column spread along the rows at its row's entry; a vector as a column at the vector's entry; a scalar spread
  everywhere at the scalar; a column read as a vector at the row's entry; a sum over an axis as the initial value
  plus the sum over that axis's coordinates.
-/
import proofs.«171112_j24275155156992_1_alg».proof.Proof.KHostTerm
import proofs.«171112_j24275155156992_1_alg».proof.Proof.Spec
import proofs.«171112_j24275155156992_1_alg».proof.Proof.LibHostIx
import Idealize.ShloMosaic.Lib.ValueIdx
import Idealize.ShloMosaic.Lib.Pipeline.Value
import Idealize.ShloMosaic.PureOps.Ideal.Laws

noncomputable section

open scoped BigOperators

namespace Cert.KernelIdeal.KHost

open Cert.KernelIdeal Cert.KernelIdeal.Gen Idealize.ShloMosaic Idealize.ShloMosaic.TcCoe Idealize.ShloMosaic.StableHlo Idealize.ShloMosaic.ValueIdx

open Cert.RefValLib

/-! ## Entry-by-entry operations of the host at the extended reals -/

theorem hostDivf_apply {s : Shape} {φ : FTy} (a b : FVec Ideal s φ) (j : s.Idx) :
    Host.divf a b j = Ideal.div (a j) (b j) := rfl

theorem hostSqrt_apply {s : Shape} {φ : FTy} (a : FVec Ideal s φ) (j : s.Idx) :
    Host.sqrt a j = Ideal.sqrt (a j) := rfl

theorem hostLog_apply {s : Shape} {φ : FTy} (a : FVec Ideal s φ) (j : s.Idx) :
    Host.log a j = Ideal.log (a j) := rfl

/-- A column `[a, 1]` read as the vector `[a]` holds, at `i`, the column's entry of row `i`. -/
theorem shapeCast_a1_a_apply {α : Type} {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h (ix1 i) (ix2 i (0 : Fin 1)) (by
    rw [Shape.rowMajor_val_one, Shape.rowMajor_val_two]
    show i.val * 1 + 0 = i.val
    rw [Nat.mul_one, Nat.add_zero])

theorem reduces_rows : S4096x256.Reduces [1] S4096 := by decide

/-! ## The two compositions at an index -/

/-- An entry of the normalized matrix: the entry divided by the clamped norm of its row. -/
theorem nzTerm_apply (X : FVec Ideal S4096x256 .f32) (i : Fin 4096) (k : Fin 256) :
    nzTerm X (ix2 i k) = Cert.Spec.nz (fun i k => X (ix2 i k)) i k := by
  unfold nzTerm
  rw [hostDivf_apply, broadcastInDim_colwide_apply, maximumf_apply, hostSqrt_apply, broadcastInDim_col_apply,
    hostReduceAdd_rows _ _ _ _ reduces_rows, broadcastInDim_scalar_apply, constant_apply, constant_apply,
    Ideal.ofBits_zero_f32, zero_add]
  rfl

/-- The result: the sum over the rows of the logarithm of the first column less the second, over the row count. -/
theorem lossTerm_apply (P Q : FVec Ideal S4096x1 .f32) (j : S_.Idx) :
    lossTerm P Q j
      = Ideal.div (∑ i : Fin 4096, (Ideal.log (P (ix2 i (0 : Fin 1))) - Q (ix2 i (0 : Fin 1)))) Cert.Spec.cnt := by
  unfold lossTerm
  rw [hostDivf_apply, hostReduceAdd_vec, constant_apply, constant_apply, Ideal.ofBits_zero_f32, zero_add]
  refine congrArg (fun z => Ideal.div z _) (Finset.sum_congr rfl fun i _ => ?_)
  rw [subf_apply, hostLog_apply, shapeCast_a1_a_apply, shapeCast_a1_a_apply]

/-! ## The stretches of host operations at an index -/

/-- After the operations before the region, entry `(i, k)` of the first normalized matrix. -/
theorem pre_v7_apply (V : Valuation τ sig (Elt Ideal)) (i : Fin 4096) (k : Fin 256) :
    after (hostOps0 (F := Ideal)) V (main_v7 : DevRef τ sig) (ix2 i k)
      = Cert.Spec.nz (fun i k => V (main_arg0 : DevRef τ sig) (ix2 i k)) i k :=
  (congrFun (pre_v7_term V) (ix2 i k)).trans (nzTerm_apply _ i k)

/-- After the operations before the region, entry `(i, k)` of the second normalized matrix. -/
theorem pre_v15_apply (V : Valuation τ sig (Elt Ideal)) (i : Fin 4096) (k : Fin 256) :
    after (hostOps0 (F := Ideal)) V (main_v15 : DevRef τ sig) (ix2 i k)
      = Cert.Spec.nz (fun i k => V (main_arg1 : DevRef τ sig) (ix2 i k)) i k :=
  (congrFun (pre_v15_term V) (ix2 i k)).trans (nzTerm_apply _ i k)

/-- After the operations before the region the first normalized matrix is the first argument normalized. -/
theorem pre_v7 (V : Valuation τ sig (Elt Ideal)) :
    after (hostOps0 (F := Ideal)) V (main_v7 : DevRef τ sig)
      = fun idx => Cert.Spec.nz (n := 4096) (fun i k => V (main_arg0 : DevRef τ sig) (ix2 i k)) (idx 0) (idx 1) :=
  funext fun idx => (congrArg (after (hostOps0 (F := Ideal)) V (main_v7 : DevRef τ sig)) (eq_ix2 idx)).trans
    (pre_v7_apply V (idx 0) (idx 1))

/-- After the operations before the region the second normalized matrix is the second argument normalized. -/
theorem pre_v15 (V : Valuation τ sig (Elt Ideal)) :
    after (hostOps0 (F := Ideal)) V (main_v15 : DevRef τ sig)
      = fun idx => Cert.Spec.nz (n := 4096) (fun i k => V (main_arg1 : DevRef τ sig) (ix2 i k)) (idx 0) (idx 1) :=
  funext fun idx => (congrArg (after (hostOps0 (F := Ideal)) V (main_v15 : DevRef τ sig)) (eq_ix2 idx)).trans
    (pre_v15_apply V (idx 0) (idx 1))

/-- After the operations after the region the result is the mean over the rows of the logarithm of the region's
    first output column less its second. -/
theorem post_v22 (W : Valuation τ sig (Elt Ideal)) :
    after (hostOps1 (F := Ideal)) W (main_v22 : DevRef τ sig)
      = fun _ => Idealize.ShloMosaic.Ideal.div (∑ i : Fin 4096, (Idealize.ShloMosaic.Ideal.log (W (main_v16_0 : DevRef τ sig) (ix2 i (0 : Fin 1))) - W (main_v16_1 : DevRef τ sig) (ix2 i (0 : Fin 1)))) Cert.Spec.cnt :=
  funext fun j => (congrFun (post_v22_term W) j).trans (lossTerm_apply _ _ j)

/-- The operations before the region write neither of the region's two output columns, for any float values. -/
theorem pre_other {F : FTy → Type} [FloatOps F] (V : Valuation τ sig (Elt F)) :
    after (hostOps0 (F := F)) V (main_v16_0 : DevRef τ sig) = V (main_v16_0 : DevRef τ sig)
      ∧ after (hostOps0 (F := F)) V (main_v16_1 : DevRef τ sig) = V (main_v16_1 : DevRef τ sig) :=
  ⟨pre_v16_0 V, pre_v16_1 V⟩

end Cert.KernelIdeal.KHost

end
-- ==== Proof.KGeomIdx.lean ====
/-
  The geometry of the kernel's input windows. The grid point t of the 8 × 8 grid has coordinates
  (t / 8, t % 8). Window 0 reads the block of 512 rows number t / 8 of its array, windows 1 and 2 the
  block number t % 8 of theirs, so an entry (r, k) of a block is the array's entry at row
  (block number) · 512 + r and column k.
-/
import proofs.«171112_j24275155156992_1_alg».proof.Proof.KFrame
import Idealize.ShloMosaic.Lib.Pipeline.Value
import Idealize.ShloMosaic.Lib.ValueIdx

noncomputable section

namespace Cert.KernelIdeal.KGeom

open Cert.KernelIdeal Cert.KernelIdeal.Gen Cert.KernelIdeal.KBody Idealize.ShloMosaic Idealize.ShloMosaic.ValueIdx
open Idealize.ShloMosaic.Pipeline (Dat)

variable {F : FTy → Type} [FloatOps F]
variable (m : (ℓ : Loc nD τ sig) → Buf (Elt F) ℓ)

/-- The grid has 64 points. -/
theorem N_eq : cfg0.N = 64 := N_0

/-- A point's two coordinates: its quotient and remainder by 8. -/
theorem coords_val : ∀ t : Fin cfg0.N, ((grid0.coords t) 0).val = t.val / 8 ∧ ((grid0.coords t) 1).val = t.val % 8 :=
  (by decide +kernel : ∀ t : Fin grid0.N, _)

/-- The block numbers of the five windows at point t, decided over the grid: windows 0, 3 and 4 follow the
    first coordinate, windows 1 and 2 the second; every window's column block is 0. -/
theorem idx_facts : ∀ t : Fin cfg0.N,
    win0_0.index t (0 : Fin 2) = t.val / 8 ∧ win0_0.index t (1 : Fin 2) = 0
    ∧ win0_1.index t (0 : Fin 2) = t.val % 8 ∧ win0_1.index t (1 : Fin 2) = 0
    ∧ win0_2.index t (0 : Fin 2) = t.val % 8 ∧ win0_2.index t (1 : Fin 2) = 0
    ∧ win0_3.index t (0 : Fin 2) = t.val / 8 ∧ win0_3.index t (1 : Fin 2) = 0
    ∧ win0_4.index t (0 : Fin 2) = t.val / 8 ∧ win0_4.index t (1 : Fin 2) = 0 :=
  (by decide +kernel : ∀ t : Fin grid0.N, _)

/-- Window 0's block at point t, at (r, k): its array at row (t / 8) · 512 + r, column k. -/
theorem iblk0_apply (c : Dev nD) (t : Fin cfg0.N) (r : Fin 512) (k : Fin 256) :
    (iblk m c 0 t : Vec F S512x256 .f32) (ix2 r k)
      = (V m c main_v7 : S4096x256.Idx → Elt F .f32)
          (ix2 (⟨(t.val / 8) * 512 + r.val, by have := t.isLt; have := N_eq; have := r.isLt; omega⟩ : Fin 4096) k) := by
  obtain ⟨e0, e1, -⟩ := idx_facts t
  unfold iblk
  rw [View.read_apply]
  show V m c main_v7 _ = V m c main_v7 _
  congr 1
  funext a
  apply Fin.ext
  match a with
  | ⟨0, _⟩ => show win0_0.index t (0 : Fin 2) * 512 + 1 * r.val = (t.val / 8) * 512 + r.val; rw [e0]; omega
  | ⟨1, _⟩ => show win0_0.index t (1 : Fin 2) * 256 + 1 * k.val = k.val; rw [e1]; omega

/-- Window 1's block at point t, at (r, k): its array at row (t % 8) · 512 + r, column k. -/
theorem iblk1_apply (c : Dev nD) (t : Fin cfg0.N) (r : Fin 512) (k : Fin 256) :
    (iblk m c 1 t : Vec F S512x256 .f32) (ix2 r k)
      = (V m c main_v7 : S4096x256.Idx → Elt F .f32)
          (ix2 (⟨(t.val % 8) * 512 + r.val, by have := r.isLt; omega⟩ : Fin 4096) k) := by
  obtain ⟨-, -, e0, e1, -⟩ := idx_facts t
  unfold iblk
  rw [View.read_apply]
  show V m c main_v7 _ = V m c main_v7 _
  congr 1
  funext a
  apply Fin.ext
  match a with
  | ⟨0, _⟩ => show win0_1.index t (0 : Fin 2) * 512 + 1 * r.val = (t.val % 8) * 512 + r.val; rw [e0]; omega
  | ⟨1, _⟩ => show win0_1.index t (1 : Fin 2) * 256 + 1 * k.val = k.val; rw [e1]; omega

/-- Window 2's block at point t, at (r, k): its array at row (t % 8) · 512 + r, column k. -/
theorem iblk2_apply (c : Dev nD) (t : Fin cfg0.N) (r : Fin 512) (k : Fin 256) :
    (iblk m c 2 t : Vec F S512x256 .f32) (ix2 r k)
      = (V m c main_v15 : S4096x256.Idx → Elt F .f32)
          (ix2 (⟨(t.val % 8) * 512 + r.val, by have := r.isLt; omega⟩ : Fin 4096) k) := by
  obtain ⟨-, -, -, -, e0, e1, -⟩ := idx_facts t
  unfold iblk
  rw [View.read_apply]
  show V m c main_v15 _ = V m c main_v15 _
  congr 1
  funext a
  apply Fin.ext
  match a with
  | ⟨0, _⟩ => show win0_2.index t (0 : Fin 2) * 512 + 1 * r.val = (t.val % 8) * 512 + r.val; rw [e0]; omega
  | ⟨1, _⟩ => show win0_2.index t (1 : Fin 2) * 256 + 1 * k.val = k.val; rw [e1]; omega

end Cert.KernelIdeal.KGeom

end
-- ==== Proof.KGeom.lean ====
/-
  The geometry of the kernel's two output windows. Each output array is a column of 4096 rows cut into
  eight blocks of 512; the block of rows (t / 8) · 512 … is written back at the one point of its grid row
  with t % 8 = 7. Those eight blocks tile the column, so if at each such point the body leaves the rows of a
  column G in the output's buffer, the array ends holding G.
-/
import proofs.«171112_j24275155156992_1_alg».proof.Proof.KGeomIdx

noncomputable section

namespace Cert.KernelIdeal.KGeom

open Cert.KernelIdeal Cert.KernelIdeal.Gen Cert.KernelIdeal.KBody Idealize.ShloMosaic Idealize.ShloMosaic.ValueIdx
open Idealize.ShloMosaic.Pipeline (Dat)

variable {F : FTy → Type} [FloatOps F]
variable (m : (ℓ : Loc nD τ sig) → Buf (Elt F) ℓ)

/-- An index of output 3's array is in point t's block exactly when each coordinate is in the block's range. -/
theorem mem_blk3 (t : Fin cfg0.N) (i : S4096x1.Idx) :
    i ∈ ((cfg0.win 3).blk t).view.set ↔ ∀ a : Fin 2, win0_3.index t a * S512x1.size a ≤ (i a).val
      ∧ (i a).val < win0_3.index t a * S512x1.size a + S512x1.size a := by
  show i ∈ ((View.whole main_v16_0).slice (win0_3.rect t)).set ↔ _
  rw [View.set_slice_whole, Rect.mem_set_unit]
  exact Iff.rfl

/-- What a point with t % 8 = 7 writes back to output 3's array is its block of the column G, when the body
    leaves G's rows (t / 8) · 512 … in the output's buffer there. -/
theorem flushed3_eq (c : Dev nD) (G : Fin 4096 → F .f32)
    (h : ∀ t : Fin cfg0.N, t.val % 8 = 7 → ∀ r : Fin 512,
      (outsAt0 m c t.val t.isLt).1 (ix2 r (0 : Fin 1))
        = G ⟨(t.val / 8) * 512 + r.val, by have := t.isLt; have := N_eq; have := r.isLt; omega⟩)
    (t : Fin cfg0.N) (hf : (cfg0.win 3).flush t = true) :
    (dats m 0 c).flushed 3 t
      = ((cfg0.win 3).blk t).view.read (Elt F) (fun i : S4096x1.Idx => G ⟨(i 0).val, idx2_lt0 i⟩) := by
  have h7 : t.val % 8 = 7 := (flush0_3 t).mp hf
  obtain ⟨-, -, -, -, -, -, e3a, e3b, e4a, e4b⟩ := idx_facts t
  show (cfg0.win 3).cut (grid0.coords t) ((dats m 0 c).after 3 t) = _
  rw [after0_3]
  funext j
  have hj0 : (j 0).val < 512 := (j 0).isLt
  have hj1 : (j 1).val < 1 := (j 1).isLt
  show (outsAt0 m c t.val t.isLt).1 (fun a => ⟨(j a).val, _⟩) = G ⟨((((cfg0.win 3).blk t).view.emb j) 0).val, _⟩
  refine (congrArg (outsAt0 m c t.val t.isLt).1 (?_ : _ = ix2 (⟨(j 0).val, hj0⟩ : Fin 512) (0 : Fin 1))).trans
    ((h t h7 ⟨(j 0).val, hj0⟩).trans (congrArg G (Fin.ext ?_)))
  · funext a
    apply Fin.ext
    match a with
    | ⟨0, _⟩ => rfl
    | ⟨1, _⟩ => show (j 1).val = 0; omega
  · show (t.val / 8) * 512 + (j 0).val = win0_3.index t (0 : Fin 2) * 512 + 1 * (j 0).val
    rw [e3a]; omega

/-- Every row of output 3's array is in the block of a point that writes back: row i is in the block of the
    point 8 · (i / 512) + 7. -/
theorem cover3 (i : S4096x1.Idx) :
    ∃ t : Fin cfg0.N, (cfg0.win 3).flush t = true ∧ i ∈ ((cfg0.win 3).blk t).view.set := by
  have hi0 : (i 0).val < 4096 := idx2_lt0 i
  have hi1 : (i 1).val < 1 := idx2_lt1 i
  have hN := N_eq
  refine ⟨⟨8 * ((i 0).val / 512) + 7, by omega⟩, (flush0_3 _).mpr (by show (8 * ((i 0).val / 512) + 7) % 8 = 7; omega), ?_⟩
  rw [mem_blk3]
  obtain ⟨-, -, -, -, -, -, e3a, e3b, e4a, e4b⟩ := idx_facts (⟨8 * ((i 0).val / 512) + 7, by omega⟩ : Fin cfg0.N)
  intro a
  match a with
  | ⟨0, _⟩ =>
    show win0_3.index _ (0 : Fin 2) * 512 ≤ (i 0).val ∧ (i 0).val < win0_3.index _ (0 : Fin 2) * 512 + 512
    rw [e3a]
    show (8 * ((i 0).val / 512) + 7) / 8 * 512 ≤ (i 0).val ∧ (i 0).val < (8 * ((i 0).val / 512) + 7) / 8 * 512 + 512
    omega
  | ⟨1, _⟩ =>
    show win0_3.index _ (1 : Fin 2) * 1 ≤ (i 1).val ∧ (i 1).val < win0_3.index _ (1 : Fin 2) * 1 + 1
    rw [e3b]
    omega

/-- OUTPUT 3'S ARRAY after the region is the column G, row by row. -/
theorem arrAt3_eq (c : Dev nD) (G : Fin 4096 → F .f32)
    (h : ∀ t : Fin cfg0.N, t.val % 8 = 7 → ∀ r : Fin 512,
      (outsAt0 m c t.val t.isLt).1 (ix2 r (0 : Fin 1))
        = G ⟨(t.val / 8) * 512 + r.val, by have := t.isLt; have := N_eq; have := r.isLt; omega⟩) :
    ∀ i : Fin 4096, (dats m 0 c).arrAt 3 cfg0.N (ix2 i (0 : Fin 1)) = G i := by
  intro i
  rw [(dats m 0 c).arrAt_eq_of_cover 3 (fun j : S4096x1.Idx => G ⟨(j 0).val, idx2_lt0 j⟩)
    (fun t hf => flushed3_eq m c G h t hf) cover3]

/-- An index of output 4's array is in point t's block exactly when each coordinate is in the block's range. -/
theorem mem_blk4 (t : Fin cfg0.N) (i : S4096x1.Idx) :
    i ∈ ((cfg0.win 4).blk t).view.set ↔ ∀ a : Fin 2, win0_4.index t a * S512x1.size a ≤ (i a).val
      ∧ (i a).val < win0_4.index t a * S512x1.size a + S512x1.size a := by
  show i ∈ ((View.whole main_v16_1).slice (win0_4.rect t)).set ↔ _
  rw [View.set_slice_whole, Rect.mem_set_unit]
  exact Iff.rfl

/-- What a point with t % 8 = 7 writes back to output 4's array is its block of the column G, when the body
    leaves G's rows (t / 8) · 512 … in the output's buffer there. -/
theorem flushed4_eq (c : Dev nD) (G : Fin 4096 → F .f32)
    (h : ∀ t : Fin cfg0.N, t.val % 8 = 7 → ∀ r : Fin 512,
      (outsAt0 m c t.val t.isLt).2.1 (ix2 r (0 : Fin 1))
        = G ⟨(t.val / 8) * 512 + r.val, by have := t.isLt; have := N_eq; have := r.isLt; omega⟩)
    (t : Fin cfg0.N) (hf : (cfg0.win 4).flush t = true) :
    (dats m 0 c).flushed 4 t
      = ((cfg0.win 4).blk t).view.read (Elt F) (fun i : S4096x1.Idx => G ⟨(i 0).val, idx2_lt0 i⟩) := by
  have h7 : t.val % 8 = 7 := (flush0_4 t).mp hf
  obtain ⟨-, -, -, -, -, -, e3a, e3b, e4a, e4b⟩ := idx_facts t
  show (cfg0.win 4).cut (grid0.coords t) ((dats m 0 c).after 4 t) = _
  rw [after0_4]
  funext j
  have hj0 : (j 0).val < 512 := (j 0).isLt
  have hj1 : (j 1).val < 1 := (j 1).isLt
  show (outsAt0 m c t.val t.isLt).2.1 (fun a => ⟨(j a).val, _⟩) = G ⟨((((cfg0.win 4).blk t).view.emb j) 0).val, _⟩
  refine (congrArg (outsAt0 m c t.val t.isLt).2.1 (?_ : _ = ix2 (⟨(j 0).val, hj0⟩ : Fin 512) (0 : Fin 1))).trans
    ((h t h7 ⟨(j 0).val, hj0⟩).trans (congrArg G (Fin.ext ?_)))
  · funext a
    apply Fin.ext
    match a with
    | ⟨0, _⟩ => rfl
    | ⟨1, _⟩ => show (j 1).val = 0; omega
  · show (t.val / 8) * 512 + (j 0).val = win0_4.index t (0 : Fin 2) * 512 + 1 * (j 0).val
    rw [e4a]; omega

/-- Every row of output 4's array is in the block of a point that writes back: row i is in the block of the
    point 8 · (i / 512) + 7. -/
theorem cover4 (i : S4096x1.Idx) :
    ∃ t : Fin cfg0.N, (cfg0.win 4).flush t = true ∧ i ∈ ((cfg0.win 4).blk t).view.set := by
  have hi0 : (i 0).val < 4096 := idx2_lt0 i
  have hi1 : (i 1).val < 1 := idx2_lt1 i
  have hN := N_eq
  refine ⟨⟨8 * ((i 0).val / 512) + 7, by omega⟩, (flush0_4 _).mpr (by show (8 * ((i 0).val / 512) + 7) % 8 = 7; omega), ?_⟩
  rw [mem_blk4]
  obtain ⟨-, -, -, -, -, -, e3a, e3b, e4a, e4b⟩ := idx_facts (⟨8 * ((i 0).val / 512) + 7, by omega⟩ : Fin cfg0.N)
  intro a
  match a with
  | ⟨0, _⟩ =>
    show win0_4.index _ (0 : Fin 2) * 512 ≤ (i 0).val ∧ (i 0).val < win0_4.index _ (0 : Fin 2) * 512 + 512
    rw [e4a]
    show (8 * ((i 0).val / 512) + 7) / 8 * 512 ≤ (i 0).val ∧ (i 0).val < (8 * ((i 0).val / 512) + 7) / 8 * 512 + 512
    omega
  | ⟨1, _⟩ =>
    show win0_4.index _ (1 : Fin 2) * 1 ≤ (i 1).val ∧ (i 1).val < win0_4.index _ (1 : Fin 2) * 1 + 1
    rw [e4b]
    omega

/-- OUTPUT 4'S ARRAY after the region is the column G, row by row. -/
theorem arrAt4_eq (c : Dev nD) (G : Fin 4096 → F .f32)
    (h : ∀ t : Fin cfg0.N, t.val % 8 = 7 → ∀ r : Fin 512,
      (outsAt0 m c t.val t.isLt).2.1 (ix2 r (0 : Fin 1))
        = G ⟨(t.val / 8) * 512 + r.val, by have := t.isLt; have := N_eq; have := r.isLt; omega⟩) :
    ∀ i : Fin 4096, (dats m 0 c).arrAt 4 cfg0.N (ix2 i (0 : Fin 1)) = G i := by
  intro i
  rw [(dats m 0 c).arrAt_eq_of_cover 4 (fun j : S4096x1.Idx => G ⟨(j 0).val, idx2_lt0 j⟩)
    (fun t hf => flushed4_eq m c G h t hf) cover4]

end Cert.KernelIdeal.KGeom

end
-- ==== Proof.KPayEq.lean ====
/-
  The found pieces of the body's three cases, identified with the body's payloads. Each scratch accumulator ends a
  point at one accumulation step from what it held — from the zero block at a first column block — and at a last
  column block the two outputs' buffers hold the two accumulators of the same point.
-/
import proofs.«171112_j24275155156992_1_alg».proof.Proof.KFrame
import Idealize.ShloMosaic.Lib.Pipeline.Value

set_option maxRecDepth 16384

noncomputable section

namespace Cert.KernelIdeal.KBody

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## What each case's found pieces are, as the body's payloads

Each scratch accumulator ends every point with ONE covering store on top (at the first column block, over the
zeroing store), whose payload is the accumulation step applied to what the accumulator held; the emit copies the
accumulators into the outputs' buffers. -/

theorem hz : (![0, 0] : Fin 2 → Nat) = fun _ => 0 := funext fun a => by fin_cases a <;> rfl

theorem sout_A_0 (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x256 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : cond0_0 i) (hc1 : ¬cond0_1 i)
    (x0 : Vec F S512x256 .f32) (x1 : Vec F S512x256 .f32) (x2 : Vec F S512x256 .f32) :
    sout0_A_0 c i arg2 harg2 arg3 harg3 arg4 harg4 arg5 harg5 arg6 harg6 arg7 harg7 arg8 harg8 hc0 hc1 x0 x1 x2 = k0_pay1 (k0_pay8 i x0 x1 x2) (k0_pay3 (F := F)) := by
  unfold sout0_A_0
  rw [View.read_writes_eq_canon _ _ _ (scover0_A_0 c i arg2 harg2 arg3 harg3 arg4 harg4 arg5 harg5 arg6 harg6 arg7 harg7 arg8 harg8 hc0 hc1 x0 x1 x2)]
  unfold kernelRun0_A
  dsimp only
  sl_unfold_words
  rw [View.canon_cons_unit_zero (S := S512x1) hz, View.readCov_unit_zero (S := S512x1) _ hz]
  simp only [View.readAt_eq_ld, harg2.read_unread, harg3.read_unread, harg4.read_unread, harg7.read_unread, harg8.read_unread, View.ld_unit_zero (S := S512x256) hz, View.ld_unit_zero (S := S512x1) hz]

theorem sout_A_1 (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x256 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : cond0_0 i) (hc1 : ¬cond0_1 i)
    (x0 : Vec F S512x256 .f32) (x1 : Vec F S512x256 .f32) (x2 : Vec F S512x256 .f32) :
    sout0_A_1 c i arg2 harg2 arg3 harg3 arg4 harg4 arg5 harg5 arg6 harg6 arg7 harg7 arg8 harg8 hc0 hc1 x0 x1 x2 = k0_pay2 (k0_pay6 x0 x2) (k0_pay7 i) (k0_pay9 (F := F)) (k0_pay4 (F := F)) := by
  unfold sout0_A_1
  rw [View.read_writes_eq_canon _ _ _ (scover0_A_1 c i arg2 harg2 arg3 harg3 arg4 harg4 arg5 harg5 arg6 harg6 arg7 harg7 arg8 harg8 hc0 hc1 x0 x1 x2)]
  unfold kernelRun0_A
  dsimp only
  sl_unfold_words
  rw [View.canon_cons_unit_zero (S := S512x1) hz, View.readCov_unit_zero (S := S512x1) _ hz]
  simp only [View.readAt_eq_ld, harg2.read_unread, harg3.read_unread, harg4.read_unread, harg7.read_unread, harg8.read_unread, View.ld_unit_zero (S := S512x256) hz, View.ld_unit_zero (S := S512x1) hz]

theorem sout_B_0 (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x256 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0_0 i) (hc1 : ¬cond0_1 i)
    (x0 : Vec F S512x256 .f32) (x1 : Vec F S512x256 .f32) (x2 : Vec F S512x256 .f32) (xs0 : Vec F S512x1 .f32) (xs1 : Vec F S512x1 .f32) :
    sout0_B_0 c i arg2 harg2 arg3 harg3 arg4 harg4 arg5 harg5 arg6 harg6 arg7 harg7 arg8 harg8 hc0 hc1 x0 x1 x2 xs0 xs1 = k0_pay1 (k0_pay8 i x0 x1 x2) xs0 := by
  unfold sout0_B_0
  rw [View.read_writes_eq_canon _ _ _ (scover0_B_0 c i arg2 harg2 arg3 harg3 arg4 harg4 arg5 harg5 arg6 harg6 arg7 harg7 arg8 harg8 hc0 hc1 x0 x1 x2 xs0 xs1)]
  unfold kernelRun0_B
  dsimp only
  sl_unfold_words
  rw [View.canon_unit_zero (S := S512x1) hz]
  simp only [View.readAt_eq_ld, harg2.read_unread, harg3.read_unread, harg4.read_unread, harg7.read_unread, harg8.read_unread, View.ld_unit_zero (S := S512x256) hz, View.ld_unit_zero (S := S512x1) hz]

theorem sout_B_1 (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x256 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0_0 i) (hc1 : ¬cond0_1 i)
    (x0 : Vec F S512x256 .f32) (x1 : Vec F S512x256 .f32) (x2 : Vec F S512x256 .f32) (xs0 : Vec F S512x1 .f32) (xs1 : Vec F S512x1 .f32) :
    sout0_B_1 c i arg2 harg2 arg3 harg3 arg4 harg4 arg5 harg5 arg6 harg6 arg7 harg7 arg8 harg8 hc0 hc1 x0 x1 x2 xs0 xs1 = k0_pay2 (k0_pay6 x0 x2) (k0_pay7 i) (k0_pay9 (F := F)) xs1 := by
  unfold sout0_B_1
  rw [View.read_writes_eq_canon _ _ _ (scover0_B_1 c i arg2 harg2 arg3 harg3 arg4 harg4 arg5 harg5 arg6 harg6 arg7 harg7 arg8 harg8 hc0 hc1 x0 x1 x2 xs0 xs1)]
  unfold kernelRun0_B
  dsimp only
  sl_unfold_words
  rw [View.canon_unit_zero (S := S512x1) hz]
  simp only [View.readAt_eq_ld, harg2.read_unread, harg3.read_unread, harg4.read_unread, harg7.read_unread, harg8.read_unread, View.ld_unit_zero (S := S512x256) hz, View.ld_unit_zero (S := S512x1) hz]

theorem sout_C_0 (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x256 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0_0 i) (hc1 : cond0_1 i)
    (x0 : Vec F S512x256 .f32) (x1 : Vec F S512x256 .f32) (x2 : Vec F S512x256 .f32) (xs0 : Vec F S512x1 .f32) (xs1 : Vec F S512x1 .f32) :
    sout0_C_0 c i arg2 harg2 arg3 harg3 arg4 harg4 arg5 harg5 arg6 harg6 arg7 harg7 arg8 harg8 hc0 hc1 x0 x1 x2 xs0 xs1 = k0_pay1 (k0_pay8 i x0 x1 x2) xs0 := by
  unfold sout0_C_0
  rw [View.read_writes_eq_canon _ _ _ (scover0_C_0 c i arg2 harg2 arg3 harg3 arg4 harg4 arg5 harg5 arg6 harg6 arg7 harg7 arg8 harg8 hc0 hc1 x0 x1 x2 xs0 xs1)]
  unfold kernelRun0_C
  dsimp only
  sl_unfold_words
  rw [View.canon_unit_zero (S := S512x1) hz]
  simp only [View.readAt_eq_ld, harg2.read_unread, harg3.read_unread, harg4.read_unread, harg7.read_unread, harg8.read_unread, View.ld_unit_zero (S := S512x256) hz, View.ld_unit_zero (S := S512x1) hz]

theorem sout_C_1 (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x256 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0_0 i) (hc1 : cond0_1 i)
    (x0 : Vec F S512x256 .f32) (x1 : Vec F S512x256 .f32) (x2 : Vec F S512x256 .f32) (xs0 : Vec F S512x1 .f32) (xs1 : Vec F S512x1 .f32) :
    sout0_C_1 c i arg2 harg2 arg3 harg3 arg4 harg4 arg5 harg5 arg6 harg6 arg7 harg7 arg8 harg8 hc0 hc1 x0 x1 x2 xs0 xs1 = k0_pay2 (k0_pay6 x0 x2) (k0_pay7 i) (k0_pay9 (F := F)) xs1 := by
  unfold sout0_C_1
  rw [View.read_writes_eq_canon _ _ _ (scover0_C_1 c i arg2 harg2 arg3 harg3 arg4 harg4 arg5 harg5 arg6 harg6 arg7 harg7 arg8 harg8 hc0 hc1 x0 x1 x2 xs0 xs1)]
  unfold kernelRun0_C
  dsimp only
  sl_unfold_words
  rw [View.canon_unit_zero (S := S512x1) hz]
  simp only [View.readAt_eq_ld, harg2.read_unread, harg3.read_unread, harg4.read_unread, harg7.read_unread, harg8.read_unread, View.ld_unit_zero (S := S512x256) hz, View.ld_unit_zero (S := S512x1) hz]

theorem out_C_3 (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x256 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0_0 i) (hc1 : cond0_1 i)
    (x0 : Vec F S512x256 .f32) (x1 : Vec F S512x256 .f32) (x2 : Vec F S512x256 .f32) (xs0 : Vec F S512x1 .f32) (xs1 : Vec F S512x1 .f32) :
    out0_C_3 c i arg2 harg2 arg3 harg3 arg4 harg4 arg5 harg5 arg6 harg6 arg7 harg7 arg8 harg8 hc0 hc1 x0 x1 x2 xs0 xs1 = sout0_C_0 c i arg2 harg2 arg3 harg3 arg4 harg4 arg5 harg5 arg6 harg6 arg7 harg7 arg8 harg8 hc0 hc1 x0 x1 x2 xs0 xs1 := by
  unfold out0_C_3 sout0_C_0
  rw [View.read_writes_eq_canon _ _ _ (cover0_C_3 c i arg2 harg2 arg3 harg3 arg4 harg4 arg5 harg5 arg6 harg6 arg7 harg7 arg8 harg8 hc0 hc1 x0 x1 x2 xs0 xs1), View.read_writes_eq_canon _ _ _ (scover0_C_0 c i arg2 harg2 arg3 harg3 arg4 harg4 arg5 harg5 arg6 harg6 arg7 harg7 arg8 harg8 hc0 hc1 x0 x1 x2 xs0 xs1)]
  unfold kernelRun0_C
  dsimp only
  sl_unfold_words
  rw [View.canon_unit_zero (S := S512x1) hz, View.canon_unit_zero (S := S512x1) hz, View.readCov_unit_zero (S := S512x1) _ hz]

theorem out_C_4 (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x256 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0_0 i) (hc1 : cond0_1 i)
    (x0 : Vec F S512x256 .f32) (x1 : Vec F S512x256 .f32) (x2 : Vec F S512x256 .f32) (xs0 : Vec F S512x1 .f32) (xs1 : Vec F S512x1 .f32) :
    out0_C_4 c i arg2 harg2 arg3 harg3 arg4 harg4 arg5 harg5 arg6 harg6 arg7 harg7 arg8 harg8 hc0 hc1 x0 x1 x2 xs0 xs1 = sout0_C_1 c i arg2 harg2 arg3 harg3 arg4 harg4 arg5 harg5 arg6 harg6 arg7 harg7 arg8 harg8 hc0 hc1 x0 x1 x2 xs0 xs1 := by
  unfold out0_C_4 sout0_C_1
  rw [View.read_writes_eq_canon _ _ _ (cover0_C_4 c i arg2 harg2 arg3 harg3 arg4 harg4 arg5 harg5 arg6 harg6 arg7 harg7 arg8 harg8 hc0 hc1 x0 x1 x2 xs0 xs1), View.read_writes_eq_canon _ _ _ (scover0_C_1 c i arg2 harg2 arg3 harg3 arg4 harg4 arg5 harg5 arg6 harg6 arg7 harg7 arg8 harg8 hc0 hc1 x0 x1 x2 xs0 xs1)]
  unfold kernelRun0_C
  dsimp only
  sl_unfold_words
  rw [View.canon_unit_zero (S := S512x1) hz, View.canon_unit_zero (S := S512x1) hz, View.readCov_unit_zero (S := S512x1) _ hz]

/-! ## The case equations of `outsAt0` over the payloads -/

set_option maxHeartbeats 1000000 in
/-- At a first column block (`t % 8 = 0`) scratch accumulator 0 ends at one step from the zero block; -/
theorem scr0_A (c : Dev nD) (t : Fin cfg0.N) (h0 : t.val % 8 = 0) :
    (outsAt0 m c t.val t.isLt).2.2.1 = k0_pay1 (k0_pay8 (grid0.coords t) (iblk m c 0 t) (iblk m c 1 t) (iblk m c 2 t)) (k0_pay3 (F := F)) :=
  have h1 : ¬t.val % 8 = 7 := by omega
  (congrArg (fun p => p.2.2.1) (outsAt0_A m c t h0 h1)).trans
    (sout_A_0 (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk m c 0 t) (iblk m c 1 t) (iblk m c 2 t))

set_option maxHeartbeats 1000000 in
/-- and scratch accumulator 1 likewise. -/
theorem scr1_A (c : Dev nD) (t : Fin cfg0.N) (h0 : t.val % 8 = 0) :
    (outsAt0 m c t.val t.isLt).2.2.2 = k0_pay2 (k0_pay6 (iblk m c 0 t) (iblk m c 2 t)) (k0_pay7 (grid0.coords t)) (k0_pay9 (F := F)) (k0_pay4 (F := F)) :=
  have h1 : ¬t.val % 8 = 7 := by omega
  (congrArg (fun p => p.2.2.2) (outsAt0_A m c t h0 h1)).trans
    (sout_A_1 (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk m c 0 t) (iblk m c 1 t) (iblk m c 2 t))

set_option maxHeartbeats 1000000 in
/-- At a later column block each scratch accumulator ends at one step from what the point before left: in the case
    that does not emit, -/
theorem scr0_B (c : Dev nD) (t : Fin cfg0.N) (h0 : ¬t.val % 8 = 0) (h1 : ¬t.val % 8 = 7) :
    (outsAt0 m c t.val t.isLt).2.2.1 = k0_pay1 (k0_pay8 (grid0.coords t) (iblk m c 0 t) (iblk m c 1 t) (iblk m c 2 t)) (outsAt0 m c (t.val - 1) (Nat.lt_of_le_of_lt (Nat.sub_le _ _) t.isLt)).2.2.1 :=
  (congrArg (fun p => p.2.2.1) (outsAt0_B m c t h0 h1)).trans
    (sout_B_0 (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2)

set_option maxHeartbeats 1000000 in
theorem scr1_B (c : Dev nD) (t : Fin cfg0.N) (h0 : ¬t.val % 8 = 0) (h1 : ¬t.val % 8 = 7) :
    (outsAt0 m c t.val t.isLt).2.2.2 = k0_pay2 (k0_pay6 (iblk m c 0 t) (iblk m c 2 t)) (k0_pay7 (grid0.coords t)) (k0_pay9 (F := F)) (outsAt0 m c (t.val - 1) (Nat.lt_of_le_of_lt (Nat.sub_le _ _) t.isLt)).2.2.2 :=
  (congrArg (fun p => p.2.2.2) (outsAt0_B m c t h0 h1)).trans
    (sout_B_1 (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2)

set_option maxHeartbeats 1000000 in
/-- and in the case that does. -/
theorem scr0_C (c : Dev nD) (t : Fin cfg0.N) (h0 : ¬t.val % 8 = 0) (h1 : t.val % 8 = 7) :
    (outsAt0 m c t.val t.isLt).2.2.1 = k0_pay1 (k0_pay8 (grid0.coords t) (iblk m c 0 t) (iblk m c 1 t) (iblk m c 2 t)) (outsAt0 m c (t.val - 1) (Nat.lt_of_le_of_lt (Nat.sub_le _ _) t.isLt)).2.2.1 :=
  (congrArg (fun p => p.2.2.1) (outsAt0_C m c t h0 h1)).trans
    (sout_C_0 (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2)

set_option maxHeartbeats 1000000 in
theorem scr1_C (c : Dev nD) (t : Fin cfg0.N) (h0 : ¬t.val % 8 = 0) (h1 : t.val % 8 = 7) :
    (outsAt0 m c t.val t.isLt).2.2.2 = k0_pay2 (k0_pay6 (iblk m c 0 t) (iblk m c 2 t)) (k0_pay7 (grid0.coords t)) (k0_pay9 (F := F)) (outsAt0 m c (t.val - 1) (Nat.lt_of_le_of_lt (Nat.sub_le _ _) t.isLt)).2.2.2 :=
  (congrArg (fun p => p.2.2.2) (outsAt0_C m c t h0 h1)).trans
    (sout_C_1 (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2)

/-- So at every later column block scratch accumulator 0 ends at one step from what the point before left; -/
theorem scr0_BC (c : Dev nD) (t : Fin cfg0.N) (h0 : ¬t.val % 8 = 0) :
    (outsAt0 m c t.val t.isLt).2.2.1 = k0_pay1 (k0_pay8 (grid0.coords t) (iblk m c 0 t) (iblk m c 1 t) (iblk m c 2 t)) (outsAt0 m c (t.val - 1) (Nat.lt_of_le_of_lt (Nat.sub_le _ _) t.isLt)).2.2.1 := by
  by_cases h1 : t.val % 8 = 7
  · exact scr0_C m c t h0 h1
  · exact scr0_B m c t h0 h1

/-- and scratch accumulator 1 likewise. -/
theorem scr1_BC (c : Dev nD) (t : Fin cfg0.N) (h0 : ¬t.val % 8 = 0) :
    (outsAt0 m c t.val t.isLt).2.2.2 = k0_pay2 (k0_pay6 (iblk m c 0 t) (iblk m c 2 t)) (k0_pay7 (grid0.coords t)) (k0_pay9 (F := F)) (outsAt0 m c (t.val - 1) (Nat.lt_of_le_of_lt (Nat.sub_le _ _) t.isLt)).2.2.2 := by
  by_cases h1 : t.val % 8 = 7
  · exact scr1_C m c t h0 h1
  · exact scr1_B m c t h0 h1

set_option maxHeartbeats 1000000 in
/-- At a last column block (`t % 8 = 7`) output 3's buffer ends holding scratch accumulator 0 of the same point; -/
theorem out3_C (c : Dev nD) (t : Fin cfg0.N) (h7 : t.val % 8 = 7) :
    (outsAt0 m c t.val t.isLt).1 = (outsAt0 m c t.val t.isLt).2.2.1 :=
  have h0 : ¬t.val % 8 = 0 := by omega
  ((congrArg (fun p => p.1) (outsAt0_C m c t h0 h7)).trans
    (out_C_3 (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h7) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2)).trans
    (congrArg (fun p => p.2.2.1) (outsAt0_C m c t h0 h7)).symm

set_option maxHeartbeats 1000000 in
/-- and output 4's buffer scratch accumulator 1. -/
theorem out4_C (c : Dev nD) (t : Fin cfg0.N) (h7 : t.val % 8 = 7) :
    (outsAt0 m c t.val t.isLt).2.1 = (outsAt0 m c t.val t.isLt).2.2.2 :=
  have h0 : ¬t.val % 8 = 0 := by omega
  ((congrArg (fun p => p.2.1) (outsAt0_C m c t h0 h7)).trans
    (out_C_4 (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h7) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2)).trans
    (congrArg (fun p => p.2.2.2) (outsAt0_C m c t h0 h7)).symm

end Cert.KernelIdeal.KBody

end
-- ==== Proof.LibMatmulIx.lean ====
/-
  A matrix product accumulated into the zero array, read at one entry.

  For an `M × K` matrix `A` and a `K × N` matrix `B` whose product contracts the second axis of `A` with the first
  axis of `B` (no batch axis), the entry `(a, b)` of the product added to the all-zero `M × N` array is the sum over
  the contracted coordinate `c` of `A (a, c) * B (c, b)`. Stated over the extended reals, for any extents and for any
  proof that the dimension numbers are well formed, so that it applies to every record with these dimension numbers.
-/
import Idealize.ShloMosaic.Lib.ValueIdx
import Idealize.ShloMosaic.PureOps.Ideal.Laws

noncomputable section

open scoped BigOperators

namespace Cert.LibMatmulIx

open Idealize.ShloMosaic Idealize.ShloMosaic.ValueIdx

/-- The product of an `M × K` by a `K × N` matrix into the zero accumulator, at entry `(a, b)`: the sum over the
    contracted coordinate of the products of the entries `A (a, c)` and `B (c, b)`. The contraction index has one
    axis, of extent `K`; the sum over it is re-indexed by that axis's coordinate, and the two operand indices are
    read coordinate by coordinate. -/
theorem matmul_zero_apply {M K N : ℕ} {φ₁ φ₂ : FTy}
    (w : DotDims.WF ⟨2, ![M, K]⟩ ⟨2, ![K, N]⟩ ⟨2, ![M, N]⟩ [1] [0] [0] [1] [] [])
    (prec : Option ContractPrecision) (A : FVec Ideal ⟨2, ![M, K]⟩ φ₁) (B : FVec Ideal ⟨2, ![K, N]⟩ φ₂)
    (a : Fin M) (b : Fin N) :
    matmul (⟨[1], [0], [0], [1], [], [], w⟩ : DotDims _ _ _) prec A B
        (constant (F := Ideal) ⟨2, ![M, N]⟩ .f32 0x00000000#32) (ix2 a b)
      = ∑ c : Fin K, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims _ _ _) K rfl rfl).symm]
  refine Finset.sum_congr rfl fun c _ => ?_
  have c2 := contrEquiv1_symm_val
    (⟨[1], [0], [0], [1], [], [], w⟩ : DotDims ⟨2, ![M, K]⟩ ⟨2, ![K, N]⟩ ⟨2, ![M, N]⟩) K rfl rfl c
  have l2 : (⟨[1], [0], [0], [1], [], [], w⟩ : DotDims ⟨2, ![M, K]⟩ ⟨2, ![K, N]⟩ ⟨2, ![M, N]⟩).lhsIdx (ix2 a b)
      ((contrEquiv1 _ K rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![M, K]⟩ ⟨2, ![K, N]⟩ ⟨2, ![M, N]⟩).rhsIdx (ix2 a b)
      ((contrEquiv1 _ K rfl rfl).symm c) = ix2 c b := by
    funext ax; apply Fin.ext
    match ax with
    | ⟨0, _⟩ => simp [DotDims.rhsIdx]; exact c2
    | ⟨1, _⟩ => simp [DotDims.rhsIdx]; rfl
  rw [l2, r2]

end Cert.LibMatmulIx

end
-- ==== Proof.LibKeepdims.lean ====
/-
  Column ("keepdims") layout forms, one-axis reductions of a matrix and the one-hot mask, read at an index.

  A reduction that keeps its axis as a unit axis leaves a column `[a, 1]`; the next operation broadcasts the column along
  the rows' entries. Lib/ValueLayout.lean has the leading-unit-axis casts and the row broadcast `[1, b] → [a, b]`; here are
  the column cast `[a] → [a, 1]` and the column broadcast `[a, 1] → [a, b]`, in the same style.

  At the ideal values a `vector.multi_reduction` of a matrix over one of its two axes is the sum (or the fold of `max`)
  over that axis's coordinates with the other coordinate fixed: PureOps/Ideal/Laws.lean's one-axis readings with the
  inserted index written by coordinates.

  The one-hot mask `(iota along d == w)` converted to a float is `1` where the coordinate's word is `w` and `0` elsewhere; a
  sum of products with it keeps the one selected term, whatever the other factor is (on the extended reals `x * 0 = 0` and
  `x * 1 = x` for every `x`, infinite or not).
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.LibKeepdims

open Idealize.ShloMosaic Idealize.ShloMosaic.ValueIdx

/-! ## The column cast and the column broadcast -/

section Layout
variable {α : Type}

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## A matrix reduced over one axis, at the ideal values -/

section Reduce
variable {φ : FTy}

/-- The sum over the entries of each row: `[a, b]` reduced over axis 1, read at row `i`. -/
theorem multiReduction_add_axis1 {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ k : Fin b, src (ix2 i k) :=
  (Ideal.multiReduction_add_single src acc h hφ hacc (ix1 i)).trans
    (Finset.sum_congr rfl fun k _ => congrArg src (funext fun c => Fin.ext (by
      match c with
      | ⟨0, _⟩ => rfl
      | ⟨1, _⟩ => rfl)))

/-- The sum over the rows of each column: `[a, b]` reduced over axis 0, read at column `k`. -/
theorem multiReduction_add_axis0 {a b : ℕ} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (k : Fin b) :
    multiReduction .add [0] ⟨1, ![b]⟩ src acc h hφ hacc (ix1 k) = ∑ i : Fin a, src (ix2 i k) :=
  (Ideal.multiReduction_add_single src acc h hφ hacc (ix1 k)).trans
    (Finset.sum_congr rfl fun i _ => congrArg src (funext fun c => Fin.ext (by
      match c with
      | ⟨0, _⟩ => rfl
      | ⟨1, _⟩ => rfl)))

/-- The maximum over the entries of each row, from the accumulator's value: `[a, b]` reduced by `max` over axis 1. -/
theorem multiReduction_maximumf_axis1 {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (i : Fin a) :
    multiReduction .maximumf [1] ⟨1, ![a]⟩ src acc h hφ hacc (ix1 i)
      = (Finset.univ : Finset (Fin b)).fold max (Ideal.ofBits φ acc) (fun k => src (ix2 i k)) :=
  (Ideal.multiReduction_maximumf_single src acc h hφ hacc (ix1 i)).trans
    (congrArg ((Finset.univ : Finset (Fin b)).fold max (Ideal.ofBits φ acc)) (funext fun k => congrArg src (funext fun c => Fin.ext (by
      match c with
      | ⟨0, _⟩ => rfl
      | ⟨1, _⟩ => rfl))))

end Reduce

/-! ## The one-hot mask -/

section Mask

/-- Two naturals below `2 ^ 32` have the same 32-bit word exactly when they are equal. -/
theorem ofNat32_eq_iff {n b : ℕ} (hn : n < 2 ^ 32) (hb : b < 2 ^ 32) : BitVec.ofNat 32 n = BitVec.ofNat 32 b ↔ n = b := by
  constructor
  · intro e
    have := congrArg BitVec.toNat e
    rwa [BitVec.toNat_ofNat, BitVec.toNat_ofNat, Nat.mod_eq_of_lt hn, Nat.mod_eq_of_lt hb] at this
  · intro e; rw [e]

/-- A comparison bit, widened to a word and read as a signed integer at the ideal values, is `1` or `0`. -/
theorem sitofp_extui_cmpi_eq (x y : BitVec 32) (h : 1 < 32) :
    (FloatOps.sitofp (F := Ideal) .f32 ((IntOp.cmpi .eq x y).setWidth 32) : EReal) = if x = y then 1 else 0 := by
  show (((((BitVec.ofBool (x == y)).setWidth 32).toInt : ℝ)) : EReal) = _
  by_cases e : x = y
  · have h1 : ((BitVec.ofBool true).setWidth 32).toInt = 1 := by decide
    rw [if_pos e, beq_iff_eq.2 e, h1, Int.cast_one, EReal.coe_one]
  · have h0 : ((BitVec.ofBool false).setWidth 32).toInt = 0 := by decide
    rw [if_neg e, beq_eq_false_iff_ne.2 e, h0, Int.cast_zero, EReal.coe_zero]

/-- The mask `(iota along d == w)` as a float: `1` where the coordinate's word is `w`, `0` elsewhere. -/
theorem mask_apply (s : Shape) (d : Fin s.rank) (h : s.Iotas .tc 32 [d]) (w : BitVec 32) (hlt : 1 < 32) (i : s.Idx) :
    (sitofp .f32 (extui 32 (cmpi .eq (iota .tc s 32 [d] h) (broadcast s w)) hlt) : FVec Ideal s .f32) i
      = if BitVec.ofNat 32 (i d).val = w then (1 : EReal) else 0 := by
  rw [sitofp_apply, extui_apply]
  show (FloatOps.sitofp (F := Ideal) .f32 ((IntOp.cmpi .eq (iota .tc s 32 [d] h i) w).setWidth 32) : EReal) = _
  rw [iota_single_apply, sitofp_extui_cmpi_eq _ _ hlt]

/-- The same against the word of a natural `b`: the mask picks the coordinate `b`. -/
theorem mask_ofNat_apply (s : Shape) (d : Fin s.rank) (h : s.Iotas .tc 32 [d]) (b : ℕ) (hlt : 1 < 32) (i : s.Idx)
    (hi : (i d).val < 2 ^ 32) (hb : b < 2 ^ 32) :
    (sitofp .f32 (extui 32 (cmpi .eq (iota .tc s 32 [d] h) (broadcast s (BitVec.ofNat 32 b))) hlt) : FVec Ideal s .f32) i
      = if (i d).val = b then (1 : EReal) else 0 := by
  rw [mask_apply]
  by_cases e : (i d).val = b
  · rw [if_pos e, if_pos ((ofNat32_eq_iff hi hb).2 e)]
  · rw [if_neg e, if_neg (fun e' => e ((ofNat32_eq_iff hi hb).1 e'))]

/-- A sum of products with a one-hot factor keeps the selected term. No finiteness is asked: on the extended reals
    `x * 0 = 0` and `x * 1 = x` for every `x`. -/
theorem sum_mul_onehot {n : ℕ} (f : Fin n → EReal) (b : Fin n) :
    ∑ l : Fin n, f l * (if l.val = b.val then (1 : EReal) else 0) = f b := by
  rw [Finset.sum_eq_single b]
  · rw [if_pos rfl, mul_one]
  · intro l _ hl
    rw [if_neg (fun e => hl (Fin.ext e)), mul_zero]
  · intro hb; exact absurd (Finset.mem_univ b) hb

end Mask

end Cert.LibKeepdims

end
-- ==== Proof.KPayIx.lean ====
/-
  The kernel body's arithmetic, read entry by entry over the extended reals.

  For a 512-row block `x0` of the normalized first matrix and a 512-row block `x` of a normalized second
  matrix, the product of `x0` with the transpose of `x` into the zero array, times two, has at entry `(r, j)`
  twice the inner product of row `r` of `x0` and row `j` of `x`. The diagonal mask of grid point `(a, b)` is 1 at
  `(r, j)` exactly when the global row number `a * 512 + r` equals the global column number `b * 512 + j`.
  The per-row partial denominator is the sum over the 512 columns of `exp` of the similarity with the
  masked entries replaced by zero, for the first matrix's block plus the same for the second's; the partial
  positive term adds to its accumulator the sum over the columns of the similarity under the mask.
-/
import proofs.«171112_j24275155156992_1_alg».proof.Proof.Gen.KernelIdeal.Skeleton
import proofs.«171112_j24275155156992_1_alg».proof.Proof.Spec
import proofs.«171112_j24275155156992_1_alg».proof.Proof.LibMatmulIx
import proofs.«171112_j24275155156992_1_alg».proof.Proof.LibKeepdims
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.KPay

open Cert.KernelIdeal Cert.KernelIdeal.Gen Idealize.ShloMosaic Idealize.ShloMosaic.ValueIdx

/-- A cast of a block to its own shape is the block. -/
theorem pay5_eq (x0 : Vec Ideal S512x256 .f32) : k0_pay5 (F := Ideal) x0 = x0 :=
  shapeCast_self _ _

/-- Entry `(r, j)` of the scaled similarity block: twice the inner product of row `r` of `x0` and row `j` of `x2`. -/
theorem pay6_apply (x0 x2 : Vec Ideal S512x256 .f32) (r j : Fin 512) :
    k0_pay6 (F := Ideal) x0 x2 (ix2 r j) = (∑ k : Fin 256, x0 (ix2 r k) * x2 (ix2 j k)) * Cert.Spec.two := by
  show (matmul dot_S512x256_S256x512_S512x512_1_0_0_1_n_n none (k0_pay5 (F := Ideal) x0)
      (transpose S256x512 [1, 0] (shapeCast S512x256 x2 shapeCasts_S512x256_S512x256) transposes_S512x256_p1_0_S256x512)
      (constant (F := Ideal) S512x512 .f32 0x00000000#32) (ix2 r j)) * Cert.Spec.two = _
  refine congrArg (· * Cert.Spec.two) ?_
  refine (Cert.LibMatmulIx.matmul_zero_apply _ none _ _ r j).trans ?_
  refine Finset.sum_congr rfl fun k _ => ?_
  rw [pay5_eq, transpose_ix2_apply, shapeCast_self]

/-- The word of `n * 512 + r` is the word of `n` times the word of 512 plus the word of `r`. -/
theorem ofNat_affine (n r : ℕ) :
    BitVec.ofNat 32 n * 512#32 + BitVec.ofNat 32 r = BitVec.ofNat 32 (n * 512 + r) := by
  rw [BitVec.ofNat_add, BitVec.ofNat_mul]

/-- The diagonal mask at `(r, j)`: 1 exactly when the global row number equals the global column number. Both
    numbers are below `8 * 512`, so the 32-bit arithmetic is exact. -/
theorem pay7_apply (i : grid0.Coords) (r j : Fin 512) :
    k0_pay7 i (ix2 r j) = if (i 0).val * 512 + r.val = (i 1).val * 512 + j.val then 1#1 else 0#1 := by
  have h0 : (i 0).val < 8 := (i 0).isLt
  have h1 : (i 1).val < 8 := (i 1).isLt
  have hr := r.isLt
  have hj := j.isLt
  show IntOp.cmpi .eq
      (IntOp.addi (Scalar.muli (BitVec.ofNat 32 (i 0).val) 512#32) (iota .tc S512x512 32 [0] iota_S512x512_d0_w32 (ix2 r j)))
      (IntOp.addi (Scalar.muli (BitVec.ofNat 32 (i 1).val) 512#32) (iota .tc S512x512 32 [1] iota_S512x512_d1_w32 (ix2 r j))) = _
  rw [iota_single_apply, iota_single_apply]
  show BitVec.ofBool (BitVec.ofNat 32 (i 0).val * 512#32 + BitVec.ofNat 32 r.val
      == BitVec.ofNat 32 (i 1).val * 512#32 + BitVec.ofNat 32 j.val) = _
  rw [ofNat_affine, ofNat_affine]
  by_cases e : (i 0).val * 512 + r.val = (i 1).val * 512 + j.val
  · rw [if_pos e, e, beq_self_eq_true]; rfl
  · have hne : BitVec.ofNat 32 ((i 0).val * 512 + r.val) ≠ BitVec.ofNat 32 ((i 1).val * 512 + j.val) :=
      fun h => e ((Cert.LibKeepdims.ofNat32_eq_iff (by omega) (by omega)).1 h)
    rw [if_neg e, beq_eq_false_iff_ne.2 hne]; rfl

/-- One masked row sum: over the 512 columns, `exp` of the similarity to `x`'s rows, zero under the mask. -/
theorem rowSum_apply (i : grid0.Coords) (x0 x : Vec Ideal S512x256 .f32) (r : Fin 512) :
    shapeCast S512x1
        (multiReduction (F := Ideal) .add [1] S512
          (select (k0_pay7 i) (broadcast S512x512 (Scalar.ofBits (F := Ideal) .f32 0x00000000#32))
            (exp (k0_pay6 (F := Ideal) x0 x)))
          0x00000000#32 reduces_S512x512_S512 (.inl rfl) rfl)
        shapeCasts_S512_S512x1 (ix2 r (0 : Fin 1))
      = ∑ j : Fin 512, if (i 0).val * 512 + r.val = (i 1).val * 512 + j.val then (0 : EReal)
          else Ideal.exp ((∑ k : Fin 256, x0 (ix2 r k) * x (ix2 j k)) * Cert.Spec.two) := by
  refine (Cert.LibKeepdims.shapeCast_a_a1_apply _ _ r 0).trans ?_
  refine (Cert.LibKeepdims.multiReduction_add_axis1 _ _ _ _ _ r).trans ?_
  refine Finset.sum_congr rfl fun j _ => ?_
  show Scalar.select (k0_pay7 i (ix2 r j)) (Ideal.ofBits .f32 0x00000000#32)
      (Ideal.exp (k0_pay6 (F := Ideal) x0 x (ix2 r j))) = _
  rw [pay7_apply, pay6_apply, Ideal.ofBits_zero_f32]
  by_cases e : (i 0).val * 512 + r.val = (i 1).val * 512 + j.val
  · rw [if_pos e, if_pos e]; rfl
  · rw [if_neg e, if_neg e]; rfl

/-- The partial denominator of row `r` at a grid point: the masked row sum against the first matrix's block plus
    the masked row sum against the second's. -/
theorem pay8_apply (i : grid0.Coords) (x0 x1 x2 : Vec Ideal S512x256 .f32) (r : Fin 512) :
    k0_pay8 (F := Ideal) i x0 x1 x2 (ix2 r (0 : Fin 1))
      = (∑ j : Fin 512, if (i 0).val * 512 + r.val = (i 1).val * 512 + j.val then (0 : EReal)
          else Ideal.exp ((∑ k : Fin 256, x0 (ix2 r k) * x1 (ix2 j k)) * Cert.Spec.two))
        + (∑ j : Fin 512, if (i 0).val * 512 + r.val = (i 1).val * 512 + j.val then (0 : EReal)
          else Ideal.exp ((∑ k : Fin 256, x0 (ix2 r k) * x2 (ix2 j k)) * Cert.Spec.two)) :=
  congrArg₂ (fun a b : EReal => a + b) (rowSum_apply i x0 x1 r) (rowSum_apply i x0 x2 r)

/-- The denominator's accumulation step: the accumulator plus the partial denominator. -/
theorem pay1_apply (v36 : FVec Ideal S512x1 .f32) (v41 : Vec Ideal S512x1 .f32) (y : S512x1.Idx) :
    k0_pay1 (F := Ideal) v36 v41 y = v41 y + v36 y := by
  show shapeCast S512x1 (addf v41 v36) shapeCasts_S512x1_S512x1 y = _
  rw [shapeCast_self]; rfl

/-- The positive term's accumulation step: the accumulator plus the row sum of the selected entries. -/
theorem pay2_apply (v16 : FVec Ideal S512x512 .f32) (v25 : IVec S512x512 1) (v37 : FVec Ideal S512x512 .f32)
    (v46 : Vec Ideal S512x1 .f32) (r : Fin 512) :
    k0_pay2 (F := Ideal) v16 v25 v37 v46 (ix2 r (0 : Fin 1))
      = v46 (ix2 r (0 : Fin 1)) + ∑ j : Fin 512, (if v25 (ix2 r j) = 1#1 then v16 (ix2 r j) else v37 (ix2 r j)) := by
  show shapeCast S512x1 (addf v46 (shapeCast S512x1
      (multiReduction (F := Ideal) .add [1] S512 (select v25 v16 v37) 0x00000000#32 reduces_S512x512_S512 (.inl rfl) rfl)
      shapeCasts_S512_S512x1)) shapeCasts_S512x1_S512x1 (ix2 r (0 : Fin 1)) = _
  rw [shapeCast_self]
  refine congrArg (v46 (ix2 r (0 : Fin 1)) + ·) ?_
  refine (Cert.LibKeepdims.shapeCast_a_a1_apply _ _ r 0).trans ?_
  exact Cert.LibKeepdims.multiReduction_add_axis1 _ _ _ _ _ r

/-- The denominator's accumulator starts at zero. -/
theorem pay3_apply (y : S512x1.Idx) : k0_pay3 (F := Ideal) y = 0 := by
  show shapeCast S512x1 (broadcast S512x1 (Scalar.ofBits (F := Ideal) .f32 0x00000000#32)) shapeCasts_S512x1_S512x1 y = _
  rw [shapeCast_self]; exact Ideal.ofBits_zero_f32

/-- The positive term's accumulator starts at zero. -/
theorem pay4_apply (y : S512x1.Idx) : k0_pay4 (F := Ideal) y = 0 := by
  show shapeCast S512x1 (broadcast S512x1 (Scalar.ofBits (F := Ideal) .f32 0x00000000#32)) shapeCasts_S512x1_S512x1 y = _
  rw [shapeCast_self]; exact Ideal.ofBits_zero_f32

/-- The zero block the positive term selects off the diagonal. -/
theorem pay9_apply (y : S512x512.Idx) : k0_pay9 (F := Ideal) y = 0 :=
  Ideal.ofBits_zero_f32

end Cert.KernelIdeal.KPay

end
-- ==== Proof.KAccMath.lean ====
/-
  The accumulation over the eight column blocks, as arithmetic.

  For a row `i` the denominator of the loss is the sum over the eight column blocks of that block's share (the
  off-diagonal exponentials against the first matrix plus those against the second), and the positive term is the
  sum over the blocks of the block's masked similarity sum.  An accumulator that restarts from zero at the first
  block of a row block and adds one block's share at every block holds, after block `k`, the partial sum over
  the blocks up to `k`; after the eighth block it holds the whole sum.  Sums are in the extended reals as an
  additive commutative monoid: `0 + x = x` and nothing else is used.
-/
import proofs.«171112_j24275155156992_1_alg».proof.Proof.Spec
import Mathlib.Algebra.BigOperators.Fin

noncomputable section

open scoped BigOperators

namespace Cert.KernelIdeal.KAcc

open Cert.Spec

/-- The share of column block `c` in the denominator of row `i`. -/
def dBlk (A B : Fin 4096 → Fin 256 → EReal) (i : Fin 4096) (c : Fin 8) : EReal :=
  (∑ j : Fin 512, expOff A A i (col c j)) + (∑ j : Fin 512, expOff A B i (col c j))

/-- The share of column block `c` in the positive term of row `i`. -/
def pBlk (A B : Fin 4096 → Fin 256 → EReal) (i : Fin 4096) (c : Fin 8) : EReal :=
  ∑ j : Fin 512, (if i = col c j then simK A B i (col c j) else 0)

theorem denK_eq_sum (A B : Fin 4096 → Fin 256 → EReal) (i : Fin 4096) :
    denK A B i = ∑ c : Fin 8, dBlk A B i c := rfl

theorem posK_eq_sum (A B : Fin 4096 → Fin 256 → EReal) (i : Fin 4096) :
    posK A B i = ∑ c : Fin 8, pBlk A B i c := rfl

/-- The partial sums of eight terms: the first term, then one more term at a time. -/
def part (f : Fin 8 → EReal) : ℕ → EReal
  | 0 => f 0
  | k + 1 => part f k + (if h : k + 1 < 8 then f ⟨k + 1, h⟩ else 0)

theorem part_zero (f : Fin 8 → EReal) : part f 0 = f 0 := rfl

theorem part_succ (f : Fin 8 → EReal) (k : ℕ) (h : k + 1 < 8) : part f (k + 1) = part f k + f ⟨k + 1, h⟩ := by
  show part f k + (if h : k + 1 < 8 then f ⟨k + 1, h⟩ else 0) = _
  rw [dif_pos h]

/-- After the eighth term the partial sum is the whole sum. -/
theorem part_seven (f : Fin 8 → EReal) : part f 7 = ∑ c : Fin 8, f c := by
  rw [part_succ f 6 (by omega), part_succ f 5 (by omega), part_succ f 4 (by omega), part_succ f 3 (by omega),
    part_succ f 2 (by omega), part_succ f 1 (by omega), part_succ f 0 (by omega), part_zero, Fin.sum_univ_eight]
  rfl

/-- An accumulator over the grid's points in order, eight column blocks to a row block: it restarts from zero at a
    first block and adds the block's term at every block; the terms' family `T n` does not change within a row
    block.  After point `n` it holds the partial sum of the row block's terms up to block `n % 8`. -/
theorem acc_inv (s : ℕ → EReal) (T : ℕ → Fin 8 → EReal)
    (hT : ∀ n, n < 64 → n % 8 ≠ 0 → T (n - 1) = T n)
    (h0 : ∀ n, n < 64 → n % 8 = 0 → s n = 0 + T n ⟨n % 8, Nat.mod_lt _ (by omega)⟩)
    (hp : ∀ n, n < 64 → n % 8 ≠ 0 → s n = s (n - 1) + T n ⟨n % 8, Nat.mod_lt _ (by omega)⟩) :
    ∀ n, n < 64 → s n = part (T n) (n % 8) := by
  intro n
  induction n with
  | zero =>
    intro hn
    rw [h0 0 hn rfl, zero_add]
    rfl
  | succ n ih =>
    intro hn
    by_cases hz : (n + 1) % 8 = 0
    · rw [h0 (n + 1) hn hz, zero_add]
      have e : (⟨(n + 1) % 8, Nat.mod_lt _ (by omega)⟩ : Fin 8) = 0 := Fin.ext hz
      rw [e, hz]
      rfl
    · have hk : (n + 1) % 8 = n % 8 + 1 := by omega
      have hlt : n % 8 + 1 < 8 := by omega
      have e : (⟨(n + 1) % 8, Nat.mod_lt _ (by omega)⟩ : Fin 8) = ⟨n % 8 + 1, hlt⟩ := Fin.ext hk
      have hT' : T n = T (n + 1) := by
        have h := hT (n + 1) hn hz
        rwa [Nat.add_sub_cancel] at h
      rw [hp (n + 1) hn hz, e, hk, part_succ _ _ hlt, Nat.add_sub_cancel, ih (by omega), hT']

end Cert.KernelIdeal.KAcc

end
-- ==== Proof.KAcc.lean ====
/-
  What the kernel's two accumulators hold when a row block is finished, over the extended reals.

  The grid's 64 points are visited in order, eight column blocks to each of the eight row blocks.  At point `t` the
  body adds, for each of the 512 rows of row block `t / 8`, the share of column block `t % 8` to each accumulator:
  to the first the off-diagonal exponentials of the scaled similarities of the row to the 512 rows of the first
  matrix's column block plus those to the second matrix's; to the second the scaled similarity to the second
  matrix's row with the same global number, if it lies in this column block.  At a first column block both
  accumulators restart from zero.  The blocks the body reads are rows of the two row-normalized matrices, which the
  host operations before the region leave in place.  Hence after point `t` an accumulator holds the partial sum of
  its row's shares over the column blocks up to `t % 8`, and at the last column block, where the accumulators are
  copied to the outputs' buffers, the whole sums: the loss's denominator and positive term of the row.
-/
import proofs.«171112_j24275155156992_1_alg».proof.Proof.KPayEq
import proofs.«171112_j24275155156992_1_alg».proof.Proof.KPayIx
import proofs.«171112_j24275155156992_1_alg».proof.Proof.KGeomIdx
import proofs.«171112_j24275155156992_1_alg».proof.Proof.KHost
import proofs.«171112_j24275155156992_1_alg».proof.Proof.KAccMath

noncomputable section

open scoped BigOperators

namespace Cert.KernelIdeal.KAcc

open Cert.KernelIdeal Cert.KernelIdeal.Gen Cert.KernelIdeal.KBody Cert.KernelIdeal.KPay Cert.KernelIdeal.KGeom
open Idealize.ShloMosaic Idealize.ShloMosaic.TcCoe Idealize.ShloMosaic.ValueIdx Cert.Spec

variable (m : (ℓ : Loc nD τ sig) → Buf (Elt Ideal) ℓ) (c : Dev nD)

/-- The first argument's launch contents as a matrix. -/
abbrev matA : Fin 4096 → Fin 256 → EReal := fun i k => m ((c.tc : Thread nD τ).loc main_arg0) (ix2 i k)
/-- The second argument's launch contents as a matrix. -/
abbrev matB : Fin 4096 → Fin 256 → EReal := fun i k => m ((c.tc : Thread nD τ).loc main_arg1) (ix2 i k)

/-- The global number of row `r` of the row block of point `n`. -/
def row (n : ℕ) (r : Fin 512) : Fin 4096 :=
  ⟨(n / 8 % 8) * 512 + r.val, by have := r.isLt; have := Nat.mod_lt (n / 8) (show 0 < 8 by omega); omega⟩

/-- The column block of point `n`. -/
def cblk (n : ℕ) : Fin 8 := ⟨n % 8, Nat.mod_lt _ (by omega)⟩

theorem lt64 (t : Fin cfg0.N) : t.val < 64 := lt_of_lt_of_eq t.isLt N_eq

/-! ## The blocks the body reads are rows of the normalized matrices -/

theorem V7_apply (i : Fin 4096) (k : Fin 256) :
    (V m c main_v7 : S4096x256.Idx → Elt Ideal .f32) (ix2 i k) = nz (matA m c) i k := by
  have h := Cert.KernelIdeal.KHost.pre_v7_apply (fun b => m (c, b)) i k
  show StableHlo.after (List.flatten [hostOps0]) (fun b => m (c, b)) (main_v7 : DevRef τ sig) (ix2 i k) = _
  simp only [List.flatten_cons, List.flatten_nil, List.append_nil]
  exact h

theorem V15_apply (i : Fin 4096) (k : Fin 256) :
    (V m c main_v15 : S4096x256.Idx → Elt Ideal .f32) (ix2 i k) = nz (matB m c) i k := by
  have h := Cert.KernelIdeal.KHost.pre_v15_apply (fun b => m (c, b)) i k
  show StableHlo.after (List.flatten [hostOps0]) (fun b => m (c, b)) (main_v15 : DevRef τ sig) (ix2 i k) = _
  simp only [List.flatten_cons, List.flatten_nil, List.append_nil]
  exact h

/-- The first window's block: rows of the first normalized matrix in the point's row block. -/
theorem x0_apply (t : Fin cfg0.N) (r : Fin 512) (k : Fin 256) :
    (iblk m c 0 t : Vec Ideal S512x256 .f32) (ix2 r k) = nz (matA m c) (row t.val r) k := by
  have ht := lt64 t
  refine (iblk0_apply m c t r k).trans ((V7_apply m c _ k).trans ?_)
  exact congrArg (fun i => nz (matA m c) i k) (Fin.ext (by show t.val / 8 * 512 + r.val = t.val / 8 % 8 * 512 + r.val; omega))

/-- The second window's block: rows of the first normalized matrix in the point's column block. -/
theorem x1_apply (t : Fin cfg0.N) (j : Fin 512) (k : Fin 256) :
    (iblk m c 1 t : Vec Ideal S512x256 .f32) (ix2 j k) = nz (matA m c) (col (cblk t.val) j) k :=
  (iblk1_apply m c t j k).trans (V7_apply m c _ k)

/-- The third window's block: rows of the second normalized matrix in the point's column block. -/
theorem x2_apply (t : Fin cfg0.N) (j : Fin 512) (k : Fin 256) :
    (iblk m c 2 t : Vec Ideal S512x256 .f32) (ix2 j k) = nz (matB m c) (col (cblk t.val) j) k :=
  (iblk2_apply m c t j k).trans (V15_apply m c _ k)

/-- The body's diagonal test at a point is the equality of the global row and column numbers. -/
theorem diag_iff (t : Fin cfg0.N) (r j : Fin 512) :
    (t.val / 8 * 512 + r.val = t.val % 8 * 512 + j.val) ↔ row t.val r = col (cblk t.val) j := by
  have ht := lt64 t
  rw [Fin.ext_iff]
  show _ ↔ t.val / 8 % 8 * 512 + r.val = t.val % 8 * 512 + j.val
  omega

/-! ## One point's step of each accumulator -/

/-- The share the body adds to the first accumulator at point `t`, row `r`. -/
theorem step0 (t : Fin cfg0.N) (r : Fin 512) :
    k0_pay8 (F := Ideal) (grid0.coords t) (iblk m c 0 t) (iblk m c 1 t) (iblk m c 2 t) (ix2 r (0 : Fin 1))
      = dBlk (matA m c) (matB m c) (row t.val r) (cblk t.val) := by
  obtain ⟨e0, e1⟩ := coords_val t
  rw [pay8_apply, e0, e1]
  unfold dBlk
  refine congrArg₂ (fun a b : EReal => a + b) ?_ ?_
  · refine Finset.sum_congr rfl fun j _ => ?_
    unfold expOff simK
    by_cases e : t.val / 8 * 512 + r.val = t.val % 8 * 512 + j.val
    · rw [if_pos e, if_pos ((diag_iff t r j).mp e)]
    · rw [if_neg e, if_neg (fun h => e ((diag_iff t r j).mpr h))]
      refine congrArg (fun z => Ideal.exp (z * two)) (Finset.sum_congr rfl fun k _ => ?_)
      rw [x0_apply, x1_apply]
  · refine Finset.sum_congr rfl fun j _ => ?_
    unfold expOff simK
    by_cases e : t.val / 8 * 512 + r.val = t.val % 8 * 512 + j.val
    · rw [if_pos e, if_pos ((diag_iff t r j).mp e)]
    · rw [if_neg e, if_neg (fun h => e ((diag_iff t r j).mpr h))]
      refine congrArg (fun z => Ideal.exp (z * two)) (Finset.sum_congr rfl fun k _ => ?_)
      rw [x0_apply, x2_apply]

/-- The second accumulator after point `t`, row `r`, from what it held: that plus the row's masked similarity sum. -/
theorem step1 (t : Fin cfg0.N) (r : Fin 512) (prev : Vec Ideal S512x1 .f32) :
    k0_pay2 (F := Ideal) (k0_pay6 (iblk m c 0 t) (iblk m c 2 t)) (k0_pay7 (grid0.coords t)) (k0_pay9 (F := Ideal)) prev
        (ix2 r (0 : Fin 1))
      = prev (ix2 r (0 : Fin 1)) + pBlk (matA m c) (matB m c) (row t.val r) (cblk t.val) := by
  obtain ⟨e0, e1⟩ := coords_val t
  rw [pay2_apply]
  refine congrArg (fun z : EReal => prev (ix2 r (0 : Fin 1)) + z) ?_
  unfold pBlk
  refine Finset.sum_congr rfl fun j _ => ?_
  rw [pay7_apply, e0, e1]
  by_cases e : t.val / 8 * 512 + r.val = t.val % 8 * 512 + j.val
  · rw [if_pos e, if_pos rfl, if_pos ((diag_iff t r j).mp e), pay6_apply]
    unfold simK
    refine congrArg (fun z => z * two) (Finset.sum_congr rfl fun k _ => ?_)
    rw [x0_apply, x2_apply]
  · rw [if_neg e, if_neg (by decide), if_neg (fun h => e ((diag_iff t r j).mpr h)), pay9_apply]

/-! ## The accumulators along the grid -/

/-- The first accumulator's entry of row `r` after point `n`. -/
def s0 (r : Fin 512) (n : ℕ) : EReal :=
  if h : n < cfg0.N then (outsAt0 m c n h).2.2.1 (ix2 r (0 : Fin 1)) else 0

/-- The second accumulator's entry of row `r` after point `n`. -/
def s1 (r : Fin 512) (n : ℕ) : EReal :=
  if h : n < cfg0.N then (outsAt0 m c n h).2.2.2 (ix2 r (0 : Fin 1)) else 0

theorem s0_eq (r : Fin 512) (n : ℕ) (h : n < cfg0.N) : s0 m c r n = (outsAt0 m c n h).2.2.1 (ix2 r (0 : Fin 1)) := dif_pos h
theorem s1_eq (r : Fin 512) (n : ℕ) (h : n < cfg0.N) : s1 m c r n = (outsAt0 m c n h).2.2.2 (ix2 r (0 : Fin 1)) := dif_pos h

theorem row_pred (r : Fin 512) (n : ℕ) (hz : n % 8 ≠ 0) : row (n - 1) r = row n r :=
  Fin.ext (by show (n - 1) / 8 % 8 * 512 + r.val = n / 8 % 8 * 512 + r.val; omega)

/-- After point `n` the first accumulator holds the partial sum of the row's denominator shares up to the point's
    column block. -/
theorem s0_inv (r : Fin 512) : ∀ n, n < 64 →
    s0 m c r n = part (dBlk (matA m c) (matB m c) (row n r)) (n % 8) := by
  refine acc_inv (s0 m c r) (fun n => dBlk (matA m c) (matB m c) (row n r)) ?_ ?_ ?_
  · intro n _ hz
    exact congrArg (dBlk (matA m c) (matB m c)) (row_pred r n hz)
  · intro n hn hz
    have hN : n < cfg0.N := by rw [N_eq]; exact hn
    rw [s0_eq m c r n hN]
    exact (congrFun (scr0_A m c ⟨n, hN⟩ hz) (ix2 r (0 : Fin 1))).trans
      ((pay1_apply _ _ _).trans (congrArg₂ (fun a b : EReal => a + b) (pay3_apply _) (step0 m c ⟨n, hN⟩ r)))
  · intro n hn hz
    have hN : n < cfg0.N := by rw [N_eq]; exact hn
    have hN' : n - 1 < cfg0.N := Nat.lt_of_le_of_lt (Nat.sub_le _ _) hN
    rw [s0_eq m c r n hN, s0_eq m c r (n - 1) hN']
    exact (congrFun (scr0_BC m c ⟨n, hN⟩ hz) (ix2 r (0 : Fin 1))).trans
      ((pay1_apply _ _ _).trans (congrArg (fun z : EReal => (outsAt0 m c (n - 1) hN').2.2.1 (ix2 r (0 : Fin 1)) + z) (step0 m c ⟨n, hN⟩ r)))

/-- After point `n` the second accumulator holds the partial sum of the row's positive-term shares up to the point's
    column block. -/
theorem s1_inv (r : Fin 512) : ∀ n, n < 64 →
    s1 m c r n = part (pBlk (matA m c) (matB m c) (row n r)) (n % 8) := by
  refine acc_inv (s1 m c r) (fun n => pBlk (matA m c) (matB m c) (row n r)) ?_ ?_ ?_
  · intro n _ hz
    exact congrArg (pBlk (matA m c) (matB m c)) (row_pred r n hz)
  · intro n hn hz
    have hN : n < cfg0.N := by rw [N_eq]; exact hn
    rw [s1_eq m c r n hN]
    exact (congrFun (scr1_A m c ⟨n, hN⟩ hz) (ix2 r (0 : Fin 1))).trans
      ((step1 m c ⟨n, hN⟩ r _).trans (congrArg (fun z : EReal => z + pBlk (matA m c) (matB m c) (row n r) (cblk n)) (pay4_apply _)))
  · intro n hn hz
    have hN : n < cfg0.N := by rw [N_eq]; exact hn
    have hN' : n - 1 < cfg0.N := Nat.lt_of_le_of_lt (Nat.sub_le _ _) hN
    rw [s1_eq m c r n hN, s1_eq m c r (n - 1) hN']
    exact (congrFun (scr1_BC m c ⟨n, hN⟩ hz) (ix2 r (0 : Fin 1))).trans (step1 m c ⟨n, hN⟩ r _)

/-! ## At the last column block -/

theorem row_eq (t : Fin cfg0.N) (r : Fin 512) :
    row t.val r = ⟨(t.val / 8) * 512 + r.val, by have := lt64 t; have := r.isLt; omega⟩ := by
  have ht := lt64 t
  exact Fin.ext (by show t.val / 8 % 8 * 512 + r.val = t.val / 8 * 512 + r.val; omega)

/-- At a last column block output 3's buffer holds, at row `r`, the denominator of the global row. -/
theorem out3_final (t : Fin cfg0.N) (h7 : t.val % 8 = 7) (r : Fin 512) :
    (outsAt0 m c t.val t.isLt).1 (ix2 r (0 : Fin 1))
      = Cert.Spec.denK (fun (i : Fin 4096) (k : Fin 256) => m ((c.tc : Thread nD τ).loc main_arg0) (ix2 i k))
          (fun (i : Fin 4096) (k : Fin 256) => m ((c.tc : Thread nD τ).loc main_arg1) (ix2 i k))
          ⟨(t.val / 8) * 512 + r.val, by have := lt64 t; have := r.isLt; omega⟩ := by
  rw [← row_eq t r, denK_eq_sum, ← part_seven, ← h7, ← s0_inv m c r t.val (lt64 t), s0_eq m c r t.val t.isLt]
  exact congrFun (out3_C m c t h7) (ix2 r (0 : Fin 1))

/-- At a last column block output 4's buffer holds, at row `r`, the positive term of the global row. -/
theorem out4_final (t : Fin cfg0.N) (h7 : t.val % 8 = 7) (r : Fin 512) :
    (outsAt0 m c t.val t.isLt).2.1 (ix2 r (0 : Fin 1))
      = Cert.Spec.posK (fun (i : Fin 4096) (k : Fin 256) => m ((c.tc : Thread nD τ).loc main_arg0) (ix2 i k))
          (fun (i : Fin 4096) (k : Fin 256) => m ((c.tc : Thread nD τ).loc main_arg1) (ix2 i k))
          ⟨(t.val / 8) * 512 + r.val, by have := lt64 t; have := r.isLt; omega⟩ := by
  rw [← row_eq t r, posK_eq_sum, ← part_seven, ← h7, ← s1_inv m c r t.val (lt64 t), s1_eq m c r t.val t.isLt]
  exact congrFun (out4_C m c t h7) (ix2 r (0 : Fin 1))

end Cert.KernelIdeal.KAcc

end
-- ==== Proof.KVal.lean ====
/-
  The kernel program's result. When the region is left, row i of its first result column holds the denominator
  of row i — the sum over the eight column blocks of the off-diagonal exponentials against both normalized
  matrices — and row i of the second the positive similarity; the operations after the region take the mean of
  log denominator − positive, which is the loss in the kernel's arrangement.
-/
import proofs.«171112_j24275155156992_1_alg».proof.Proof.KTop
import proofs.«171112_j24275155156992_1_alg».proof.Proof.KHost
import proofs.«171112_j24275155156992_1_alg».proof.Proof.KGeom
import proofs.«171112_j24275155156992_1_alg».proof.Proof.KAcc

set_option maxRecDepth 16384

noncomputable section

namespace Cert.KernelIdeal.KVal

open Cert.KernelIdeal Cert.KernelIdeal.Gen
open Idealize.ShloMosaic Idealize.ShloMosaic.TcCoe Idealize.ShloMosaic.ValueIdx
open Idealize.SL Idealize.SL.Sem

variable (m : (ℓ : Loc nD τ sig) → Buf (Elt Ideal) ℓ)

/-- The first input matrix on core c, by row and column. -/
abbrev A (c : Dev nD) (i : Fin 4096) (k : Fin 256) : EReal := m ((c.tc : Thread nD τ).loc main_arg0) (ix2 i k)
/-- The second. -/
abbrev B (c : Dev nD) (i : Fin 4096) (k : Fin 256) : EReal := m ((c.tc : Thread nD τ).loc main_arg1) (ix2 i k)

/-- The result buffer after the run holds the loss in the kernel's arrangement. -/
theorem result (c : Dev nD) :
    KLaunch.WF m (KBody.dats m) c (Proc.devRef .tc main_v22) = fun _ => Cert.Spec.kerOut (A m c) (B m c) := by
  unfold KLaunch.WF
  rw [show ([hostOps1] : List (List (HloOp τ sig (Elt Ideal)))).flatten = hostOps1 from by
    simp only [List.flatten_cons, List.flatten_nil, List.append_nil]]
  refine (KHost.post_v22 _).trans ?_
  funext _
  unfold Cert.Spec.kerOut
  refine congrArg (fun s => Ideal.div s Cert.Spec.cnt) (Finset.sum_congr rfl fun i _ => ?_)
  rw [show KLaunch.WX m (KBody.dats m) c (main_v16_0 : DevRef τ sig) = (KBody.dats m 0 c).arrAt 3 cfg0.N from KLaunch.WX_v160 m _ c,
    show KLaunch.WX m (KBody.dats m) c (main_v16_1 : DevRef τ sig) = (KBody.dats m 0 c).arrAt 4 cfg0.N from KLaunch.WX_v161 m _ c,
    KGeom.arrAt3_eq m c (Cert.Spec.denK (A m c) (B m c)) (fun t h7 r => KAcc.out3_final m c t h7 r) i,
    KGeom.arrAt4_eq m c (Cert.Spec.posK (A m c) (B m c)) (fun t h7 r => KAcc.out4_final m c t h7 r) i]

end Cert.KernelIdeal.KVal

end
-- ==== Proof.RefRunOps.lean ====
/-
  The reference program's @main as the list of its 101 host operations, in program order: the two calls of the
  integer-remainder helper (each of which calls the select helper once) are written out at their call sites over
  the calls' buffer records, 21 operations each; around them @main's own 59.  @main is that straight line, every
  operation touches TensorCore buffers only, and nothing in the signature is scoped; hence every weakly fair
  execution terminates with each buffer at the fold of the operations over the launch contents.
-/
import proofs.«171112_j24275155156992_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 101 operations, in order, the calls unfolded. -/
abbrev ops : List (HloOp τ sig (Elt F)) :=
  [ StableHlo.binary main_arg0 main_arg1 main_v0 ((fun a b => concatenate S8192x256 0 [⟨S4096x256, a⟩, ⟨S4096x256, b⟩] concatenates_S4096x256_S4096x256_S8192x256_d0) : (⟨S4096x256, .f32⟩ : BufTy).Contents (Elt F) → (⟨S4096x256, .f32⟩ : BufTy).Contents (Elt F) → (⟨S8192x256, .f32⟩ : BufTy).Contents (Elt F)),
    StableHlo.binary main_v0 main_v0 main_v1 (mulf : (⟨S8192x256, .f32⟩ : BufTy).Contents (Elt F) → (⟨S8192x256, .f32⟩ : BufTy).Contents (Elt F) → (⟨S8192x256, .f32⟩ : BufTy).Contents (Elt F)),
    StableHlo.nullary main_cst (constant S_ .f32 0x00000000#32),
    StableHlo.binary main_v1 main_cst main_v2 ((fun x v => Host.reduceAdd x v reducesTo_S8192x256_S8192_d1 h_S_) : (⟨S8192x256, .f32⟩ : BufTy).Contents (Elt F) → (⟨S_, .f32⟩ : BufTy).Contents (Elt F) → (⟨S8192, .f32⟩ : BufTy).Contents (Elt F)),
    StableHlo.unary main_v2 main_v3 (broadcastInDim S8192x1 ![0] bcast_S8192_S8192x1_0 : (⟨S8192, .f32⟩ : BufTy).Contents (Elt F) → (⟨S8192x1, .f32⟩ : BufTy).Contents (Elt F)),
    StableHlo.unary main_v3 main_v4 (Host.sqrt : (⟨S8192x1, .f32⟩ : BufTy).Contents (Elt F) → (⟨S8192x1, .f32⟩ : BufTy).Contents (Elt F)),
    StableHlo.nullary main_cst_0 (constant S_ .f32 0x322BCC77#32),
    StableHlo.unary main_cst_0 main_v5 (broadcastInDim S8192x1 ![] bcast_S_S8192x1 : (⟨S_, .f32⟩ : BufTy).Contents (Elt F) → (⟨S8192x1, .f32⟩ : BufTy).Contents (Elt F)),
    StableHlo.binary main_v4 main_v5 main_v6 (maximumf : (⟨S8192x1, .f32⟩ : BufTy).Contents (Elt F) → (⟨S8192x1, .f32⟩ : BufTy).Contents (Elt F) → (⟨S8192x1, .f32⟩ : BufTy).Contents (Elt F)),
    StableHlo.unary main_v6 main_v7 (broadcastInDim S8192x256 ![0, 1] bcast_S8192x1_S8192x256_0_1 : (⟨S8192x1, .f32⟩ : BufTy).Contents (Elt F) → (⟨S8192x256, .f32⟩ : BufTy).Contents (Elt F)),
    StableHlo.binary main_v0 main_v7 main_v8 (Host.divf : (⟨S8192x256, .f32⟩ : BufTy).Contents (Elt F) → (⟨S8192x256, .f32⟩ : BufTy).Contents (Elt F) → (⟨S8192x256, .f32⟩ : BufTy).Contents (Elt F)),
    StableHlo.binary main_v8 main_v8 main_v9 ((fun l r => Host.dotGeneral dot_S8192x256_S8192x256_S8192x8192_1_1_0_0_n_n none l r) : (⟨S8192x256, .f32⟩ : BufTy).Contents (Elt F) → (⟨S8192x256, .f32⟩ : BufTy).Contents (Elt F) → (⟨S8192x8192, .f32⟩ : BufTy).Contents (Elt F)),
    StableHlo.nullary main_cst_1 (constant S_ .f32 0x3F000000#32),
    StableHlo.unary main_cst_1 main_v10 (broadcastInDim S8192x8192 ![] bcast_S_S8192x8192 : (⟨S_, .f32⟩ : BufTy).Contents (Elt F) → (⟨S8192x8192, .f32⟩ : BufTy).Contents (Elt F)),
    StableHlo.binary main_v9 main_v10 main_v11 (Host.divf : (⟨S8192x8192, .f32⟩ : BufTy).Contents (Elt F) → (⟨S8192x8192, .f32⟩ : BufTy).Contents (Elt F) → (⟨S8192x8192, .f32⟩ : BufTy).Contents (Elt F)),
    StableHlo.nullary main_v12 (iotaInDim S8192 32 0),
    StableHlo.unary main_v12 main_v13 (broadcastInDim S8192x1 ![0] bcast_S8192_S8192x1_0 : (⟨S8192, .i32⟩ : BufTy).Contents (Elt F) → (⟨S8192x1, .i32⟩ : BufTy).Contents (Elt F)),
    StableHlo.nullary main_c (constantI S_ 32 4096#32),
    StableHlo.TRef.unary (.of main_c) main_call0.v0 id,
    StableHlo.TRef.nullary main_call0.c (constantI S_ 32 0#32),
    StableHlo.TRef.binary main_call0.v0 main_call0.c main_call0.v1 (cmpi .eq),
    StableHlo.TRef.nullary main_call0.c_0 (constantI S_ 32 1#32),
    StableHlo.TRef.ternary main_call0.v1 main_call0.c_0 main_call0.v0 main_call0.call0.v0 select,
    StableHlo.TRef.unary main_call0.call0.v0 main_call0.v3 (broadcastInDim S8192x1 ![] bcast_S_S8192x1),
    StableHlo.TRef.binary (.of main_v13) main_call0.v3 main_call0.v4 Host.remsi,
    StableHlo.TRef.nullary main_call0.c_1 (constantI S_ 32 0#32),
    StableHlo.TRef.unary main_call0.c_1 main_call0.v5 (broadcastInDim S8192x1 ![] bcast_S_S8192x1),
    StableHlo.TRef.binary main_call0.v4 main_call0.v5 main_call0.v6 (cmpi .ne),
    StableHlo.TRef.nullary main_call0.c_2 (constantI S_ 32 0#32),
    StableHlo.TRef.unary main_call0.c_2 main_call0.v7 (broadcastInDim S8192x1 ![] bcast_S_S8192x1),
    StableHlo.TRef.binary main_call0.v4 main_call0.v7 main_call0.v8 (cmpi .slt),
    StableHlo.TRef.nullary main_call0.c_3 (constantI S_ 32 0#32),
    StableHlo.TRef.binary main_call0.call0.v0 main_call0.c_3 main_call0.v9 (cmpi .slt),
    StableHlo.TRef.unary main_call0.v9 main_call0.v10 (broadcastInDim S8192x1 ![] bcast_S_S8192x1),
    StableHlo.TRef.binary main_call0.v8 main_call0.v10 main_call0.v11 (cmpi .ne),
    StableHlo.TRef.binary main_call0.v11 main_call0.v6 main_call0.v12 andi,
    StableHlo.TRef.unary main_call0.call0.v0 main_call0.v13 (broadcastInDim S8192x1 ![] bcast_S_S8192x1),
    StableHlo.TRef.binary main_call0.v4 main_call0.v13 main_call0.v14 addi,
    StableHlo.TRef.ternary main_call0.v12 main_call0.v14 main_call0.v4 main_call0.v15 select,
    StableHlo.unary main_v12 main_v15 (broadcastInDim S1x8192 ![1] bcast_S8192_S1x8192_1 : (⟨S8192, .i32⟩ : BufTy).Contents (Elt F) → (⟨S1x8192, .i32⟩ : BufTy).Contents (Elt F)),
    StableHlo.nullary main_c_2 (constantI S_ 32 4096#32),
    StableHlo.TRef.unary (.of main_c_2) main_call1.v0 id,
    StableHlo.TRef.nullary main_call1.c (constantI S_ 32 0#32),
    StableHlo.TRef.binary main_call1.v0 main_call1.c main_call1.v1 (cmpi .eq),
    StableHlo.TRef.nullary main_call1.c_0 (constantI S_ 32 1#32),
    StableHlo.TRef.ternary main_call1.v1 main_call1.c_0 main_call1.v0 main_call1.call0.v0 select,
    StableHlo.TRef.unary main_call1.call0.v0 main_call1.v3 (broadcastInDim S1x8192 ![] bcast_S_S1x8192),
    StableHlo.TRef.binary (.of main_v15) main_call1.v3 main_call1.v4 Host.remsi,
    StableHlo.TRef.nullary main_call1.c_1 (constantI S_ 32 0#32),
    StableHlo.TRef.unary main_call1.c_1 main_call1.v5 (broadcastInDim S1x8192 ![] bcast_S_S1x8192),
    StableHlo.TRef.binary main_call1.v4 main_call1.v5 main_call1.v6 (cmpi .ne),
    StableHlo.TRef.nullary main_call1.c_2 (constantI S_ 32 0#32),
    StableHlo.TRef.unary main_call1.c_2 main_call1.v7 (broadcastInDim S1x8192 ![] bcast_S_S1x8192),
    StableHlo.TRef.binary main_call1.v4 main_call1.v7 main_call1.v8 (cmpi .slt),
    StableHlo.TRef.nullary main_call1.c_3 (constantI S_ 32 0#32),
    StableHlo.TRef.binary main_call1.call0.v0 main_call1.c_3 main_call1.v9 (cmpi .slt),
    StableHlo.TRef.unary main_call1.v9 main_call1.v10 (broadcastInDim S1x8192 ![] bcast_S_S1x8192),
    StableHlo.TRef.binary main_call1.v8 main_call1.v10 main_call1.v11 (cmpi .ne),
    StableHlo.TRef.binary main_call1.v11 main_call1.v6 main_call1.v12 andi,
    StableHlo.TRef.unary main_call1.call0.v0 main_call1.v13 (broadcastInDim S1x8192 ![] bcast_S_S1x8192),
    StableHlo.TRef.binary main_call1.v4 main_call1.v13 main_call1.v14 addi,
    StableHlo.TRef.ternary main_call1.v12 main_call1.v14 main_call1.v4 main_call1.v15 select,
    StableHlo.unary main_v14 main_v17 (broadcastInDim S8192x8192 ![0, 1] bcast_S8192x1_S8192x8192_0_1 : (⟨S8192x1, .i32⟩ : BufTy).Contents (Elt F) → (⟨S8192x8192, .i32⟩ : BufTy).Contents (Elt F)),
    StableHlo.unary main_v16 main_v18 (broadcastInDim S8192x8192 ![0, 1] bcast_S1x8192_S8192x8192_0_1 : (⟨S1x8192, .i32⟩ : BufTy).Contents (Elt F) → (⟨S8192x8192, .i32⟩ : BufTy).Contents (Elt F)),
    StableHlo.binary main_v17 main_v18 main_v19 (cmpi .ne : (⟨S8192x8192, .i32⟩ : BufTy).Contents (Elt F) → (⟨S8192x8192, .i32⟩ : BufTy).Contents (Elt F) → (⟨S8192x8192, .i1⟩ : BufTy).Contents (Elt F)),
    StableHlo.unary main_v11 main_v20 (Host.exp : (⟨S8192x8192, .f32⟩ : BufTy).Contents (Elt F) → (⟨S8192x8192, .f32⟩ : BufTy).Contents (Elt F)),
    StableHlo.unary main_v19 main_v21 (uitofp .f32 : (⟨S8192x8192, .i1⟩ : BufTy).Contents (Elt F) → (⟨S8192x8192, .f32⟩ : BufTy).Contents (Elt F)),
    StableHlo.binary main_v20 main_v21 main_v22 (mulf : (⟨S8192x8192, .f32⟩ : BufTy).Contents (Elt F) → (⟨S8192x8192, .f32⟩ : BufTy).Contents (Elt F) → (⟨S8192x8192, .f32⟩ : BufTy).Contents (Elt F)),
    StableHlo.nullary main_cst_3 (constant S_ .f32 0x00000000#32),
    StableHlo.binary main_v22 main_cst_3 main_v23 ((fun x v => Host.reduceAdd x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    StableHlo.nullary main_v24 (iotaInDim S4096 32 0),
    StableHlo.nullary main_c_4 (constantI S_ 32 4096#32),
    StableHlo.unary main_c_4 main_v25 (broadcastInDim S4096 ![] bcast_S_S4096 : (⟨S_, .i32⟩ : BufTy).Contents (Elt F) → (⟨S4096, .i32⟩ : BufTy).Contents (Elt F)),
    StableHlo.binary main_v25 main_v24 main_v26 (addi : (⟨S4096, .i32⟩ : BufTy).Contents (Elt F) → (⟨S4096, .i32⟩ : BufTy).Contents (Elt F) → (⟨S4096, .i32⟩ : BufTy).Contents (Elt F)),
    StableHlo.nullary main_c_5 (constantI S_ 32 0#32),
    StableHlo.unary main_c_5 main_v27 (broadcastInDim S4096 ![] bcast_S_S4096 : (⟨S_, .i32⟩ : BufTy).Contents (Elt F) → (⟨S4096, .i32⟩ : BufTy).Contents (Elt F)),
    StableHlo.binary main_v24 main_v27 main_v28 (cmpi .slt : (⟨S4096, .i32⟩ : BufTy).Contents (Elt F) → (⟨S4096, .i32⟩ : BufTy).Contents (Elt F) → (⟨S4096, .i1⟩ : BufTy).Contents (Elt F)),
    StableHlo.nullary main_c_6 (constantI S_ 32 8192#32),
    StableHlo.unary main_c_6 main_v29 (broadcastInDim S4096 ![] bcast_S_S4096 : (⟨S_, .i32⟩ : BufTy).Contents (Elt F) → (⟨S4096, .i32⟩ : BufTy).Contents (Elt F)),
    StableHlo.binary main_v24 main_v29 main_v30 (addi : (⟨S4096, .i32⟩ : BufTy).Contents (Elt F) → (⟨S4096, .i32⟩ : BufTy).Contents (Elt F) → (⟨S4096, .i32⟩ : BufTy).Contents (Elt F)),
    StableHlo.ternary main_v28 main_v30 main_v24 main_v31 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.nullary main_c_7 (constantI S_ 32 0#32),
    StableHlo.unary main_c_7 main_v32 (broadcastInDim S4096 ![] bcast_S_S4096 : (⟨S_, .i32⟩ : BufTy).Contents (Elt F) → (⟨S4096, .i32⟩ : BufTy).Contents (Elt F)),
    StableHlo.binary main_v26 main_v32 main_v33 (cmpi .slt : (⟨S4096, .i32⟩ : BufTy).Contents (Elt F) → (⟨S4096, .i32⟩ : BufTy).Contents (Elt F) → (⟨S4096, .i1⟩ : BufTy).Contents (Elt F)),
    StableHlo.nullary main_c_8 (constantI S_ 32 8192#32),
    StableHlo.unary main_c_8 main_v34 (broadcastInDim S4096 ![] bcast_S_S4096 : (⟨S_, .i32⟩ : BufTy).Contents (Elt F) → (⟨S4096, .i32⟩ : BufTy).Contents (Elt F)),
    StableHlo.binary main_v26 main_v34 main_v35 (addi : (⟨S4096, .i32⟩ : BufTy).Contents (Elt F) → (⟨S4096, .i32⟩ : BufTy).Contents (Elt F) → (⟨S4096, .i32⟩ : BufTy).Contents (Elt F)),
    StableHlo.ternary main_v33 main_v35 main_v26 main_v36 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.unary main_v31 main_v37 (broadcastInDim S4096x1 ![0] bcast_S4096_S4096x1_0 : (⟨S4096, .i32⟩ : BufTy).Contents (Elt F) → (⟨S4096x1, .i32⟩ : BufTy).Contents (Elt F)),
    StableHlo.unary main_v36 main_v38 (broadcastInDim S4096x1 ![0] bcast_S4096_S4096x1_0 : (⟨S4096, .i32⟩ : BufTy).Contents (Elt F) → (⟨S4096x1, .i32⟩ : BufTy).Contents (Elt F)),
    StableHlo.binary main_v37 main_v38 main_v39 ((fun a b => concatenate S4096x2 1 [⟨S4096x1, a⟩, ⟨S4096x1, b⟩] concatenates_S4096x1_S4096x1_S4096x2_d1) : (⟨S4096x1, .i32⟩ : BufTy).Contents (Elt F) → (⟨S4096x1, .i32⟩ : BufTy).Contents (Elt F) → (⟨S4096x2, .i32⟩ : BufTy).Contents (Elt F)),
    StableHlo.binary main_v11 main_v39 main_v40 ((fun x i => Host.gather gather_S8192x8192_S4096x2_S4096_n_01_n_n_01_1_11 x i) : (⟨S8192x8192, .f32⟩ : BufTy).Contents (Elt F) → (⟨S4096x2, .i32⟩ : BufTy).Contents (Elt F) → (⟨S4096, .f32⟩ : BufTy).Contents (Elt F)),
    StableHlo.unary main_v23 main_v41 ((extractStridedSlice S4096 ![0] · slices_S8192_S4096_0) : (⟨S8192, .f32⟩ : BufTy).Contents (Elt F) → (⟨S4096, .f32⟩ : BufTy).Contents (Elt F)),
    StableHlo.unary main_v40 main_v42 (Host.exp : (⟨S4096, .f32⟩ : BufTy).Contents (Elt F) → (⟨S4096, .f32⟩ : BufTy).Contents (Elt F)),
    StableHlo.binary main_v42 main_v41 main_v43 (Host.divf : (⟨S4096, .f32⟩ : BufTy).Contents (Elt F) → (⟨S4096, .f32⟩ : BufTy).Contents (Elt F) → (⟨S4096, .f32⟩ : BufTy).Contents (Elt F)),
    StableHlo.unary main_v43 main_v44 (Host.log : (⟨S4096, .f32⟩ : BufTy).Contents (Elt F) → (⟨S4096, .f32⟩ : BufTy).Contents (Elt F)),
    StableHlo.nullary main_cst_9 (constant S_ .f32 0x00000000#32),
    StableHlo.binary main_v44 main_cst_9 main_v45 ((fun x v => Host.reduceAdd x v reducesTo_S4096_S_d0 h_S_) : (⟨S4096, .f32⟩ : BufTy).Contents (Elt F) → (⟨S_, .f32⟩ : BufTy).Contents (Elt F) → (⟨S_, .f32⟩ : BufTy).Contents (Elt F)),
    StableHlo.nullary main_cst_10 (constant S_ .f32 0x45800000#32),
    StableHlo.binary main_v45 main_cst_10 main_v46 (Host.divf : (⟨S_, .f32⟩ : BufTy).Contents (Elt F) → (⟨S_, .f32⟩ : BufTy).Contents (Elt F) → (⟨S_, .f32⟩ : BufTy).Contents (Elt F)),
    StableHlo.unary main_v46 main_v47 (Host.negf : (⟨S_, .f32⟩ : BufTy).Contents (Elt F) → (⟨S_, .f32⟩ : BufTy).Contents (Elt F)) ]

end Cert.ReferenceIdeal.RefRun

end
-- ==== Proof.RefRunMain.lean ====
/-
  The reference program's @main is the straight line of its 101 host operations: with the helper functions'
  definitions unfolded at their call sites and the calls' buffer records at their fields, both sides are one chain
  of operation steps once sequencing is reassociated.  Every operation touches TensorCore buffers only and the
  signature scopes nothing, so every weakly fair execution of @main terminates with each buffer at the fold of the
  operations' results over the launch contents.
-/
import proofs.«171112_j24275155156992_1_alg».proof.Proof.Gen.ReferenceIdeal
import Idealize.ShloMosaic.Lib.StableHlo.Run
import proofs.«171112_j24275155156992_1_alg».proof.Proof.RefRunOps

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
/-- @main is that straight line. -/
theorem main_eq (c : Dev nD) : main (F := F) c = seq ops := by
  simp only [main, main_part0, main_part1, fn_remainder.body, fn_remainder_0.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨binary_bufs_sub .., binary_bufs_sub .., nullary_bufs_sub .., binary_bufs_sub .., unary_bufs_sub .., unary_bufs_sub ..,
    nullary_bufs_sub .., unary_bufs_sub .., binary_bufs_sub .., unary_bufs_sub .., binary_bufs_sub .., binary_bufs_sub ..,
    nullary_bufs_sub .., unary_bufs_sub .., binary_bufs_sub .., nullary_bufs_sub .., unary_bufs_sub .., nullary_bufs_sub ..,
    unary_bufs_sub .., nullary_bufs_sub .., binary_bufs_sub .., nullary_bufs_sub .., ternary_bufs_sub .., unary_bufs_sub ..,
    binary_bufs_sub .., nullary_bufs_sub .., unary_bufs_sub .., binary_bufs_sub .., nullary_bufs_sub .., unary_bufs_sub ..,
    binary_bufs_sub .., nullary_bufs_sub .., binary_bufs_sub .., unary_bufs_sub .., binary_bufs_sub .., binary_bufs_sub ..,
    unary_bufs_sub .., binary_bufs_sub .., ternary_bufs_sub .., unary_bufs_sub .., nullary_bufs_sub .., unary_bufs_sub ..,
    nullary_bufs_sub .., binary_bufs_sub .., nullary_bufs_sub .., ternary_bufs_sub .., unary_bufs_sub .., binary_bufs_sub ..,
    nullary_bufs_sub .., unary_bufs_sub .., binary_bufs_sub .., nullary_bufs_sub .., unary_bufs_sub .., binary_bufs_sub ..,
    nullary_bufs_sub .., binary_bufs_sub .., unary_bufs_sub .., binary_bufs_sub .., binary_bufs_sub .., unary_bufs_sub ..,
    binary_bufs_sub .., ternary_bufs_sub .., unary_bufs_sub .., unary_bufs_sub .., binary_bufs_sub .., unary_bufs_sub ..,
    unary_bufs_sub .., binary_bufs_sub .., nullary_bufs_sub .., binary_bufs_sub .., nullary_bufs_sub .., nullary_bufs_sub ..,
    unary_bufs_sub .., binary_bufs_sub .., nullary_bufs_sub .., unary_bufs_sub .., binary_bufs_sub .., nullary_bufs_sub ..,
    unary_bufs_sub .., binary_bufs_sub .., ternary_bufs_sub .., nullary_bufs_sub .., unary_bufs_sub .., binary_bufs_sub ..,
    nullary_bufs_sub .., unary_bufs_sub .., binary_bufs_sub .., ternary_bufs_sub .., unary_bufs_sub .., unary_bufs_sub ..,
    binary_bufs_sub .., binary_bufs_sub .., unary_bufs_sub .., unary_bufs_sub .., binary_bufs_sub .., unary_bufs_sub ..,
    nullary_bufs_sub .., binary_bufs_sub .., nullary_bufs_sub .., binary_bufs_sub .., unary_bufs_sub ..⟩

/-- At the compiled mesh, for any float values, from any memory with zero counters: every weakly fair execution of
    @main on the TensorCores terminates, and every final state has each TensorCore buffer at the operations' fold
    over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefRun

end
-- ==== Proof.RefTerm.lean ====
/-
  The reference program's host operations, composed in program order into one function of the two
  argument arrays: each line is one operation of the program applied to the values named before it,
  the two calls of the remainder function written out operation by operation at their operands.
-/
import proofs.«171112_j24275155156992_1_alg».proof.ReferenceIdeal
import Idealize.ShloMosaic.PureOps.Ideal

noncomputable section

namespace Cert.ReferenceIdeal.RefValue

open Cert.ReferenceIdeal Idealize.ShloMosaic

variable [Facts]
open Facts₀ Facts

/-- The value of the program's result as a function of its two arguments. -/
noncomputable def refTerm (a b : FVec Ideal S4096x256 .f32) : FVec Ideal S_ .f32 :=
  have v0 : FVec Ideal S8192x256 .f32 := concatenate S8192x256 0 [⟨S4096x256, a⟩, ⟨S4096x256, b⟩] concatenates_S4096x256_S4096x256_S8192x256_d0
  have v1 : FVec Ideal S8192x256 .f32 := mulf v0 v0
  have cst : FVec Ideal S_ .f32 := constant (F := Ideal) S_ .f32 0x00000000#32
  have v2 : FVec Ideal S8192 .f32 := Host.reduceAdd v1 cst reducesTo_S8192x256_S8192_d1 h_S_
  have v3 : FVec Ideal S8192x1 .f32 := broadcastInDim S8192x1 ![0] bcast_S8192_S8192x1_0 v2
  have v4 : FVec Ideal S8192x1 .f32 := Host.sqrt v3
  have cst_0 : FVec Ideal S_ .f32 := constant (F := Ideal) S_ .f32 0x322BCC77#32
  have v5 : FVec Ideal S8192x1 .f32 := broadcastInDim S8192x1 ![] bcast_S_S8192x1 cst_0
  have v6 : FVec Ideal S8192x1 .f32 := maximumf v4 v5
  have v7 : FVec Ideal S8192x256 .f32 := broadcastInDim S8192x256 ![0, 1] bcast_S8192x1_S8192x256_0_1 v6
  have v8 : FVec Ideal S8192x256 .f32 := Host.divf v0 v7
  have v9 : FVec Ideal S8192x8192 .f32 := Host.dotGeneral dot_S8192x256_S8192x256_S8192x8192_1_1_0_0_n_n none v8 v8
  have cst_1 : FVec Ideal S_ .f32 := constant (F := Ideal) S_ .f32 0x3F000000#32
  have v10 : FVec Ideal S8192x8192 .f32 := broadcastInDim S8192x8192 ![] bcast_S_S8192x8192 cst_1
  have v11 : FVec Ideal S8192x8192 .f32 := Host.divf v9 v10
  have v12 : IVec S8192 32 := iotaInDim S8192 32 0
  have v13 : IVec S8192x1 32 := broadcastInDim S8192x1 ![0] bcast_S8192_S8192x1_0 v12
  have c : IVec S_ 32 := constantI S_ 32 4096#32
  -- the first remainder call, on (v13, c)
  have call0_v0 : IVec S_ 32 := id c
  have call0_c : IVec S_ 32 := constantI S_ 32 0#32
  have call0_v1 : IVec S_ 1 := cmpi .eq call0_v0 call0_c
  have call0_c_0 : IVec S_ 32 := constantI S_ 32 1#32
  have call0_v2 : IVec S_ 32 := select call0_v1 call0_c_0 call0_v0
  have call0_v3 : IVec S8192x1 32 := broadcastInDim S8192x1 ![] bcast_S_S8192x1 call0_v2
  have call0_v4 : IVec S8192x1 32 := Host.remsi v13 call0_v3
  have call0_c_1 : IVec S_ 32 := constantI S_ 32 0#32
  have call0_v5 : IVec S8192x1 32 := broadcastInDim S8192x1 ![] bcast_S_S8192x1 call0_c_1
  have call0_v6 : IVec S8192x1 1 := cmpi .ne call0_v4 call0_v5
  have call0_c_2 : IVec S_ 32 := constantI S_ 32 0#32
  have call0_v7 : IVec S8192x1 32 := broadcastInDim S8192x1 ![] bcast_S_S8192x1 call0_c_2
  have call0_v8 : IVec S8192x1 1 := cmpi .slt call0_v4 call0_v7
  have call0_c_3 : IVec S_ 32 := constantI S_ 32 0#32
  have call0_v9 : IVec S_ 1 := cmpi .slt call0_v2 call0_c_3
  have call0_v10 : IVec S8192x1 1 := broadcastInDim S8192x1 ![] bcast_S_S8192x1 call0_v9
  have call0_v11 : IVec S8192x1 1 := cmpi .ne call0_v8 call0_v10
  have call0_v12 : IVec S8192x1 1 := andi call0_v11 call0_v6
  have call0_v13 : IVec S8192x1 32 := broadcastInDim S8192x1 ![] bcast_S_S8192x1 call0_v2
  have call0_v14 : IVec S8192x1 32 := addi call0_v4 call0_v13
  have v14 : IVec S8192x1 32 := select call0_v12 call0_v14 call0_v4
  have v15 : IVec S1x8192 32 := broadcastInDim S1x8192 ![1] bcast_S8192_S1x8192_1 v12
  have c_2 : IVec S_ 32 := constantI S_ 32 4096#32
  -- the second remainder call, on (v15, c_2)
  have call1_v0 : IVec S_ 32 := id c_2
  have call1_c : IVec S_ 32 := constantI S_ 32 0#32
  have call1_v1 : IVec S_ 1 := cmpi .eq call1_v0 call1_c
  have call1_c_0 : IVec S_ 32 := constantI S_ 32 1#32
  have call1_v2 : IVec S_ 32 := select call1_v1 call1_c_0 call1_v0
  have call1_v3 : IVec S1x8192 32 := broadcastInDim S1x8192 ![] bcast_S_S1x8192 call1_v2
  have call1_v4 : IVec S1x8192 32 := Host.remsi v15 call1_v3
  have call1_c_1 : IVec S_ 32 := constantI S_ 32 0#32
  have call1_v5 : IVec S1x8192 32 := broadcastInDim S1x8192 ![] bcast_S_S1x8192 call1_c_1
  have call1_v6 : IVec S1x8192 1 := cmpi .ne call1_v4 call1_v5
  have call1_c_2 : IVec S_ 32 := constantI S_ 32 0#32
  have call1_v7 : IVec S1x8192 32 := broadcastInDim S1x8192 ![] bcast_S_S1x8192 call1_c_2
  have call1_v8 : IVec S1x8192 1 := cmpi .slt call1_v4 call1_v7
  have call1_c_3 : IVec S_ 32 := constantI S_ 32 0#32
  have call1_v9 : IVec S_ 1 := cmpi .slt call1_v2 call1_c_3
  have call1_v10 : IVec S1x8192 1 := broadcastInDim S1x8192 ![] bcast_S_S1x8192 call1_v9
  have call1_v11 : IVec S1x8192 1 := cmpi .ne call1_v8 call1_v10
  have call1_v12 : IVec S1x8192 1 := andi call1_v11 call1_v6
  have call1_v13 : IVec S1x8192 32 := broadcastInDim S1x8192 ![] bcast_S_S1x8192 call1_v2
  have call1_v14 : IVec S1x8192 32 := addi call1_v4 call1_v13
  have v16 : IVec S1x8192 32 := select call1_v12 call1_v14 call1_v4
  have v17 : IVec S8192x8192 32 := broadcastInDim S8192x8192 ![0, 1] bcast_S8192x1_S8192x8192_0_1 v14
  have v18 : IVec S8192x8192 32 := broadcastInDim S8192x8192 ![0, 1] bcast_S1x8192_S8192x8192_0_1 v16
  have v19 : IVec S8192x8192 1 := cmpi .ne v17 v18
  have v20 : FVec Ideal S8192x8192 .f32 := Host.exp v11
  have v21 : FVec Ideal S8192x8192 .f32 := uitofp (F := Ideal) .f32 v19
  have v22 : FVec Ideal S8192x8192 .f32 := mulf v20 v21
  have cst_3 : FVec Ideal S_ .f32 := constant (F := Ideal) S_ .f32 0x00000000#32
  have v23 : FVec Ideal S8192 .f32 := Host.reduceAdd v22 cst_3 reducesTo_S8192x8192_S8192_d1 h_S_
  have v24 : IVec S4096 32 := iotaInDim S4096 32 0
  have c_4 : IVec S_ 32 := constantI S_ 32 4096#32
  have v25 : IVec S4096 32 := broadcastInDim S4096 ![] bcast_S_S4096 c_4
  have v26 : IVec S4096 32 := addi v25 v24
  have c_5 : IVec S_ 32 := constantI S_ 32 0#32
  have v27 : IVec S4096 32 := broadcastInDim S4096 ![] bcast_S_S4096 c_5
  have v28 : IVec S4096 1 := cmpi .slt v24 v27
  have c_6 : IVec S_ 32 := constantI S_ 32 8192#32
  have v29 : IVec S4096 32 := broadcastInDim S4096 ![] bcast_S_S4096 c_6
  have v30 : IVec S4096 32 := addi v24 v29
  have v31 : IVec S4096 32 := select v28 v30 v24
  have c_7 : IVec S_ 32 := constantI S_ 32 0#32
  have v32 : IVec S4096 32 := broadcastInDim S4096 ![] bcast_S_S4096 c_7
  have v33 : IVec S4096 1 := cmpi .slt v26 v32
  have c_8 : IVec S_ 32 := constantI S_ 32 8192#32
  have v34 : IVec S4096 32 := broadcastInDim S4096 ![] bcast_S_S4096 c_8
  have v35 : IVec S4096 32 := addi v26 v34
  have v36 : IVec S4096 32 := select v33 v35 v26
  have v37 : IVec S4096x1 32 := broadcastInDim S4096x1 ![0] bcast_S4096_S4096x1_0 v31
  have v38 : IVec S4096x1 32 := broadcastInDim S4096x1 ![0] bcast_S4096_S4096x1_0 v36
  have v39 : IVec S4096x2 32 := concatenate S4096x2 1 [⟨S4096x1, v37⟩, ⟨S4096x1, v38⟩] concatenates_S4096x1_S4096x1_S4096x2_d1
  have v40 : FVec Ideal S4096 .f32 := Host.gather gather_S8192x8192_S4096x2_S4096_n_01_n_n_01_1_11 v11 v39
  have v41 : FVec Ideal S4096 .f32 := extractStridedSlice S4096 ![0] v23 slices_S8192_S4096_0
  have v42 : FVec Ideal S4096 .f32 := Host.exp v40
  have v43 : FVec Ideal S4096 .f32 := Host.divf v42 v41
  have v44 : FVec Ideal S4096 .f32 := Host.log v43
  have cst_9 : FVec Ideal S_ .f32 := constant (F := Ideal) S_ .f32 0x00000000#32
  have v45 : FVec Ideal S_ .f32 := Host.reduceAdd v44 cst_9 reducesTo_S4096_S_d0 h_S_
  have cst_10 : FVec Ideal S_ .f32 := constant (F := Ideal) S_ .f32 0x45800000#32
  have v46 : FVec Ideal S_ .f32 := Host.divf v45 cst_10
  Host.negf v46

end Cert.ReferenceIdeal.RefValue

end
-- ==== Proof.RefRunValue.lean ====
/-
  What the fold of the reference program's 101 host operations leaves in three buffers, from any contents `V`:
  the two argument buffers are written by no operation and keep their contents; and, over the extended reals,
  the result buffer holds the composition of the operations' functions in program order applied to the two
  arguments' contents.  Each statement holds by unrolling the fold: at every operation the buffer read is either
  the one that operation writes (then its function's value of the operands' contents, read one stage earlier) or
  another (then what was there).  Nothing is evaluated: the whole-array functions (the contraction, the sums, the
  gather, the concatenations, the broadcasts, the pointwise maps) stay folded, and both sides are the same
  composition of them.
-/
import proofs.«171112_j24275155156992_1_alg».proof.Proof.Gen.ReferenceIdeal
import Idealize.ShloMosaic.Lib.StableHlo.Run
import proofs.«171112_j24275155156992_1_alg».proof.Proof.RefRunOps
import proofs.«171112_j24275155156992_1_alg».proof.Proof.RefTerm

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- No operation writes the first argument's buffer. -/
theorem arg0_eq (V : Valuation τ sig (Elt F)) :
    after ops V (main_arg0 : DevRef τ sig) = V (main_arg0 : DevRef τ sig) := by
  simp only [after_cons, after_nil]
  rfl

/-- No operation writes the second argument's buffer. -/
theorem arg1_eq (V : Valuation τ sig (Elt F)) :
    after ops V (main_arg1 : DevRef τ sig) = V (main_arg1 : DevRef τ sig) := by
  simp only [after_cons, after_nil]
  rfl

attribute [local irreducible] Host.reduceAdd Host.gather Host.divf Host.exp Host.log Host.sqrt Host.negf Host.remsi concatenate iotaInDim broadcastInDim extractStridedSlice mulf maximumf constant constantI cmpi select andi addi uitofp in
set_option maxRecDepth 65536 in
set_option maxHeartbeats 4000000 in
/-- Over the extended reals the fold at the result buffer is the composed term of the two arguments' contents:
    the fold unrolled, each operation's result decides whether the buffer read is the one it writes, and the typed
    references' transports are the identity at these literal references — all by computation.  The whole-array
    functions are kept folded meanwhile: the equation never looks inside them. -/
theorem out_eq (V : Valuation τ sig (Elt Ideal)) :
    after ops V (main_v47 : DevRef τ sig)
      = Cert.ReferenceIdeal.RefValue.refTerm (V (main_arg0 : DevRef τ sig)) (V (main_arg1 : DevRef τ sig)) := by
  simp only [after_cons, after_nil]
  rfl

end Cert.ReferenceIdeal.RefRun

end
-- ==== Proof.RefRun.lean ====
/-
  The reference program's run over the extended reals: from any memory with zero counters every weakly fair
  execution of @main terminates, the result buffer then holds the composition of the program's operations applied
  to the two arguments' launch contents, and the two argument buffers hold what they held at launch.  It is the
  straight-line run (every buffer ends at the fold of the 101 operations over the launch contents) read at the
  result buffer and at the two argument buffers.
-/
import proofs.«171112_j24275155156992_1_alg».proof.Proof.Gen.ReferenceIdeal
import Idealize.ShloMosaic.Lib.StableHlo.Run
import proofs.«171112_j24275155156992_1_alg».proof.Proof.RefRunMain
import proofs.«171112_j24275155156992_1_alg».proof.Proof.RefRunValue

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- On every device, from any memory with zero counters: every weakly fair execution of @main terminates with the
    result at the operations' composed term of the arguments' launch contents and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v47) = Cert.ReferenceIdeal.RefValue.refTerm (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v47).trans (out_eq (launchContents m c)),
      (h c main_arg0).trans (arg0_eq (launchContents m c)),
      (h c main_arg1).trans (arg1_eq (launchContents m c))⟩)
    (run_main m ρ)

end Cert.ReferenceIdeal.RefRun

end
-- ==== Proof.RefValStages.lean ====
/-
  The reference's composition cut into named stages: the stacked matrix, the clamped row norms, the
  normalized rows, the similarity matrix, the two row-number remainders and the 0/1 mask, the row
  denominators, the start indices of the positive entries, and the final mean. The whole composition
  is these stages applied in turn.
-/
import proofs.«171112_j24275155156992_1_alg».proof.Proof.RefTerm

noncomputable section

namespace Cert.ReferenceIdeal.RefValue

open Cert.ReferenceIdeal Idealize.ShloMosaic

variable [Facts]
open Facts₀ Facts

/-- The two arguments stacked: 8192 rows. -/
def sE (a b : FVec Ideal S4096x256 .f32) : FVec Ideal S8192x256 .f32 :=
  concatenate S8192x256 0 [⟨S4096x256, a⟩, ⟨S4096x256, b⟩] concatenates_S4096x256_S4096x256_S8192x256_d0

/-- The clamped Euclidean norm of each row, as a column. -/
def sNrm (E : FVec Ideal S8192x256 .f32) : FVec Ideal S8192x1 .f32 :=
  maximumf
    (Host.sqrt (broadcastInDim S8192x1 ![0] bcast_S8192_S8192x1_0
      (Host.reduceAdd (mulf E E) (constant (F := Ideal) S_ .f32 0x00000000#32) reducesTo_S8192x256_S8192_d1 h_S_)))
    (broadcastInDim S8192x1 ![] bcast_S_S8192x1 (constant (F := Ideal) S_ .f32 0x322BCC77#32))

/-- Each row divided by its clamped norm. -/
def sNz (E : FVec Ideal S8192x256 .f32) : FVec Ideal S8192x256 .f32 :=
  Host.divf E (broadcastInDim S8192x256 ![0, 1] bcast_S8192x1_S8192x256_0_1 (sNrm E))

/-- The inner products of the rows of `Z`, divided by one half. -/
def sSim (Z : FVec Ideal S8192x256 .f32) : FVec Ideal S8192x8192 .f32 :=
  Host.divf (Host.dotGeneral dot_S8192x256_S8192x256_S8192x8192_1_1_0_0_n_n none Z Z)
    (broadcastInDim S8192x8192 ![] bcast_S_S8192x8192 (constant (F := Ideal) S_ .f32 0x3F000000#32))

/-- The row numbers 0 … 8191. -/
def sIota : IVec S8192 32 := iotaInDim S8192 32 0

/-- The row numbers modulo 4096, as a column: the remainder function's operations on the column of row numbers. -/
def sRem1 : IVec S8192x1 32 :=
  have v13 : IVec S8192x1 32 := broadcastInDim S8192x1 ![0] bcast_S8192_S8192x1_0 sIota
  have c : IVec S_ 32 := constantI S_ 32 4096#32
  have call0_v0 : IVec S_ 32 := id c
  have call0_c : IVec S_ 32 := constantI S_ 32 0#32
  have call0_v1 : IVec S_ 1 := cmpi .eq call0_v0 call0_c
  have call0_c_0 : IVec S_ 32 := constantI S_ 32 1#32
  have call0_v2 : IVec S_ 32 := select call0_v1 call0_c_0 call0_v0
  have call0_v3 : IVec S8192x1 32 := broadcastInDim S8192x1 ![] bcast_S_S8192x1 call0_v2
  have call0_v4 : IVec S8192x1 32 := Host.remsi v13 call0_v3
  have call0_c_1 : IVec S_ 32 := constantI S_ 32 0#32
  have call0_v5 : IVec S8192x1 32 := broadcastInDim S8192x1 ![] bcast_S_S8192x1 call0_c_1
  have call0_v6 : IVec S8192x1 1 := cmpi .ne call0_v4 call0_v5
  have call0_c_2 : IVec S_ 32 := constantI S_ 32 0#32
  have call0_v7 : IVec S8192x1 32 := broadcastInDim S8192x1 ![] bcast_S_S8192x1 call0_c_2
  have call0_v8 : IVec S8192x1 1 := cmpi .slt call0_v4 call0_v7
  have call0_c_3 : IVec S_ 32 := constantI S_ 32 0#32
  have call0_v9 : IVec S_ 1 := cmpi .slt call0_v2 call0_c_3
  have call0_v10 : IVec S8192x1 1 := broadcastInDim S8192x1 ![] bcast_S_S8192x1 call0_v9
  have call0_v11 : IVec S8192x1 1 := cmpi .ne call0_v8 call0_v10
  have call0_v12 : IVec S8192x1 1 := andi call0_v11 call0_v6
  have call0_v13 : IVec S8192x1 32 := broadcastInDim S8192x1 ![] bcast_S_S8192x1 call0_v2
  have call0_v14 : IVec S8192x1 32 := addi call0_v4 call0_v13
  select call0_v12 call0_v14 call0_v4

/-- The row numbers modulo 4096, as a row: the same operations on the row of row numbers. -/
def sRem2 : IVec S1x8192 32 :=
  have v15 : IVec S1x8192 32 := broadcastInDim S1x8192 ![1] bcast_S8192_S1x8192_1 sIota
  have c_2 : IVec S_ 32 := constantI S_ 32 4096#32
  have call1_v0 : IVec S_ 32 := id c_2
  have call1_c : IVec S_ 32 := constantI S_ 32 0#32
  have call1_v1 : IVec S_ 1 := cmpi .eq call1_v0 call1_c
  have call1_c_0 : IVec S_ 32 := constantI S_ 32 1#32
  have call1_v2 : IVec S_ 32 := select call1_v1 call1_c_0 call1_v0
  have call1_v3 : IVec S1x8192 32 := broadcastInDim S1x8192 ![] bcast_S_S1x8192 call1_v2
  have call1_v4 : IVec S1x8192 32 := Host.remsi v15 call1_v3
  have call1_c_1 : IVec S_ 32 := constantI S_ 32 0#32
  have call1_v5 : IVec S1x8192 32 := broadcastInDim S1x8192 ![] bcast_S_S1x8192 call1_c_1
  have call1_v6 : IVec S1x8192 1 := cmpi .ne call1_v4 call1_v5
  have call1_c_2 : IVec S_ 32 := constantI S_ 32 0#32
  have call1_v7 : IVec S1x8192 32 := broadcastInDim S1x8192 ![] bcast_S_S1x8192 call1_c_2
  have call1_v8 : IVec S1x8192 1 := cmpi .slt call1_v4 call1_v7
  have call1_c_3 : IVec S_ 32 := constantI S_ 32 0#32
  have call1_v9 : IVec S_ 1 := cmpi .slt call1_v2 call1_c_3
  have call1_v10 : IVec S1x8192 1 := broadcastInDim S1x8192 ![] bcast_S_S1x8192 call1_v9
  have call1_v11 : IVec S1x8192 1 := cmpi .ne call1_v8 call1_v10
  have call1_v12 : IVec S1x8192 1 := andi call1_v11 call1_v6
  have call1_v13 : IVec S1x8192 32 := broadcastInDim S1x8192 ![] bcast_S_S1x8192 call1_v2
  have call1_v14 : IVec S1x8192 32 := addi call1_v4 call1_v13
  select call1_v12 call1_v14 call1_v4

/-- The mask: 1 where the two row numbers differ modulo 4096, 0 where they agree. -/
def sMask : FVec Ideal S8192x8192 .f32 :=
  uitofp (F := Ideal) .f32
    (cmpi .ne (broadcastInDim S8192x8192 ![0, 1] bcast_S8192x1_S8192x8192_0_1 sRem1)
      (broadcastInDim S8192x8192 ![0, 1] bcast_S1x8192_S8192x8192_0_1 sRem2))

/-- The denominator of each row: the sum of the masked exponentials of its similarities. -/
def sDen (S : FVec Ideal S8192x8192 .f32) : FVec Ideal S8192 .f32 :=
  Host.reduceAdd (mulf (Host.exp S) sMask) (constant (F := Ideal) S_ .f32 0x00000000#32)
    reducesTo_S8192x8192_S8192_d1 h_S_

/-- The start indices of the positive entries: row `i` holds `(i, 4096 + i)`, each put through the wrap of a negative index. -/
def sIdx : IVec S4096x2 32 :=
  have v24 : IVec S4096 32 := iotaInDim S4096 32 0
  have c_4 : IVec S_ 32 := constantI S_ 32 4096#32
  have v25 : IVec S4096 32 := broadcastInDim S4096 ![] bcast_S_S4096 c_4
  have v26 : IVec S4096 32 := addi v25 v24
  have c_5 : IVec S_ 32 := constantI S_ 32 0#32
  have v27 : IVec S4096 32 := broadcastInDim S4096 ![] bcast_S_S4096 c_5
  have v28 : IVec S4096 1 := cmpi .slt v24 v27
  have c_6 : IVec S_ 32 := constantI S_ 32 8192#32
  have v29 : IVec S4096 32 := broadcastInDim S4096 ![] bcast_S_S4096 c_6
  have v30 : IVec S4096 32 := addi v24 v29
  have v31 : IVec S4096 32 := select v28 v30 v24
  have c_7 : IVec S_ 32 := constantI S_ 32 0#32
  have v32 : IVec S4096 32 := broadcastInDim S4096 ![] bcast_S_S4096 c_7
  have v33 : IVec S4096 1 := cmpi .slt v26 v32
  have c_8 : IVec S_ 32 := constantI S_ 32 8192#32
  have v34 : IVec S4096 32 := broadcastInDim S4096 ![] bcast_S_S4096 c_8
  have v35 : IVec S4096 32 := addi v26 v34
  have v36 : IVec S4096 32 := select v33 v35 v26
  have v37 : IVec S4096x1 32 := broadcastInDim S4096x1 ![0] bcast_S4096_S4096x1_0 v31
  have v38 : IVec S4096x1 32 := broadcastInDim S4096x1 ![0] bcast_S4096_S4096x1_0 v36
  concatenate S4096x2 1 [⟨S4096x1, v37⟩, ⟨S4096x1, v38⟩] concatenates_S4096x1_S4096x1_S4096x2_d1

/-- The loss from the similarity matrix: minus the mean over the first 4096 rows of the logarithm of the
    exponential of the positive entry over the row's denominator. -/
def sOut (S : FVec Ideal S8192x8192 .f32) : FVec Ideal S_ .f32 :=
  Host.negf
    (Host.divf
      (Host.reduceAdd
        (Host.log
          (Host.divf (Host.exp (Host.gather gather_S8192x8192_S4096x2_S4096_n_01_n_n_01_1_11 S sIdx))
            (extractStridedSlice S4096 ![0] (sDen S) slices_S8192_S4096_0)))
        (constant (F := Ideal) S_ .f32 0x00000000#32) reducesTo_S4096_S_d0 h_S_)
      (constant (F := Ideal) S_ .f32 0x45800000#32))

/-- The composition is the stages in turn. -/
theorem refTerm_stages (a b : FVec Ideal S4096x256 .f32) : refTerm a b = sOut (sSim (sNz (sE a b))) := rfl

end Cert.ReferenceIdeal.RefValue

end
-- ==== Proof.RefValFloat.lean ====
/-
  The float stages of the reference read at an index: the stacked matrix is the closed formula's stack,
  the clamped norm column its norm, the normalized rows its normalized rows, and the similarity matrix
  its similarity.
-/
import proofs.«171112_j24275155156992_1_alg».proof.Proof.RefValStages
import proofs.«171112_j24275155156992_1_alg».proof.Proof.LibHostIx
import proofs.«171112_j24275155156992_1_alg».proof.Proof.Spec

noncomputable section

open scoped BigOperators

namespace Cert.ReferenceIdeal.RefValue

open Cert.ReferenceIdeal Idealize.ShloMosaic Idealize.ShloMosaic.ValueIdx Cert.RefValLib

variable [Facts]
open Facts₀ Facts

/-- The stacked matrix at row p, column k: the first argument's row p when p < 4096, else the second's row p − 4096. -/
theorem sE_apply (a b : FVec Ideal S4096x256 .f32) (p : Fin 8192) (k : Fin 256) :
    sE a b (ix2 p k) = Cert.Spec.stack (fun i k => a (ix2 i k)) (fun i k => b (ix2 i k)) p k := by
  have hp := p.isLt
  unfold Cert.Spec.stack sE
  by_cases h : p.val < 4096
  · rw [dif_pos h]
    exact concatenate_rows_apply_left a b _ p k h
  · rw [dif_neg h]
    exact concatenate_rows_apply_right a b _ p k ⟨p.val - 4096, by omega⟩
      (by show p.val = 4096 + (p.val - 4096); omega)

/-- The clamped norm column at row p: the larger of the square root of the row's sum of squares and the clamp. -/
theorem sNrm_apply (E : FVec Ideal S8192x256 .f32) (p : Fin 8192) (z : Fin 1) :
    sNrm E (ix2 p z) = Cert.Spec.nrm (fun p k => E (ix2 p k)) p := by
  show max (Ideal.sqrt (broadcastInDim S8192x1 ![0] bcast_S8192_S8192x1_0
      (Host.reduceAdd (F := Ideal) (mulf E E) (constant (F := Ideal) S_ .f32 0x00000000#32)
        reducesTo_S8192x256_S8192_d1 h_S_) (ix2 p z)))
      (broadcastInDim S8192x1 ![] bcast_S_S8192x1 (constant (F := Ideal) S_ .f32 0x322BCC77#32) (ix2 p z)) = _
  rw [broadcastInDim_col_apply, broadcastInDim_scalar_apply,
    hostReduceAdd_rows (mulf E E) _ reducesTo_S8192x256_S8192_d1 h_S_ (by decide) p]
  show max (Ideal.sqrt (Ideal.ofBits .f32 0x00000000#32 + ∑ k : Fin 256, E (ix2 p k) * E (ix2 p k)))
      (Ideal.ofBits .f32 0x322BCC77#32) = _
  rw [Ideal.ofBits_zero_f32, zero_add]
  rfl

/-- The normalized matrix at (p, k): the entry divided by the row's clamped norm. -/
theorem sNz_apply (E : FVec Ideal S8192x256 .f32) (p : Fin 8192) (k : Fin 256) :
    sNz E (ix2 p k) = Cert.Spec.nz (fun p k => E (ix2 p k)) p k := by
  show Ideal.div (E (ix2 p k))
      (broadcastInDim S8192x256 ![0, 1] bcast_S8192x1_S8192x256_0_1 (sNrm E) (ix2 p k)) = _
  rw [broadcastInDim_colwide_apply, sNrm_apply]
  rfl

/-- The similarity matrix of Z at (p, q): the inner product of rows p and q divided by one half. -/
theorem sSim_apply (Z : FVec Ideal S8192x256 .f32) (p q : Fin 8192) :
    sSim Z (ix2 p q) = Ideal.div (∑ k : Fin 256, Z (ix2 p k) * Z (ix2 q k)) Cert.Spec.half := by
  show Ideal.div (Host.dotGeneral (F := Ideal) dot_S8192x256_S8192x256_S8192x8192_1_1_0_0_n_n none Z Z (ix2 p q))
      (broadcastInDim S8192x8192 ![] bcast_S_S8192x8192 (constant (F := Ideal) S_ .f32 0x3F000000#32) (ix2 p q)) = _
  rw [broadcastInDim_scalar_apply]
  have hd := dotGeneral_nt_apply (M := 8192) (N := 8192) (K := 256)
    dot_S8192x256_S8192x256_S8192x8192_1_1_0_0_n_n_wf none Z Z p q
  exact congrArg (fun t => Ideal.div t (Ideal.ofBits .f32 0x3F000000#32)) hd

/-- The similarity matrix of the normalized rows of E at (p, q) is the closed formula's similarity. -/
theorem sSim_sNz_apply (E : FVec Ideal S8192x256 .f32) (p q : Fin 8192) :
    sSim (sNz E) (ix2 p q) = Cert.Spec.simR (fun p k => E (ix2 p k)) p q := by
  rw [sSim_apply]
  simp only [sNz_apply]
  rfl

/-- The stacked matrix, curried, is the closed formula's stack. -/
theorem sE_cur (a b : FVec Ideal S4096x256 .f32) :
    (fun p k => sE a b (ix2 p k)) = Cert.Spec.stack (fun i k => a (ix2 i k)) (fun i k => b (ix2 i k)) :=
  funext fun p => funext fun k => sE_apply a b p k

end Cert.ReferenceIdeal.RefValue

end
-- ==== Proof.RefValMask.lean ====
/-
  The integer stages of the reference read at an index. The remainder function's operations on the word of
  a row number below 8192 give the word of that number modulo 4096 (the divisor 4096 is positive, so the
  sign correction never fires); the mask is therefore 1 exactly where the two row numbers differ modulo
  4096. The start indices of the positive entries are the words of i and of 4096 + i (the wrap of a
  negative index never fires either).
-/
import proofs.«171112_j24275155156992_1_alg».proof.Proof.RefValStages
import proofs.«171112_j24275155156992_1_alg».proof.Proof.LibHostIx
import proofs.«171112_j24275155156992_1_alg».proof.Proof.Spec

noncomputable section

namespace Cert.ReferenceIdeal.RefValue

open Cert.ReferenceIdeal Idealize.ShloMosaic Idealize.ShloMosaic.ValueIdx Cert.RefValLib

variable [Facts]
open Facts₀ Facts

/-- The divisor the remainder function computes with: 4096, or 1 were it zero. -/
def modWord : BitVec 32 := Scalar.select (IntOp.cmpi .eq 4096#32 0#32) 1#32 4096#32

theorem modWord_eq : modWord = 4096#32 := by decide

/-- The remainder function on one word: the truncated remainder by the divisor, plus the divisor where the
    remainder is nonzero and its sign differs from the divisor's. -/
def remWord (x : BitVec 32) : BitVec 32 :=
  Scalar.select
    (IntOp.andi
      (IntOp.cmpi .ne (IntOp.cmpi .slt (IntOp.remsi .host x modWord) 0#32) (IntOp.cmpi .slt modWord 0#32))
      (IntOp.cmpi .ne (IntOp.remsi .host x modWord) 0#32))
    (IntOp.addi (IntOp.remsi .host x modWord) modWord)
    (IntOp.remsi .host x modWord)

/-- On the word of a natural below 8192 the function gives the word of the natural modulo 4096. -/
theorem remWord_ofNat (n : Nat) (hn : n < 8192) : remWord (BitVec.ofNat 32 n) = BitVec.ofNat 32 (n % 4096) := by
  unfold remWord
  rw [modWord_eq, remsi_ofNat n hn, slt_zero_ofNat _ (by omega),
    (by decide : IntOp.cmpi .slt (4096#32) 0#32 = 0#1), (by decide : IntOp.cmpi .ne (0#1) (0#1) = 0#1)]
  have h0 : ∀ b : BitVec 1, IntOp.andi 0#1 b = 0#1 := fun b => by
    show 0#1 &&& b = 0#1
    simp
  rw [h0, select_zero]

/-- The column of remainders is the function applied to the column of row numbers. -/
theorem sRem1_eq (j : S8192x1.Idx) :
    sRem1 j = remWord (broadcastInDim S8192x1 ![0] bcast_S8192_S8192x1_0 sIota j) := rfl

/-- The row of remainders is the function applied to the row of row numbers. -/
theorem sRem2_eq (j : S1x8192.Idx) :
    sRem2 j = remWord (broadcastInDim S1x8192 ![1] bcast_S8192_S1x8192_1 sIota j) := rfl

/-- The column of remainders at row p: the word of p modulo 4096. -/
theorem sRem1_apply (p : Fin 8192) (z : Fin 1) : sRem1 (ix2 p z) = BitVec.ofNat 32 (p.val % 4096) := by
  rw [sRem1_eq, broadcastInDim_col_apply]
  exact remWord_ofNat p.val p.isLt

/-- The row of remainders at column q: the word of q modulo 4096. -/
theorem sRem2_apply (z : Fin 1) (q : Fin 8192) : sRem2 (ix2 z q) = BitVec.ofNat 32 (q.val % 4096) := by
  rw [sRem2_eq, broadcastInDim_row_apply]
  exact remWord_ofNat q.val q.isLt

/-- The mask at (p, q): zero where the row numbers agree modulo 4096, one elsewhere. -/
theorem sMask_apply (p q : Fin 8192) : sMask (ix2 p q) = Cert.Spec.maskR p q := by
  have hp := p.isLt
  have hq := q.isLt
  show (FloatOps.uitofp (F := Ideal) .f32 (IntOp.cmpi .ne
      (broadcastInDim S8192x8192 ![0, 1] bcast_S8192x1_S8192x8192_0_1 sRem1 (ix2 p q))
      (broadcastInDim S8192x8192 ![0, 1] bcast_S1x8192_S8192x8192_0_1 sRem2 (ix2 p q))) : EReal) = _
  rw [broadcastInDim_colwide_apply, broadcastInDim_rowwide_apply, sRem1_apply, sRem2_apply,
    cmpi_ne_ofNat _ _ (by omega) (by omega), uitofp_bit]
  unfold Cert.Spec.maskR
  by_cases e : p.val % 4096 = q.val % 4096
  · rw [if_pos e, if_pos e, if_neg (by decide)]
  · rw [if_neg e, if_neg e, if_pos rfl]

/-- The wrap of a negative index: 8192 is added to a negative word. -/
def wrapWord (x : BitVec 32) : BitVec 32 := Scalar.select (IntOp.cmpi .slt x 0#32) (IntOp.addi x 8192#32) x

/-- The wrap leaves the word of a natural below 2 ^ 31 alone. -/
theorem wrapWord_ofNat (n : Nat) (hn : n < 2 ^ 31) : wrapWord (BitVec.ofNat 32 n) = BitVec.ofNat 32 n := by
  unfold wrapWord
  rw [slt_zero_ofNat n hn, select_zero]

/-- The start indices are two columns side by side: the wrapped row numbers and the wrapped row numbers plus 4096. -/
theorem sIdx_eq : sIdx = concatenate S4096x2 1
    [⟨S4096x1, broadcastInDim S4096x1 ![0] bcast_S4096_S4096x1_0 (fun j => wrapWord (iotaInDim S4096 32 0 j))⟩,
     ⟨S4096x1, broadcastInDim S4096x1 ![0] bcast_S4096_S4096x1_0
        (fun j => wrapWord (IntOp.addi 4096#32 (iotaInDim S4096 32 0 j)))⟩]
    concatenates_S4096x1_S4096x1_S4096x2_d1 := rfl

/-- The first start-index component of row i: the word of i. -/
theorem sIdx_apply0 (i : Fin 4096) : sIdx (ix2 i (0 : Fin 2)) = BitVec.ofNat 32 i.val := by
  have hi := i.isLt
  rw [sIdx_eq, concatenate_cols2_apply_zero, broadcastInDim_col_apply]
  exact wrapWord_ofNat i.val (by omega)

/-- The second start-index component of row i: the word of 4096 + i. -/
theorem sIdx_apply1 (i : Fin 4096) : sIdx (ix2 i (1 : Fin 2)) = BitVec.ofNat 32 (4096 + i.val) := by
  have hi := i.isLt
  rw [sIdx_eq, concatenate_cols2_apply_one, broadcastInDim_col_apply]
  show wrapWord (4096#32 + BitVec.ofNat 32 i.val) = _
  rw [← BitVec.ofNat_add]
  exact wrapWord_ofNat _ (by omega)

end Cert.ReferenceIdeal.RefValue

end
-- ==== Proof.RefValue.lean ====
/-
  The reference's value: its composed host operations, as a function of the two arguments, are the closed
  formula for the reference's arrangement of the loss. Each row's denominator is the sum of the masked
  exponentials of its similarities; the positive entry of row i is picked at the start index (i, 4096 + i),
  which lies inside the matrix, so the clamp leaves it alone; the slice keeps the first 4096 denominators;
  and the result is minus the sum of the logarithms divided by 4096.
-/
import proofs.«171112_j24275155156992_1_alg».proof.Proof.RefValFloat
import proofs.«171112_j24275155156992_1_alg».proof.Proof.RefValMask

noncomputable section

open scoped BigOperators

namespace Cert.ReferenceIdeal.RefValue

open Cert.ReferenceIdeal Idealize.ShloMosaic Idealize.ShloMosaic.ValueIdx Cert.RefValLib

variable [Facts]
open Facts₀ Facts

/-- The denominator of row p of a similarity matrix S: the sum over q of exp S(p, q) times the mask. -/
theorem sDen_apply (S : FVec Ideal S8192x8192 .f32) (p : Fin 8192) :
    sDen S (ix1 p) = ∑ q : Fin 8192, Ideal.exp (S (ix2 p q)) * Cert.Spec.maskR p q := by
  unfold sDen
  rw [hostReduceAdd_rows _ _ reducesTo_S8192x8192_S8192_d1 h_S_ (by decide) p]
  show Ideal.ofBits .f32 0x00000000#32 + ∑ q : Fin 8192, Ideal.exp (S (ix2 p q)) * sMask (ix2 p q) = _
  rw [Ideal.ofBits_zero_f32, zero_add]
  exact Finset.sum_congr rfl fun q _ => by rw [sMask_apply]

/-- The word of a natural below 2 ^ 31, read as a signed integer, is the natural. -/
theorem toInt_toNat_ofNat (n : Nat) (hn : n < 2 ^ 31) : (BitVec.ofNat 32 n).toInt.toNat = n := by
  rw [BitVec.toInt_eq_toNat_of_msb (msb_ofNat_small n hn), Int.toNat_natCast, toNat_ofNat_lt n (by omega)]

/-- The gathered positive entry of row i: the similarity matrix at (i, 4096 + i). -/
theorem sPos_apply (S : FVec Ideal S8192x8192 .f32) (i : Fin 4096) :
    Host.gather gather_S8192x8192_S4096x2_S4096_n_01_n_n_01_1_11 S sIdx (ix1 i)
      = S (ix2 (⟨i.val, by omega⟩ : Fin 8192) (⟨4096 + i.val, by omega⟩ : Fin 8192)) := by
  have hi := i.isLt
  have hg := gather_elem_apply (M := 8192) (N := 8192) (R := 4096) (by decide) (by decide)
    gather_S8192x8192_S4096x2_S4096_n_01_n_n_01_1_11_wf S sIdx i
  have h0 : min (sIdx (ix2 i (0 : Fin 2))).toInt.toNat (8192 - 1) = i.val := by
    rw [sIdx_apply0, toInt_toNat_ofNat _ (by omega)]; omega
  have h1 : min (sIdx (ix2 i (1 : Fin 2))).toInt.toNat (8192 - 1) = 4096 + i.val := by
    rw [sIdx_apply1, toInt_toNat_ofNat _ (by omega)]; omega
  exact hg.trans (congrArg S (congrArg₂ (ix2 (n0 := 8192) (n1 := 8192)) (Fin.ext h0) (Fin.ext h1)))

/-- The sliced denominator of row i: the denominator of row i of the full vector. -/
theorem sDenSlice_apply (D : FVec Ideal S8192 .f32) (i : Fin 4096) :
    extractStridedSlice S4096 ![0] D slices_S8192_S4096_0 (ix1 i) = D (ix1 (⟨i.val, by omega⟩ : Fin 8192)) := by
  rw [slice1_apply]
  exact congrArg D (congrArg ix1 (Fin.ext (Nat.zero_add _)))

/-- The loss from a similarity matrix S, at the result's one index. -/
theorem sOut_apply (S : FVec Ideal S8192x8192 .f32) (j : S_.Idx) :
    sOut S j = -(Ideal.div (∑ i : Fin 4096,
      Ideal.log (Ideal.div (Ideal.exp (S (ix2 (⟨i.val, by omega⟩ : Fin 8192) (⟨4096 + i.val, by omega⟩ : Fin 8192))))
        (sDen S (ix1 (⟨i.val, by omega⟩ : Fin 8192))))) Cert.Spec.cnt) := by
  show -(Ideal.div (Host.reduceAdd (F := Ideal)
      (Host.log (Host.divf (Host.exp (Host.gather gather_S8192x8192_S4096x2_S4096_n_01_n_n_01_1_11 S sIdx))
        (extractStridedSlice S4096 ![0] (sDen S) slices_S8192_S4096_0)))
      (constant (F := Ideal) S_ .f32 0x00000000#32) reducesTo_S4096_S_d0 h_S_ j)
      (Ideal.ofBits .f32 0x45800000#32)) = _
  rw [hostReduceAdd_vec]
  show -(Ideal.div (Ideal.ofBits .f32 0x00000000#32 + ∑ i : Fin 4096,
      Ideal.log (Ideal.div (Ideal.exp (Host.gather gather_S8192x8192_S4096x2_S4096_n_01_n_n_01_1_11 S sIdx (ix1 i)))
        (extractStridedSlice S4096 ![0] (sDen S) slices_S8192_S4096_0 (ix1 i))))
      (Ideal.ofBits .f32 0x45800000#32)) = _
  rw [Ideal.ofBits_zero_f32, zero_add]
  refine congrArg Neg.neg (congrArg (fun t => Ideal.div t Cert.Spec.cnt) (Finset.sum_congr rfl fun i _ => ?_))
  rw [sPos_apply, sDenSlice_apply]

/-- THE REFERENCE'S VALUE: the composed operations give, at the result's one index, the closed formula of the
    reference's arrangement at the two arguments read as curried matrices. -/
theorem refTerm_eq (a b : FVec Ideal S4096x256 .f32) :
    refTerm a b = fun _ => Cert.Spec.refOut (fun i k => a (Idealize.ShloMosaic.ValueIdx.ix2 i k))
      (fun i k => b (Idealize.ShloMosaic.ValueIdx.ix2 i k)) := by
  funext j
  rw [refTerm_stages, sOut_apply]
  unfold Cert.Spec.refOut
  refine congrArg Neg.neg (congrArg (fun t => Ideal.div t Cert.Spec.cnt) (Finset.sum_congr rfl fun i _ => ?_))
  rw [sSim_sNz_apply, sDen_apply]
  simp only [sSim_sNz_apply]
  rw [sE_cur]
  rfl

end Cert.ReferenceIdeal.RefValue

end
-- ==== Proof.SpecAlgLits.lean ====
/-
  The four single-precision literals of the two closed formulas as real numbers: the clamp is a
  positive real, the kernel's factor is 2, the reference's temperature is 1/2, and the row count is 4096.
-/
import proofs.«171112_j24275155156992_1_alg».proof.Proof.Spec

noncomputable section

namespace Cert.Spec

open Idealize.ShloMosaic

/-- The pattern `0x40000000` denotes the real number 2. -/
theorem two_eq : two = ((2 : ℝ) : EReal) := by
  simp [two, Ideal.ofBits, Ideal.ieee, -EReal.coe_mul]; norm_num

/-- The pattern `0x3F000000` denotes the real number 1/2. -/
theorem half_eq : half = ((1 / 2 : ℝ) : EReal) := by
  simp [half, Ideal.ofBits, Ideal.ieee, -EReal.coe_mul]; norm_num

/-- The pattern `0x45800000` denotes the real number 4096. -/
theorem cnt_eq : cnt = ((4096 : ℝ) : EReal) := by
  simp [cnt, Ideal.ofBits, Ideal.ieee, -EReal.coe_mul]; norm_num

/-- The clamp is a positive real number. -/
theorem eps_eq : ∃ e : ℝ, 0 < e ∧ eps = (e : EReal) := by
  refine ⟨11258999 * (2 ^ 50)⁻¹, by positivity, ?_⟩
  simp [eps, Ideal.ofBits, Ideal.ieee, -EReal.coe_mul]

end Cert.Spec

end
-- ==== Proof.SpecAlgReal.lean ====
/-
  Finite inputs stay finite: the clamped norm of a row of real numbers is a positive real, so the
  normalized matrix has real entries; and normalizing the stacked matrix is stacking the two
  normalized matrices, because the norm of a row depends on that row alone.
-/
import proofs.«171112_j24275155156992_1_alg».proof.Proof.SpecAlgLits

noncomputable section

namespace Cert.Spec

open Idealize.ShloMosaic

/-- The inclusion of the reals into the extended reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The clamped norm of a row of reals is a positive real. -/
theorem nrm_real {n : Nat} (x : Fin n → Fin 256 → ℝ) (i : Fin n) :
    ∃ m : ℝ, 0 < m ∧ nrm (fun i k => (x i k : EReal)) i = (m : EReal) := by
  obtain ⟨e, he, hee⟩ := eps_eq
  refine ⟨max (Real.sqrt (∑ k : Fin 256, x i k * x i k)) e, lt_max_of_lt_right he, ?_⟩
  have hs : (∑ k : Fin 256, ((x i k : EReal) * (x i k : EReal)))
      = ((∑ k : Fin 256, x i k * x i k : ℝ) : EReal) := by
    rw [coe_sum]; exact Finset.sum_congr rfl (fun k _ => (EReal.coe_mul _ _).symm)
  have h0 : ¬ (∑ k : Fin 256, x i k * x i k) < 0 :=
    not_lt.mpr (Finset.sum_nonneg (fun k _ => mul_self_nonneg _))
  show max (Ideal.sqrt (∑ k : Fin 256, ((x i k : EReal) * (x i k : EReal)))) eps = _
  rw [hs, Ideal.sqrt_coe, if_neg h0, hee]
  exact (EReal.coe_strictMono.monotone.map_max).symm

/-- The normalized matrix of a matrix of reals has real entries. -/
theorem nz_real {n : Nat} (x : Fin n → Fin 256 → ℝ) :
    ∃ u : Fin n → Fin 256 → ℝ, nz (fun i k => (x i k : EReal)) = fun i k => (u i k : EReal) := by
  choose m hm hmm using nrm_real x
  refine ⟨fun i k => x i k * (1 / m i), ?_⟩
  funext i k
  show Ideal.div (x i k : EReal) (nrm (fun i k => (x i k : EReal)) i) = _
  rw [hmm i, Ideal.div_coe (hm i).ne', EReal.coe_mul]

/-- A matrix all of whose entries are real is the inclusion of a real matrix. -/
theorem exists_real {n : Nat} (X : Fin n → Fin 256 → EReal)
    (hX : ∀ i k, ∃ r : ℝ, X i k = (r : EReal)) :
    ∃ x : Fin n → Fin 256 → ℝ, X = fun i k => (x i k : EReal) := by
  choose x hx using hX
  exact ⟨x, by funext i k; exact hx i k⟩

/-- Normalizing the stacked matrix is stacking the normalized matrices. -/
theorem nz_stack (A B : Fin 4096 → Fin 256 → EReal) : nz (stack A B) = stack (nz A) (nz B) := by
  funext p k
  by_cases h : p.val < 4096
  · simp only [nz, nrm, stack, dif_pos h]
  · simp only [nz, nrm, stack, dif_neg h]

end Cert.Spec

end
-- ==== Proof.SpecAlgSums.lean ====
/-
  Two regroupings of finite sums, valid in every additive commutative monoid: a sum over the 4096
  columns is the sum over the eight blocks of the sums over the 512 columns of a block, and a sum
  over the 8192 stacked rows is the sum over the first 4096 plus the sum over the last 4096.
-/
import proofs.«171112_j24275155156992_1_alg».proof.Proof.Spec

noncomputable section

namespace Cert.Spec

/-- Block number and position inside the block determine the column, and conversely. -/
def colEquiv : Fin 8 × Fin 512 ≃ Fin 4096 where
  toFun x := col x.1 x.2
  invFun q := (⟨q.val / 512, by have := q.isLt; omega⟩, ⟨q.val % 512, by omega⟩)
  left_inv := fun ⟨c, j⟩ => by
    have hc := c.isLt
    have hj := j.isLt
    refine Prod.ext (Fin.ext ?_) (Fin.ext ?_)
    · show (c.val * 512 + j.val) / 512 = c.val
      omega
    · show (c.val * 512 + j.val) % 512 = j.val
      omega
  right_inv := fun q => Fin.ext (by
    show q.val / 512 * 512 + q.val % 512 = q.val
    omega)

/-- A sum over the columns, block by block. -/
theorem sum_col {M : Type*} [AddCommMonoid M] (f : Fin 4096 → M) :
    ∑ c : Fin 8, ∑ j : Fin 512, f (col c j) = ∑ j : Fin 4096, f j :=
  (Fintype.sum_prod_type' (fun c j => f (col c j))).symm.trans
    (Fintype.sum_equiv colEquiv _ _ (fun _ => rfl))

/-- A sum over the stacked rows, the first 4096 and the last 4096 apart. -/
theorem sum_rows {M : Type*} [AddCommMonoid M] (f : Fin 8192 → M) :
    ∑ q : Fin 8192, f q
      = ∑ j : Fin 4096, f ⟨j.val, by have := j.isLt; omega⟩
        + ∑ j : Fin 4096, f ⟨4096 + j.val, by have := j.isLt; omega⟩ :=
  Fin.sum_univ_add (a := 4096) (b := 4096) f

end Cert.Spec

end
-- ==== Proof.SpecAlgKer.lean ====
/-
  The kernel's arrangement on finite inputs, as real numbers. With `u`, `v` the (real) normalized
  matrices, the similarity is `2 ⟨u i, v j⟩`, the denominator of row `i` is the positive real
  `∑_{j ≠ i} exp (2 ⟨u i, u j⟩) + ∑_{j ≠ i} exp (2 ⟨u i, v j⟩)`, and the positive term is `2 ⟨u i, v i⟩`.
-/
import proofs.«171112_j24275155156992_1_alg».proof.Proof.SpecAlgReal
import proofs.«171112_j24275155156992_1_alg».proof.Proof.SpecAlgSums

noncomputable section

namespace Cert.Spec

open Idealize.ShloMosaic

/-- Twice the inner product of row `i` of `u` and row `j` of `v`. -/
def sK {m n : Nat} (u : Fin m → Fin 256 → ℝ) (v : Fin n → Fin 256 → ℝ) (i : Fin m) (j : Fin n) : ℝ :=
  (∑ k : Fin 256, u i k * v j k) * 2

/-- `exp` of the similarity off the diagonal, zero on it. -/
def eo (u v : Fin 4096 → Fin 256 → ℝ) (i j : Fin 4096) : ℝ :=
  if i = j then 0 else Real.exp (sK u v i j)

/-- The denominator of row `i`. -/
def dn (u v : Fin 4096 → Fin 256 → ℝ) (i : Fin 4096) : ℝ :=
  (∑ j : Fin 4096, eo u u i j) + (∑ j : Fin 4096, eo u v i j)

/-- The similarity depends on the two rows only. -/
theorem sK_rows {m n m' n' : Nat} (u : Fin m → Fin 256 → ℝ) (v : Fin n → Fin 256 → ℝ)
    (u' : Fin m' → Fin 256 → ℝ) (v' : Fin n' → Fin 256 → ℝ) (i : Fin m) (j : Fin n) (i' : Fin m')
    (j' : Fin n') (hi : u i = u' i') (hj : v j = v' j') : sK u v i j = sK u' v' i' j' := by
  simp only [sK, hi, hj]

/-- The inner product of two rows of real numbers is a real number. -/
theorem ip_coe {m n : Nat} (U : Fin m → Fin 256 → EReal) (V : Fin n → Fin 256 → EReal)
    (u : Fin m → Fin 256 → ℝ) (v : Fin n → Fin 256 → ℝ)
    (hU : U = fun i k => (u i k : EReal)) (hV : V = fun i k => (v i k : EReal)) (i : Fin m) (j : Fin n) :
    ∑ k : Fin 256, U i k * V j k = ((∑ k : Fin 256, u i k * v j k : ℝ) : EReal) := by
  subst hU hV
  rw [coe_sum]
  exact Finset.sum_congr rfl (fun k _ => (EReal.coe_mul _ _).symm)

/-- The kernel's similarity on finite inputs. -/
theorem simK_coe (X Y : Fin 4096 → Fin 256 → EReal) (u v : Fin 4096 → Fin 256 → ℝ)
    (hU : nz X = fun i k => (u i k : EReal)) (hV : nz Y = fun i k => (v i k : EReal)) (i j : Fin 4096) :
    simK X Y i j = (sK u v i j : EReal) := by
  show (∑ k : Fin 256, nz X i k * nz Y j k) * two = _
  rw [ip_coe (nz X) (nz Y) u v hU hV i j, two_eq, ← EReal.coe_mul]
  rfl

/-- The kernel's off-diagonal exponential on finite inputs. -/
theorem expOff_coe (X Y : Fin 4096 → Fin 256 → EReal) (u v : Fin 4096 → Fin 256 → ℝ)
    (hU : nz X = fun i k => (u i k : EReal)) (hV : nz Y = fun i k => (v i k : EReal)) (i j : Fin 4096) :
    expOff X Y i j = (eo u v i j : EReal) := by
  unfold expOff eo
  rw [simK_coe X Y u v hU hV i j]
  by_cases h : i = j
  · rw [if_pos h, if_pos h]; rfl
  · rw [if_neg h, if_neg h]; rfl

/-- The kernel's denominator, block by block, is the denominator. -/
theorem denK_coe (A B : Fin 4096 → Fin 256 → EReal) (u v : Fin 4096 → Fin 256 → ℝ)
    (hU : nz A = fun i k => (u i k : EReal)) (hV : nz B = fun i k => (v i k : EReal)) (i : Fin 4096) :
    denK A B i = (dn u v i : EReal) := by
  show ∑ c : Fin 8, ((∑ j : Fin 512, expOff A A i (col c j)) + (∑ j : Fin 512, expOff A B i (col c j))) = _
  rw [Finset.sum_add_distrib, sum_col (fun j => expOff A A i j), sum_col (fun j => expOff A B i j),
    Finset.sum_congr rfl (fun j _ => expOff_coe A A u u hU hU i j),
    Finset.sum_congr rfl (fun j _ => expOff_coe A B u v hU hV i j), ← coe_sum, ← coe_sum, ← EReal.coe_add]
  rfl

/-- The sum against the diagonal mask picks the diagonal entry. -/
theorem posK_eq (A B : Fin 4096 → Fin 256 → EReal) (i : Fin 4096) : posK A B i = simK A B i i := by
  show ∑ c : Fin 8, ∑ j : Fin 512, (if i = col c j then simK A B i (col c j) else 0) = _
  rw [sum_col (fun j => if i = j then simK A B i j else 0), Finset.sum_ite_eq, if_pos (Finset.mem_univ _)]

/-- The denominator is positive: every term is nonnegative and some column differs from `i`. -/
theorem dn_pos (u v : Fin 4096 → Fin 256 → ℝ) (i : Fin 4096) : 0 < dn u v i := by
  have hnn : ∀ (w : Fin 4096 → Fin 256 → ℝ) (j : Fin 4096), 0 ≤ eo u w i j := by
    intro w j
    unfold eo
    split_ifs
    · exact le_refl _
    · exact (Real.exp_pos _).le
  have hi := i.isLt
  let j0 : Fin 4096 := ⟨(i.val + 1) % 4096, Nat.mod_lt _ (by norm_num)⟩
  have hij : i ≠ j0 := fun h => by
    have h' : i.val = (i.val + 1) % 4096 := congrArg Fin.val h
    omega
  have h0 : 0 < eo u u i j0 := by
    unfold eo
    rw [if_neg hij]
    exact Real.exp_pos _
  have h1 : 0 < ∑ j : Fin 4096, eo u u i j :=
    Finset.sum_pos' (fun j _ => hnn u j) ⟨j0, Finset.mem_univ _, h0⟩
  have h2 : 0 ≤ ∑ j : Fin 4096, eo u v i j := Finset.sum_nonneg (fun j _ => hnn v j)
  exact add_pos_of_pos_of_nonneg h1 h2

/-- One summand of the kernel's loss on finite inputs. -/
theorem kerTerm (A B : Fin 4096 → Fin 256 → EReal) (u v : Fin 4096 → Fin 256 → ℝ)
    (hU : nz A = fun i k => (u i k : EReal)) (hV : nz B = fun i k => (v i k : EReal)) (i : Fin 4096) :
    Ideal.log (denK A B i) - posK A B i = ((Real.log (dn u v i) - sK u v i i : ℝ) : EReal) := by
  rw [denK_coe A B u v hU hV i, posK_eq, simK_coe A B u v hU hV i i, Ideal.log_coe,
    if_neg (not_le.mpr (dn_pos u v i)), ← EReal.coe_sub]

end Cert.Spec

end
-- ==== Proof.SpecAlgRef.lean ====
/-
  The reference's arrangement on finite inputs, as real numbers. The normalized stacked matrix is
  the stack `w` of the two (real) normalized matrices `u`, `v`; the similarity of stacked rows is
  `⟨w p, w q⟩ / (1/2) = 2 ⟨w p, w q⟩`; for a row `i` of the first half the masked sum over the 8192
  columns is the kernel's denominator, and the entry at column `4096 + i` is `2 ⟨u i, v i⟩`.
-/
import proofs.«171112_j24275155156992_1_alg».proof.Proof.SpecAlgKer

noncomputable section

namespace Cert.Spec

open Idealize.ShloMosaic

/-- `u` stacked on `v`, over the reals. -/
def rstack (u v : Fin 4096 → Fin 256 → ℝ) (p : Fin 8192) (k : Fin 256) : ℝ :=
  if h : p.val < 4096 then u ⟨p.val, h⟩ k else v ⟨p.val - 4096, by have := p.isLt; omega⟩ k

/-- Stacking commutes with the inclusion of the reals. -/
theorem stack_coe (u v : Fin 4096 → Fin 256 → ℝ) :
    stack (fun i k => (u i k : EReal)) (fun i k => (v i k : EReal))
      = fun p k => (rstack u v p k : EReal) := by
  funext p k
  unfold stack rstack
  by_cases h : p.val < 4096
  · rw [dif_pos h, dif_pos h]
  · rw [dif_neg h, dif_neg h]

/-- Row `j` of the first half of the stack. -/
theorem rstack_lo (u v : Fin 4096 → Fin 256 → ℝ) (j : Fin 4096) (h : j.val < 8192) :
    rstack u v ⟨j.val, h⟩ = u j := by
  funext k
  unfold rstack
  exact dif_pos j.isLt

/-- Row `j` of the second half of the stack. -/
theorem rstack_hi (u v : Fin 4096 → Fin 256 → ℝ) (j : Fin 4096) (h : 4096 + j.val < 8192) :
    rstack u v ⟨4096 + j.val, h⟩ = v j := by
  funext k
  unfold rstack
  have hj : ¬ (4096 + j.val < 4096) := by omega
  exact (dif_neg hj).trans (congrArg (fun q => v q k) (Fin.ext (by dsimp only; omega)))

/-- The normalized stacked matrix on finite inputs. -/
theorem nz_stack_coe (A B : Fin 4096 → Fin 256 → EReal) (u v : Fin 4096 → Fin 256 → ℝ)
    (hU : nz A = fun i k => (u i k : EReal)) (hV : nz B = fun i k => (v i k : EReal)) :
    nz (stack A B) = fun p k => (rstack u v p k : EReal) := by
  rw [nz_stack, hU, hV, stack_coe]

/-- The reference's similarity on finite inputs: division by one half is multiplication by two. -/
theorem simR_coe (E : Fin 8192 → Fin 256 → EReal) (w : Fin 8192 → Fin 256 → ℝ)
    (hW : nz E = fun p k => (w p k : EReal)) (p q : Fin 8192) :
    simR E p q = (sK w w p q : EReal) := by
  show Ideal.div (∑ k : Fin 256, nz E p k * nz E q k) half = _
  rw [ip_coe (nz E) (nz E) w w hW hW p q, half_eq, Ideal.div_coe (by norm_num), ← EReal.coe_mul]
  unfold sK
  norm_num

/-- The reference's masked sum on finite inputs. -/
theorem denR_coe (E : Fin 8192 → Fin 256 → EReal) (w : Fin 8192 → Fin 256 → ℝ)
    (hW : nz E = fun p k => (w p k : EReal)) (p : Fin 8192) :
    denR E p = ((∑ q : Fin 8192, if p.val % 4096 = q.val % 4096 then 0 else Real.exp (sK w w p q) : ℝ) : EReal) := by
  show ∑ q : Fin 8192, Ideal.exp (simR E p q) * maskR p q = _
  rw [coe_sum]
  refine Finset.sum_congr rfl (fun q _ => ?_)
  rw [simR_coe E w hW p q, Ideal.exp_coe]
  unfold maskR
  by_cases h : p.val % 4096 = q.val % 4096
  · rw [if_pos h, if_pos h, mul_zero]; rfl
  · rw [if_neg h, if_neg h, mul_one]

/-- For a row of the first half the reference's denominator is the kernel's. -/
theorem denR_stack (A B : Fin 4096 → Fin 256 → EReal) (u v : Fin 4096 → Fin 256 → ℝ)
    (hU : nz A = fun i k => (u i k : EReal)) (hV : nz B = fun i k => (v i k : EReal))
    (i : Fin 4096) (h : i.val < 8192) :
    denR (stack A B) ⟨i.val, h⟩ = (dn u v i : EReal) := by
  rw [denR_coe (stack A B) (rstack u v) (nz_stack_coe A B u v hU hV)]
  refine congrArg Real.toEReal ?_
  rw [sum_rows]
  unfold dn
  have hi := i.isLt
  refine congrArg₂ (fun x y : ℝ => x + y) ?_ ?_
  · refine Finset.sum_congr rfl (fun j _ => ?_)
    have hj := j.isLt
    unfold eo
    have hc : (i.val % 4096 = j.val % 4096) ↔ i = j :=
      ⟨fun hh => Fin.ext (by omega), fun hh => by rw [hh]⟩
    rw [sK_rows (rstack u v) (rstack u v) u u ⟨i.val, h⟩ ⟨j.val, _⟩ i j (rstack_lo u v i _) (rstack_lo u v j _)]
    exact if_congr hc rfl rfl
  · refine Finset.sum_congr rfl (fun j _ => ?_)
    have hj := j.isLt
    unfold eo
    have hc : (i.val % 4096 = (4096 + j.val) % 4096) ↔ i = j :=
      ⟨fun hh => Fin.ext (by omega), fun hh => by rw [hh]; omega⟩
    rw [sK_rows (rstack u v) (rstack u v) u v ⟨i.val, h⟩ ⟨4096 + j.val, _⟩ i j (rstack_lo u v i _) (rstack_hi u v j _)]
    exact if_congr hc rfl rfl

/-- The reference's positive entry on finite inputs. -/
theorem posR_stack (A B : Fin 4096 → Fin 256 → EReal) (u v : Fin 4096 → Fin 256 → ℝ)
    (hU : nz A = fun i k => (u i k : EReal)) (hV : nz B = fun i k => (v i k : EReal))
    (i : Fin 4096) (h : i.val < 8192) (h' : 4096 + i.val < 8192) :
    simR (stack A B) ⟨i.val, h⟩ ⟨4096 + i.val, h'⟩ = (sK u v i i : EReal) := by
  rw [simR_coe (stack A B) (rstack u v) (nz_stack_coe A B u v hU hV),
    sK_rows (rstack u v) (rstack u v) u v ⟨i.val, h⟩ ⟨4096 + i.val, h'⟩ i i (rstack_lo u v i _) (rstack_hi u v i _)]

/-- One summand of the reference's loss on finite inputs. -/
theorem refTerm (A B : Fin 4096 → Fin 256 → EReal) (u v : Fin 4096 → Fin 256 → ℝ)
    (hU : nz A = fun i k => (u i k : EReal)) (hV : nz B = fun i k => (v i k : EReal))
    (i : Fin 4096) (h : i.val < 8192) (h' : 4096 + i.val < 8192) :
    Ideal.log (Ideal.div (Ideal.exp (simR (stack A B) ⟨i.val, h⟩ ⟨4096 + i.val, h'⟩))
        (denR (stack A B) ⟨i.val, h⟩))
      = ((sK u v i i - Real.log (dn u v i) : ℝ) : EReal) := by
  have hd := dn_pos u v i
  have hpos : 0 < Real.exp (sK u v i i) * (1 / dn u v i) :=
    mul_pos (Real.exp_pos _) (one_div_pos.mpr hd)
  rw [posR_stack A B u v hU hV i h h', denR_stack A B u v hU hV i h, Ideal.exp_coe,
    Ideal.div_coe hd.ne', ← EReal.coe_mul, Ideal.log_coe, if_neg (not_le.mpr hpos)]
  refine congrArg Real.toEReal ?_
  rw [one_div, Real.log_mul (Real.exp_ne_zero _) (inv_ne_zero hd.ne'), Real.log_exp, Real.log_inv]
  ring

end Cert.Spec

end
-- ==== Proof.SpecAlgebra.lean ====
/-
  The two closed formulas agree on finite inputs. With `d i` the (positive, real) denominator of
  row `i` and `p i` its (real) positive term, the kernel's loss is `(∑ i, (log (d i) − p i)) / 4096`
  and the reference's is `−((∑ i, log (exp (p i) / d i)) / 4096) = −((∑ i, (p i − log (d i))) / 4096)`,
  the same real number.
-/
import proofs.«171112_j24275155156992_1_alg».proof.Proof.SpecAlgRef

noncomputable section

namespace Cert.Spec

open Idealize.ShloMosaic

/-- The kernel's loss and the reference's loss are equal whenever every input entry is a real number. -/
theorem kerOut_eq_refOut (A B : Fin 4096 → Fin 256 → EReal)
    (hA : ∀ i k, ∃ r : ℝ, A i k = (r : EReal)) (hB : ∀ i k, ∃ r : ℝ, B i k = (r : EReal)) :
    kerOut A B = refOut A B := by
  obtain ⟨a, rfl⟩ := exists_real A hA
  obtain ⟨b, rfl⟩ := exists_real B hB
  obtain ⟨u, hU⟩ := nz_real a
  obtain ⟨v, hV⟩ := nz_real b
  have hk : kerOut (fun i k => (a i k : EReal)) (fun i k => (b i k : EReal))
      = (((∑ i : Fin 4096, (Real.log (dn u v i) - sK u v i i)) * (1 / 4096) : ℝ) : EReal) := by
    show Ideal.div (∑ i : Fin 4096, (Ideal.log (denK _ _ i) - posK _ _ i)) cnt = _
    rw [Finset.sum_congr rfl (fun i _ => kerTerm _ _ u v hU hV i), ← coe_sum, cnt_eq,
      Ideal.div_coe (by norm_num), ← EReal.coe_mul]
  have hr : refOut (fun i k => (a i k : EReal)) (fun i k => (b i k : EReal))
      = ((-((∑ i : Fin 4096, (sK u v i i - Real.log (dn u v i))) * (1 / 4096)) : ℝ) : EReal) := by
    show -(Ideal.div (∑ i : Fin 4096,
        Ideal.log (Ideal.div (Ideal.exp (simR (stack _ _) ⟨i.val, _⟩ ⟨4096 + i.val, _⟩))
          (denR (stack _ _) ⟨i.val, _⟩))) cnt) = _
    rw [Finset.sum_congr rfl (fun i _ => refTerm _ _ u v hU hV i _ _), ← coe_sum, cnt_eq,
      Ideal.div_coe (by norm_num), ← EReal.coe_mul, ← EReal.coe_neg]
  rw [hk, hr]
  refine congrArg Real.toEReal ?_
  rw [← neg_mul, ← Finset.sum_neg_distrib]
  refine congrArg (fun s : ℝ => s * (1 / 4096)) ?_
  exact Finset.sum_congr rfl (fun i _ => by ring)

end Cert.Spec

end
-- ==== Proof.FinitePre.lean ====
/-
  From the precondition to finiteness. The predicate is `all (|a| < +∞) ∧ all (|b| < +∞)`: when it
  answers 1, both conjuncts are 1, every comparison under each `all` is 1, and an extended real whose
  absolute value `max x (−x)` is below `+∞` is neither `−∞` nor `+∞`, hence a real number.
-/
import proofs.«171112_j24275155156992_1_alg».proof.Pre_finite_inputs
import proofs.«171112_j24275155156992_1_alg».proof.Proof.Gen.Pre_finite_inputs
import Idealize.ShloMosaic.Lib.ValueIdx
import Idealize.ShloMosaic.Lib.ReduceAll

noncomputable section

namespace Cert.Proof.FinitePre

open Idealize.ShloMosaic Idealize.ShloMosaic.ValueIdx

/-- The rank-0 shape has one index. -/
instance : Subsingleton Cert.Pre_finite_inputs.S_.Idx := ⟨fun a b => funext fun d => d.elim0⟩

/-- The pattern `0x7F800000` denotes `+∞`. -/
theorem ofBits_inf : Ideal.ofBits .f32 0x7F800000#32 = (⊤ : EReal) := by
  simp [Ideal.ofBits, Ideal.ieee]

/-- An extended real whose absolute value is below `+∞` is a real number. -/
theorem real_of_abs_lt (x : EReal)
    (h : Ideal.cmp .olt (max x (-x)) (Ideal.ofBits .f32 0x7F800000#32) = 1#1) : ∃ r : ℝ, x = (r : EReal) := by
  rw [ofBits_inf] at h
  induction x using EReal.rec with
  | bot => simp [Ideal.cmp] at h
  | coe r => exact ⟨r, rfl⟩
  | top => simp [Ideal.cmp] at h

/-- If the precondition holds, every entry of both inputs is a real number. -/
theorem finite_of_fn [Cert.Pre_finite_inputs.Facts] (a b : FVec Ideal Cert.Pre_finite_inputs.S4096x256 .f32)
    (h : Cert.Pre_finite_inputs.fn (F := Ideal) a b = fun _ => 1#1) :
    (∀ (i : Fin 4096) (k : Fin 256), ∃ r : ℝ, a (Idealize.ShloMosaic.ValueIdx.ix2 i k) = (r : EReal)) ∧
    (∀ (i : Fin 4096) (k : Fin 256), ∃ r : ℝ, b (Idealize.ShloMosaic.ValueIdx.ix2 i k) = (r : EReal)) := by
  have h0 := congrFun h ix0
  dsimp only [Cert.Pre_finite_inputs.fn] at h0
  obtain ⟨h1, h2⟩ := IntOp.andi_eq_one.1 h0
  refine ⟨fun i k => ?_, fun i k => ?_⟩
  · exact real_of_abs_lt _ (Host.reduce_andi_all _ _ _ _ ix0 h1 (ix2 i k))
  · exact real_of_abs_lt _ (Host.reduce_andi_all _ _ _ _ ix0 h2 (ix2 i k))

end Cert.Proof.FinitePre

end
-- ==== Proof.lean ====
/-
  Both programs compute the NT-Xent contrastive loss of two 4096 × 256 matrices A and B with finite entries.
  Every row is divided by max (‖row‖, ε). For row i of A the denominator is the sum of exp (2⟨Âᵢ, Âⱼ⟩) and of
  exp (2⟨Âᵢ, B̂ⱼ⟩) over all j ≠ i, the positive term is 2⟨Âᵢ, B̂ᵢ⟩, and the loss is the mean over i of
  log denominator − positive.

  The kernel program normalizes the rows with array operations, runs one grid region over 8 × 8 blocks of 512
  rows by 512 columns that adds each block's off-diagonal exponential sums and its diagonal similarity into two
  accumulators carried along a row of blocks and emits them at the last column block, and finishes with array
  operations (`Spec.kerOut`). The reference stacks A over B, forms the 8192 × 8192 similarity matrix divided by
  one half, masks the entries whose row numbers agree modulo 4096, and returns −mean (log (exp positive /
  denominator)) (`Spec.refOut`). On finite inputs every norm clamp is a positive real, every similarity a real and
  every denominator a positive real, so log (exp p / d) = p − log d and the two formulas agree
  (`Spec.kerOut_eq_refOut`).

  The frames: each kernel program's run is the launch of its region — whose first two input windows read one array,
  held as two half shares — around the body's run at every grid point; the reference's run is its operations' fold.
-/
import proofs.«171112_j24275155156992_1_alg».proof.Defs
import proofs.«171112_j24275155156992_1_alg».proof.Proof.Gen.Kernel
import proofs.«171112_j24275155156992_1_alg».proof.Proof.Gen.KernelIdeal
import proofs.«171112_j24275155156992_1_alg».proof.Proof.Gen.ReferenceIdeal
import proofs.«171112_j24275155156992_1_alg».proof.Proof.Gen.Pre_finite_inputs
import proofs.«171112_j24275155156992_1_alg».proof.Proof.KTop
import proofs.«171112_j24275155156992_1_alg».proof.Proof.KTopW
import proofs.«171112_j24275155156992_1_alg».proof.Proof.KVal
import proofs.«171112_j24275155156992_1_alg».proof.Proof.RefRun
import proofs.«171112_j24275155156992_1_alg».proof.Proof.RefValue
import proofs.«171112_j24275155156992_1_alg».proof.Proof.SpecAlgebra
import proofs.«171112_j24275155156992_1_alg».proof.Proof.FinitePre

noncomputable section

namespace Cert.Proof

open Idealize.ShloMosaic Idealize.ShloMosaic.TcCoe Idealize.ShloMosaic.ValueIdx Idealize.SL.Sem

theorem frame_k : Cert.frame_Kernel := fun m ρ _ => Cert.Kernel.KTop.frame (F := Bits) m ρ

theorem frame_ki : Cert.frame_KernelIdeal := fun m ρ _ => Cert.KernelIdeal.KTop.frame (F := Ideal) m ρ

theorem frame_ri : Cert.frame_ReferenceIdeal := fun m ρ _ =>
  (θ_run Cert.ReferenceIdeal.defs _ _).mono (fun _ h c => (h c).2) (Cert.ReferenceIdeal.RefRun.run m ρ)

theorem preserves : Cert.preserves_Kernel_KernelIdeal := trivial

/-- The kernel's result buffer ends at the loss in the kernel's arrangement, the reference's at the loss in the
    reference's arrangement of the same two matrices; the precondition makes every entry a real, where the two agree. -/
theorem algebraic : Cert.algebraic_KernelIdeal_ReferenceIdeal := by
  intro m ρ m' ρ' hpre hagree
  refine ⟨fun c _ => Cert.Spec.kerOut (Cert.KernelIdeal.KVal.A m c) (Cert.KernelIdeal.KVal.B m c), ?_, ?_⟩
  · refine (θ_run Cert.KernelIdeal.defs _ _).mono (fun _ h c => ⟨?_, ?_, ?_⟩) (Cert.KernelIdeal.KTop.run_main (F := Ideal) m ρ)
    · exact ((h c).2 Cert.KernelIdeal.main_v22 Cert.KernelIdeal.KTop.v22_rest).trans (Cert.KernelIdeal.KVal.result m c)
    · exact ((h c).2 Cert.KernelIdeal.main_arg0 Cert.KernelIdeal.KTop.arg0_rest).trans (Cert.KernelIdeal.KTop.WF_arg0 m _ c)
    · exact ((h c).2 Cert.KernelIdeal.main_arg1 Cert.KernelIdeal.KTop.arg1_rest).trans (Cert.KernelIdeal.KTop.WF_arg1 m _ c)
  · refine (θ_run Cert.ReferenceIdeal.defs _ _).mono (fun _ h c => ⟨?_, (h c).2⟩) (Cert.ReferenceIdeal.RefRun.run m' ρ')
    have hfin := Cert.Proof.FinitePre.finite_of_fn _ _ (hpre c)
    rw [(h c).1, Cert.ReferenceIdeal.RefValue.refTerm_eq, (hagree c).1, (hagree c).2]
    funext _
    exact (Cert.Spec.kerOut_eq_refOut _ _ hfin.1 hfin.2).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
